-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2048x1024 .f32) (main_arg1 : FVec F S3072x1024 .f32) (main_arg2 : FVec F S3072 .f32) (main_arg3 : FVec F S1024x1024 .f32) (main_arg4 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2048x1024 : Shape := ⟨2, ![2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S1x3072 : Shape := ⟨2, ![1, 3072]⟩
abbrev S1x1024 : Shape := ⟨2, ![1, 1024]⟩
abbrev S2048x3072 : Shape := ⟨2, ![2048, 3072]⟩
abbrev S512x1024 : Shape := ⟨2, ![512, 1024]⟩
abbrev S512x3072 : Shape := ⟨2, ![512, 3072]⟩
abbrev S256x1024 : Shape := ⟨2, ![256, 1024]⟩
abbrev S16x256x1 : Shape := ⟨3, ![16, 256, 1]⟩
abbrev S16x256x64 : Shape := ⟨3, ![16, 256, 64]⟩
abbrev S256x16x64 : Shape := ⟨3, ![256, 16, 64]⟩
abbrev S512x16x64 : Shape := ⟨3, ![512, 16, 64]⟩
abbrev S16x512x64 : Shape := ⟨3, ![16, 512, 64]⟩
abbrev S16x256x512 : Shape := ⟨3, ![16, 256, 512]⟩
abbrev S16x256 : Shape := ⟨2, ![16, 256]⟩

abbrev nBuf : Space → Nat
  | .hbm => 14
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2048x1024, .bf16⟩
  | .hbm, ⟨6, _⟩ => ⟨S1024x3072, .f32⟩
  | .hbm, ⟨7, _⟩ => ⟨S1024x3072, .bf16⟩
  | .hbm, ⟨8, _⟩ => ⟨S1024x1024, .f32⟩
  | .hbm, ⟨9, _⟩ => ⟨S1024x1024, .bf16⟩
  | .hbm, ⟨10, _⟩ => ⟨S1x3072, .f32⟩
  | .hbm, ⟨11, _⟩ => ⟨S1x1024, .f32⟩
  | .hbm, ⟨12, _⟩ => ⟨S2048x3072, .bf16⟩
  | .hbm, ⟨13, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S256x1024, .bf16⟩
  | .local _ .vmem, ⟨7, _⟩ => ⟨S256x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S16x256x1, .f32⟩
  | .local _ .vmem, ⟨17, _⟩ => ⟨S16x256x1, .f32⟩
  | .local _ .vmem, ⟨18, _⟩ => ⟨S16x256x64, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_31 : BitVec 32 := 0#32
  let v50 : BitVec 1 := Scalar.cmpi .ne v49 c0_i32_31
  v50

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bitsLt_bf16_f32 : FTy.bits .bf16 < FTy.bits .f32
  transposes_S3072x1024_S1024x3072_1_0 : S3072x1024.Transposes [1, 0] S1024x3072
  transposes_S1024x1024_S1024x1024_1_0 : S1024x1024.Transposes [1, 0] S1024x1024
  shapeCasts_S3072_S1x3072 : S3072.ShapeCasts S1x3072
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  inb_S16x256x1_S16x256x1_0_0_0 : ∀ a, (![0, 0, 0] : Fin 3 → Nat) a + S16x256x1.size a ≤ S16x256x1.size a
  h_S16x256x1 : 0 < S16x256x1.numel
  shapeCasts_S16x256x1_S16x256x1 : S16x256x1.ShapeCasts S16x256x1
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S256x1024_S256x16x64 : S256x1024.ShapeCasts S256x16x64
  transposes_S256x16x64_p1_0_2_S16x256x64 : S256x16x64.Transposes [1, 0, 2] S16x256x64
  shapeCasts_S512x1024_S512x16x64 : S512x1024.ShapeCasts S512x16x64
  transposes_S512x16x64_p1_0_2_S16x512x64 : S512x16x64.Transposes [1, 0, 2] S16x512x64
  reduces_S16x256x512_S16x256 : S16x256x512.Reduces [2] S16x256
  shapeCasts_S16x256_S16x256x1 : S16x256.ShapeCasts S16x256x1
  broadcasts_S16x256x1_S16x256x512 : S16x256x1.Broadcasts S16x256x512
  broadcasts_S16x256x1_S16x256x64 : S16x256x1.Broadcasts S16x256x64
  transposes_S16x256x64_p1_0_2_S256x16x64 : S16x256x64.Transposes [1, 0, 2] S256x16x64
  shapeCasts_S256x16x64_S256x1024 : S256x16x64.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S512x1024_S1024x3072_S512x3072_1_0_0_1_n_n_wf : DotDims.WF S512x1024 S1024x3072 S512x3072 [1] [0] [0] [1] [] []
  dot_S16x256x64_S16x512x64_S16x256x512_2_2_1_1_0_0_wf : DotDims.WF S16x256x64 S16x512x64 S16x256x512 [2] [2] [1] [1] [0] [0]
  dot_S16x256x512_S16x512x64_S16x256x64_2_1_1_2_0_0_wf : DotDims.WF S16x256x512 S16x512x64 S16x256x64 [2] [1] [1] [2] [0] [0]
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .bf16 = 32 ∨ (Rect.block (s := S2048x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S2048x3072.size a
  hwx0_3 : ∀ i : grid0.Coords, EltTy.bits .bf16 = 32 ∨ (Rect.block (s := S2048x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S2048x3072.size a
  hwx1_0 : ∀ i : grid1.Coords, EltTy.bits .bf16 = 32 ∨ (Rect.block (s := S2048x3072) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S2048x3072.size a
  hwx1_1 : ∀ i : grid1.Coords, EltTy.bits .bf16 = 32 ∨ (Rect.block (s := S2048x3072) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S2048x3072.size a
  hwx1_2 : ∀ i : grid1.Coords, EltTy.bits .bf16 = 32 ∨ (Rect.block (s := S2048x3072) S512x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S2048x1024.size a
  hwx1_5 : ∀ i : grid1.Coords, EltTy.bits .f32 = 32 ∨ (Rect.block (s := S2048x1024) S256x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S16x256x64_S16x512x64_S16x256x512_2_2_1_1_0_0 : DotDims S16x256x64 S16x512x64 S16x256x512 where
  lhsContracting := [2]
  rhsContracting := [2]
  lhsNonContracting := [1]
  rhsNonContracting := [1]
  lhsBatch := [0]
  rhsBatch := [0]
  wf := dot_S16x256x64_S16x512x64_S16x256x512_2_2_1_1_0_0_wf
def dot_S16x256x512_S16x512x64_S16x256x64_2_1_1_2_0_0 : DotDims S16x256x512 S16x512x64 S16x256x64 where
  lhsContracting := [2]
  rhsContracting := [1]
  lhsNonContracting := [1]
  rhsNonContracting := [2]
  lhsBatch := [0]
  rhsBatch := [0]
  wf := dot_S16x256x512_S16x512x64_S16x256x64_2_1_1_2_0_0_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2048x1024 : Shape := ⟨2, ![2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S2048x3072 : Shape := ⟨2, ![2048, 3072]⟩
abbrev S1x3072 : Shape := ⟨2, ![1, 3072]⟩
abbrev S2048x16x64 : Shape := ⟨3, ![2048, 16, 64]⟩
abbrev S16x2048x64 : Shape := ⟨3, ![16, 2048, 64]⟩
abbrev S_ : Shape := ⟨0, ![]⟩
abbrev S16x2048x2048 : Shape := ⟨3, ![16, 2048, 2048]⟩
abbrev S16x2048 : Shape := ⟨2, ![16, 2048]⟩
abbrev S16x2048x1 : Shape := ⟨3, ![16, 2048, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x3072, .f32⟩
  | .hbm, ⟨6, _⟩ => ⟨S2048x3072, .f32⟩
  | .hbm, ⟨7, _⟩ => ⟨S1x3072, .f32⟩
  | .hbm, ⟨8, _⟩ => ⟨S2048x3072, .f32⟩
  | .hbm, ⟨9, _⟩ => ⟨S2048x3072, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x16x64, .f32⟩
  | .hbm, ⟨14, _⟩ => ⟨S16x2048x64, .f32⟩
  | .hbm, ⟨15, _⟩ => ⟨S2048x16x64, .f32⟩
  | .hbm, ⟨16, _⟩ => ⟨S16x2048x64, .f32⟩
  | .hbm, ⟨17, _⟩ => ⟨S2048x16x64, .f32⟩
  | .hbm, ⟨18, _⟩ => ⟨S16x2048x64, .f32⟩
  | .hbm, ⟨19, _⟩ => ⟨S_, .f32⟩
  | .hbm, ⟨20, _⟩ => ⟨S16x2048x64, .f32⟩
  | .hbm, ⟨21, _⟩ => ⟨S16x2048x64, .f32⟩
  | .hbm, ⟨22, _⟩ => ⟨S16x2048x2048, .f32⟩
  | .hbm, ⟨23, _⟩ => ⟨S_, .f32⟩
  | .hbm, ⟨24, _⟩ => ⟨S16x2048, .f32⟩
  | .hbm, ⟨25, _⟩ => ⟨S_, .f32⟩
  | .hbm, ⟨26, _⟩ => ⟨S16x2048, .f32⟩
  | .hbm, ⟨27, _⟩ => ⟨S16x2048, .f32⟩
  | .hbm, ⟨28, _⟩ => ⟨S16x2048x1, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S16x2048x2048, .f32⟩
  | .hbm, ⟨36, _⟩ => ⟨S16x2048x2048, .f32⟩
  | .hbm, ⟨37, _⟩ => ⟨S16x2048x64, .f32⟩
  | .hbm, ⟨38, _⟩ => ⟨S2048x16x64, .f32⟩
  | .hbm, ⟨39, _⟩ => ⟨S2048x1024, .f32⟩
  | .hbm, ⟨40, _⟩ => ⟨S1024x1024, .f32⟩
  | .hbm, ⟨41, _⟩ => ⟨S2048x1024, .f32⟩
  | .hbm, ⟨42, _⟩ => ⟨S1x1024, .f32⟩
  | .hbm, ⟨43, _⟩ => ⟨S2048x1024, .f32⟩
  | .hbm, ⟨44, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S2048x3072_0_1 : S1x3072.BroadcastsInDim S2048x3072 (![0, 1] : Fin 2 → Fin S2048x3072.rank)
  slices_S2048x3072_S2048x1024_0_0 : S2048x3072.Slices ![0, 0] S2048x1024
  slices_S2048x3072_S2048x1024_0_1024 : S2048x3072.Slices ![0, 1024] S2048x1024
  slices_S2048x3072_S2048x1024_0_2048 : S2048x3072.Slices ![0, 2048] S2048x1024
  shapeCasts_S2048x1024_S2048x16x64 : S2048x1024.ShapeCasts S2048x16x64
  transposes_S2048x16x64_S16x2048x64_1_0_2 : S2048x16x64.Transposes [1, 0, 2] S16x2048x64
  bcast_S_S16x2048x64 : S_.BroadcastsInDim S16x2048x64 (![] : Fin 0 → Fin S16x2048x64.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  dot_S2048x1024_S1024x3072_S2048x3072_1_0_0_1_n_n_wf : DotDims.WF S2048x1024 S1024x3072 S2048x3072 [1] [0] [0] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]
  dot_S2048x1024_S1024x1024_S2048x1024_1_0_0_1_n_n_wf : DotDims.WF S2048x1024 S1024x1024 S2048x1024 [1] [0] [0] [1] [] []

variable [Facts₀]

def dot_S2048x1024_S1024x3072_S2048x3072_1_0_0_1_n_n : DotDims S2048x1024 S1024x3072 S2048x3072 where
  lhsContracting := [1]
  rhsContracting := [0]
  lhsNonContracting := [0]
  rhsNonContracting := [1]
  lhsBatch := []
  rhsBatch := []
  wf := dot_S2048x1024_S1024x3072_S2048x3072_1_0_0_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.FK.R0.lean ====
/-
  The first kernel region (the fused q/k/v projection), on its own: at any contents V of the core's buffers when the
  region is entered, what each window's block is at a grid point, what the body leaves in the output's staging
  buffer as a function of the three input blocks (the product of the row block with the whole weight, plus the bias
  row, narrowed), the body's triple, and the pipeline's proof data with its body obligation.  The body has one
  control case: it loads its three inputs whole and stores the output block whole.
-/
import proofs.«141532_j82454782148610_2_alg».proof.Proof.Gen.Kernel.Launch
import proofs.«141532_j82454782148610_2_alg».proof.Proof.Gen.Kernel.Skeleton
import proofs.«141532_j82454782148610_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's four whole-buffer rectangles. -/
abbrev r0_a : Rect S512x1024 := Rect.unit (s := S512x1024) ![0, 0] S512x1024.size inb_S512x1024_S512x1024_0_0
abbrev r0_b : Rect S1024x3072 := Rect.unit (s := S1024x3072) ![0, 0] S1024x3072.size inb_S1024x3072_S1024x3072_0_0
abbrev r0_c : Rect S1x3072 := Rect.unit (s := S1x3072) ![0, 0] S1x3072.size inb_S1x3072_S1x3072_0_0
abbrev r0_o : Rect S512x3072 := Rect.unit (s := S512x3072) ![0, 0] S512x3072.size inb_S512x3072_S512x3072_0_0

/-- What the body leaves in the output's staging buffer, from the three input blocks. -/
def out0_3 (x0 : Vec F S512x1024 .bf16) (x1 : Vec F S1024x3072 .bf16) (x2 : Vec F S1x3072 .f32) : Vec F S512x3072 .bf16 :=
  View.canon [⟨r0_o, k0_pay1 (View.ld x0 r0_a) (View.ld x1 r0_b) (View.ld x2 r0_c)⟩]

/-- The one store covers the buffer. -/
theorem cover0_3 (p0 : Vec F S512x3072 .bf16) (y : S512x3072.Idx) :
    ∃ pc ∈ ([⟨r0_o, p0⟩] : List (View.Piece (Elt F) S512x3072 .bf16)), y ∈ pc.1.set :=
  View.cover_of_tiledL [⟨r0_o, p0⟩] S512x3072.size (by sl_kernel_rfl) y

set_option maxHeartbeats 1000000 in
/-- The body on whole staging memrefs: the inputs at their contents and the output at anything run to the inputs as
    they were and the output at out0_3 of the inputs. -/
theorem sound_kernel0 (c : Dev nD) (E : Set ℕ) (i : grid0.Coords) (arg1 : Memref sig .tc .vmem S512x1024 .bf16) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .bf16) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FK.R1Base.lean ====
/-
  The second kernel region (attention over key/value blocks with the output projection), what its three control
  cases share: the windows' blocks at a point, the two conditions of the body in closed form over the grid (the
  key/value coordinate is 0; it is the last), where the output window is idle, the staging and scratch memrefs, and
  the region invariant with the three scratch buffers named.
-/
import proofs.«141532_j82454782148610_2_alg».proof.Proof.Gen.Kernel.Launch
import proofs.«141532_j82454782148610_2_alg».proof.Proof.Gen.Kernel.Skeleton
import proofs.«141532_j82454782148610_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The key/value coordinate is 0: the scratch is initialised. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The key/value coordinate is the last: the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- One staging buffer of the output window, through which its contents are stated. -/
abbrev VO1_5 : View sig .tc .vmem S256x1024 .f32 := (Memref.whole cc1_stg5_0 : Memref sig .tc .vmem S256x1024 .f32).view
abbrev ms1_0 (t : Fin cfg1.N) : Memref sig .tc .vmem S256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1024 .f32 := win1_5.stage (cfg1.slots t 5)
abbrev hs1_5 (t : Fin cfg1.N) : (ms1_5 t).IsWhole := hstage1_5 ((cfg1.slots t 5).cast nbuf1_5)
/-- The three scratch operands: the running row maxima, the running row sums, the running weighted sums. -/
abbrev scM1_0 : Memref sig .tc .vmem S16x256x1 .f32 := Memref.whole cc1_scratch0
abbrev scM1_1 : Memref sig .tc .vmem S16x256x1 .f32 := Memref.whole cc1_scratch1
abbrev scM1_2 : Memref sig .tc .vmem S16x256x64 .f32 := Memref.whole cc1_scratch2
abbrev VS1_0 : View sig .tc .vmem S16x256x1 .f32 := scM1_0.view
abbrev VS1_1 : View sig .tc .vmem S16x256x1 .f32 := scM1_1.view
abbrev VS1_2 : View sig .tc .vmem S16x256x64 .f32 := scM1_2.view

/-- The first region's staging buffers, which this region does not touch, each at some contents. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The scoped buffers this region does not stage: the first region's staging buffers and the three scratch buffers
    as memrefs owned at some contents. -/
theorem scopedRest1_owns (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM1_0 fullShare d) ∗ (∃ d, owns (c : Thread nD τ) scM1_1 fullShare d) ∗ (∃ d, owns (c : Thread nD τ) scM1_2 fullShare d)) := by
  rw [scopedRest1_eq]; simp only [scM1_0, scM1_1, scM1_2, owns_whole]; rfl

end Cert.Kernel.Hand

end
-- ==== Proof.FK.R1RunA.lean ====
/-
  The attention body run whole at a point where the key/value coordinate is 0 and not the last: the three scratch
  buffers, found at anything, are initialised and then updated from the point's blocks; the output buffer is handed
  back untouched.  The pieces each scratch buffer ends with are what the run finds.
-/
import proofs.«141532_j82454782148610_2_alg».proof.Proof.FK.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) :
    Σ' (LS0 : List (View.Piece (Elt F) S16x256x1 .f32)), Σ' (LS1 : List (View.Piece (Elt F) S16x256x1 .f32)), { LS2 : List (View.Piece (Elt F) S16x256x64 .f32) //
      ∀ (xi5 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_proj_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.FK.R1RunB.lean ====
/-
  The attention body run whole at a point where the key/value coordinate is neither 0 nor the last: the three
  scratch buffers, found at what the point before left, are updated from the point's blocks; the output buffer is
  handed back untouched.
-/
import proofs.«141532_j82454782148610_2_alg».proof.Proof.FK.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) :
    Σ' (LS0 : List (View.Piece (Elt F) S16x256x1 .f32)), Σ' (LS1 : List (View.Piece (Elt F) S16x256x1 .f32)), { LS2 : List (View.Piece (Elt F) S16x256x64 .f32) //
      ∀ (xi5 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_proj_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.FK.R1RunC.lean ====
/-
  The attention body run whole at a point where the key/value coordinate is the last (and not 0): the three scratch
  buffers, found at what the point before left, are updated from the point's blocks, and the output block — the
  normalised weighted sums, merged over the heads, times the projection weight, plus its bias row — is stored whole.
-/
import proofs.«141532_j82454782148610_2_alg».proof.Proof.FK.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) :
    Σ' (L5 : List (View.Piece (Elt F) S256x1024 .f32)), Σ' (LS0 : List (View.Piece (Elt F) S16x256x1 .f32)), Σ' (LS1 : List (View.Piece (Elt F) S16x256x1 .f32)), { LS2 : List (View.Piece (Elt F) S16x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_proj_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Hand

end
-- ==== Proof.FK.R1Out.lean ====
/-
  What each control case of the attention body leaves in the three scratch buffers (and, at the last key/value
  coordinate, in the output block): the pieces its run found, which cover each buffer, read back.
-/
import proofs.«141532_j82454782148610_2_alg».proof.Proof.FK.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover1_A_0 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  (y : S16x256x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4 ).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 ).1 S16x256x1.size (by sl_kernel_rfl) y

def sout1_A_0 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  : Vec F S16x256x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4 ).1)

theorem scover1_A_1 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  (y : S16x256x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4 ).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 ).2.1 S16x256x1.size (by sl_kernel_rfl) y

def sout1_A_1 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  : Vec F S16x256x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4 ).2.1)

theorem scover1_A_2 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  (y : S16x256x64.Idx) :
    ∃ pc ∈ (kernelRun1_A c i arg2 harg2 arg3 harg3 arg4 harg4 arg5 harg5 arg6 harg6 arg7 harg7 arg8 harg8 arg9 harg9 arg10 harg10 hc0 hc1 x0 x1 x2 x3 x4 ).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 ).2.2.1 S16x256x64.size (by sl_kernel_rfl) y

def sout1_A_2 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  : Vec F S16x256x64 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3 x4 ).2.2.1)

theorem scover1_B_0 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S16x256x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).1 S16x256x1.size (by sl_kernel_rfl) y

def sout1_B_0 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S16x256x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1 xs2).1)

theorem scover1_B_1 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S16x256x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.1 S16x256x1.size (by sl_kernel_rfl) y

def sout1_B_1 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S16x256x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1 xs2).2.1)

theorem scover1_B_2 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S16x256x64.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.1 S16x256x64.size (by sl_kernel_rfl) y

def sout1_B_2 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S16x256x64 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1)

theorem cover1_C_5 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S256x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).1 S256x1024.size (by sl_kernel_rfl) y

def out1_C_5 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S256x1024 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1 xs2).1)

theorem scover1_C_0 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S16x256x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.1 S16x256x1.size (by sl_kernel_rfl) y

def sout1_C_0 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S16x256x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1 xs2).2.1)

theorem scover1_C_1 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S16x256x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.2.1 S16x256x1.size (by sl_kernel_rfl) y

def sout1_C_1 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S16x256x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.1)

theorem scover1_C_2 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S16x256x64.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1 S16x256x64.size (by sl_kernel_rfl) y

def sout1_C_2 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S16x256x64 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1)

end Cert.Kernel.Hand

end
-- ==== Proof.FK.R1Dat.lean ====
/-
  The attention region point by point: what the output block and the three scratch buffers hold after the body at
  each grid point (the case the point's key/value coordinate selects, run on the point's blocks and on the scratch
  the point before left), the region invariant that carries the scratch from point to point, the pipeline's proof
  data, and its body obligation.
-/
import proofs.«141532_j82454782148610_2_alg».proof.Proof.FK.R1Out

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- After the body at position n: the output block's staging buffer (meaningful at a last key/value coordinate only),
    then the running row maxima, row sums and weighted sums. -/
def outsAt1 (c : Dev nD) : (n : ℕ) → n < cfg1.N → Vec F S256x1024 .f32 × Vec F S16x256x1 .f32 × Vec F S16x256x1 .f32 × Vec F S16x256x64 .f32
  | 0, hn => (VO1_5.read (Elt F) VO1_5.junk,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
      sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (VO1_5.read (Elt F) VO1_5.junk,
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2,
          sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2,
          sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)
      else
        (VO1_5.read (Elt F) VO1_5.junk,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2,
          sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2,
          sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)

/-- The scratch the point before t left. -/
abbrev prev1 (c : Dev nD) (t : Fin cfg1.N) := outsAt1 V c (t.val - 1) (Nat.lt_of_le_of_lt (Nat.sub_le _ _) t.isLt)

theorem outsAt1_A (c : Dev nD) (t : Fin cfg1.N) (h0 : t.val % 4 = 0) (h1 : ¬t.val % 4 = 3) :
    outsAt1 V c t.val t.isLt = (VO1_5.read (Elt F) VO1_5.junk,
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
      sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
      sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (VO1_5.read (Elt F) VO1_5.junk,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (prev1 V c t).2.1 (prev1 V c t).2.2.1 (prev1 V c t).2.2.2,
      sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (prev1 V c t).2.1 (prev1 V c t).2.2.1 (prev1 V c t).2.2.2,
      sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (prev1 V c t).2.1 (prev1 V c t).2.2.1 (prev1 V c t).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (prev1 V c t).2.1 (prev1 V c t).2.2.1 (prev1 V c t).2.2.2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (prev1 V c t).2.1 (prev1 V c t).2.2.1 (prev1 V c t).2.2.2,
      sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (prev1 V c t).2.1 (prev1 V c t).2.2.1 (prev1 V c t).2.2.2,
      sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (prev1 V c t).2.1 (prev1 V c t).2.2.1 (prev1 V c t).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point every scoped buffer the region does not stage at
    anything and the generator register at some state; afterwards the same with the three scratch buffers at what
    the point before left. -/
def PhiS1 (c : Dev nD) : (n : ℕ) → n ≤ cfg1.N → sProp 𝕄
  | 0, _ => Pipeline.ΦA spec1 c
  | n + 1, hn => iprop(otherStaging (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(otherStaging (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl
theorem PhiS1_pos (c : Dev nD) (n : ℕ) (h : n ≤ cfg1.N) (hz : n ≠ 0) :
    PhiS1 V c n h = iprop(otherStaging (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-- The class invariant taken apart: the other region's staging buffers, the three scratch buffers at anything, the
    generator register. -/
theorem PhiA1_split (c : Dev nD) :
    (Pipeline.ΦA spec1 c : sProp 𝕄) ⊢ iprop(otherStaging (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA otherStaging; rw [scopedRest1_owns]
  iintro ⟨⟨A1, A2, A3, A4, A5, A6, S0, S1, S2⟩, Hg⟩
  isplitl [A1 A2 A3 A4 A5 A6]
  · isplitl [A1]; · iexact A1
    isplitl [A2]; · iexact A2
    isplitl [A3]; · iexact A3
    isplitl [A4]; · iexact A4
    isplitl [A5]; · iexact A5
    iexact A6
  isplitl [S0]; · iexact S0
  isplitl [S1]; · iexact S1
  isplitl [S2]; · iexact S2
  iexact Hg
theorem PhiA1_join (c : Dev nD) :
    iprop(otherStaging (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  unfold Pipeline.ΦA otherStaging; rw [scopedRest1_owns]
  iintro ⟨⟨A1, A2, A3, A4, A5, A6⟩, S0, S1, S2, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [S0]; · iexact S0
    isplitl [S1]; · iexact S1
    iexact S2
  iexact Hg

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have h1 : ¬ t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A_0 sout1_A_1 sout1_A_2; (try dsimp only)
    have hΦ : (dat1 V c).Φ t.castSucc ⊢ iprop(otherStaging (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
      rw [PhiS1_castSucc V c t]
      by_cases hz : t.val = 0
      · rw [PhiS1_zero V c _ _ hz]; exact PhiA1_split c
      · rw [PhiS1_pos V c _ _ hz]
        iintro ⟨HR, S0, S1, S2, Hg⟩
        isplitl [HR]; · iexact HR
        isplitl [S0]; · iexists _; iexact S0
        isplitl [S1]; · iexists _; iexact S1
        isplitl [S2]; · iexists _; iexact S2
        iexact Hg
    iintro ⟨HΦ, Ho, ⟨%d0, H0⟩, ⟨%d1, H1⟩, ⟨%d2, H2⟩, ⟨%d3, H3⟩, ⟨%d4, H4⟩, ⟨%d5, H5⟩⟩
    ihave HΦ' := hΦ $$ HΦ
    icases HΦ' with ⟨HR, HS0, HS1, HS2, Hg⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HS0 HS1 HS2 Hg HR]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0 sout1_C_1 sout1_C_2; (try dsimp only)
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HS0 HS1 HS2 Hg HR]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0 sout1_B_1 sout1_B_2; (try dsimp only)
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg HR]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: what the scratch buffers hold is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  refine BIBase.Entails.trans ?_ (PhiA1_join c)
  iintro ⟨HR, S0, S1, S2, Hg⟩
  isplitl [HR]; · iexact HR
  isplitl [S0]; · iexists _; iexact S0
  isplitl [S1]; · iexists _; iexact S1
  isplitl [S2]; · iexists _; iexact S2
  iexact Hg

end Cert.Kernel.Hand

end
-- ==== Proof.FK.Run.lean ====
/-
  The whole program as three segments — the host lines that narrow and transpose the arguments, the projection
  region, the attention region — and its run from the launch to the return: the buffers' contents at each
  boundary (after the host lines; then the first region's output array at what its write-backs leave; then the
  second region's), each region entered from the thread state the segment before left.  The second region reads one
  array through three windows: its full share is dealt among them at entry and collected at exit.  The run ends
  with every unscoped buffer at the last boundary's contents.
-/
import proofs.«141532_j82454782148610_2_alg».proof.Proof.FK.R0
import proofs.«141532_j82454782148610_2_alg».proof.Proof.FK.R1Dat
import proofs.«141532_j82454782148610_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One array read through three windows -/

section Deal
variable (V : (c : Dev nD) → (b : Ref sig .tc) → Buf (Elt F) ((c : Thread nD τ).loc b))

/-- The distinct buffers behind the second region's arrays, one by one. -/
theorem arrBufs1_eq (c : Dev nD) (X : (b : Ref sig .tc) → Buf (Elt F) ((c : Thread nD τ).loc b)) :
    (Pipeline.arrBufs spec1 c X : sProp 𝕄)
      = iprop((((c : Thread nD τ).loc main_v7) ↦{fullShare} X main_v7) ∗ (((c : Thread nD τ).loc main_v4) ↦{fullShare} X main_v4) ∗ (((c : Thread nD τ).loc main_v6) ↦{fullShare} X main_v6) ∗ (((c : Thread nD τ).loc main_v8) ↦{fullShare} X main_v8)) := by
  unfold Pipeline.arrBufs
  rw [bigSep_eq_bigSepL_of_eq [main_v7, main_v4, main_v6, main_v8] (by decide) (by decide)]
  rfl

/-- The second region's arrays at contents G, window by window, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v7) ↦{fullShare.left} G 0) ∗ (((c : Thread nD τ).loc main_v7) ↦{fullShare.right.left} G 1) ∗ (((c : Thread nD τ).loc main_v7) ↦{fullShare.right.right} G 2)
          ∗ (((c : Thread nD τ).loc main_v4) ↦{fullShare} G 3) ∗ (((c : Thread nD τ).loc main_v6) ↦{fullShare} G 4) ∗ (((c : Thread nD τ).loc main_v8) ↦{fullShare} G 5)) := by
  unfold Dat.arrays
  rw [bigSep_W1]
  rw [(arr_whole1 0).set_eq_univ, (arr_whole1 3).set_eq_univ, (arr_whole1 4).set_eq_univ, (arr_whole1 5).set_eq_univ]
  rfl

/-- ENTRY: the full share of the array the three windows read is dealt among them. -/
theorem deal1 (c : Dev nD) :
    (Pipeline.arrBufs spec1 c (V c) : sProp 𝕄) ⊢ (dat1 V c).arrays ((dat1 V c).arrAt · 0) := by
  rw [arrBufs1_eq, arrays1_eq]
  iintro ⟨H7, H4, H6, H8⟩
  ihave H7' := (pointsTo_share (PosShare.mem_left_op_right fullShare)).1 $$ H7
  icases H7' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  isplitl [H4]; · iexact H4
  isplitl [H6]; · iexact H6
  iexact H8

/-- EXIT: the three shares are collected; the output array holds what the write-backs left. -/
theorem collect1 (c : Dev nD) (X : (b : Ref sig .tc) → Buf (Elt F) ((c : Thread nD τ).loc b))
    (h7 : X main_v7 = V c main_v7) (h4 : X main_v4 = V c main_v4) (h6 : X main_v6 = V c main_v6)
    (h8 : X main_v8 = (dat1 V c).arrAt 5 cfg1.N) :
    ((dat1 V c).arrays ((dat1 V c).arrAt · cfg1.N) : sProp 𝕄) ⊢ Pipeline.arrBufs spec1 c X := by
  rw [arrBufs1_eq, arrays1_eq, h7, h4, h6, h8]
  rw [show (dat1 V c).arrAt 0 cfg1.N = V c main_v7 from ((dat1 V c).arrAt_in 0 rfl _).trans (A_eq1 V c 0),
    show (dat1 V c).arrAt 1 cfg1.N = V c main_v7 from ((dat1 V c).arrAt_in 1 rfl _).trans (A_eq1 V c 1),
    show (dat1 V c).arrAt 2 cfg1.N = V c main_v7 from ((dat1 V c).arrAt_in 2 rfl _).trans (A_eq1 V c 2),
    show (dat1 V c).arrAt 3 cfg1.N = V c main_v4 from ((dat1 V c).arrAt_in 3 rfl _).trans (A_eq1 V c 3),
    show (dat1 V c).arrAt 4 cfg1.N = V c main_v6 from ((dat1 V c).arrAt_in 4 rfl _).trans (A_eq1 V c 4)]
  iintro ⟨Ha, Hb1, Hb2, H4, H6, H8⟩
  isplitl [Ha Hb1 Hb2]
  · iapply (pointsTo_share (PosShare.mem_left_op_right fullShare)).2
    isplitl [Ha]; · iexact Ha
    iapply (pointsTo_share (PosShare.mem_left_op_right fullShare.right)).2
    isplitl [Hb1]; · iexact Hb1
    iexact Hb2
  isplitl [H4]; · iexact H4
  isplitl [H6]; · iexact H6
  iexact H8

end Deal

/-! ## The buffers' contents at each boundary -/

variable (m : (ℓ : Loc nD τ sig) → Buf (Elt F) ℓ) (ρ : Dev nD → PrngReg)

/-- Core c's buffers at launch. -/
abbrev W0 : Dev nD → Valuation τ sig (Elt F) := fun c b => m ((c : Dev nD), b)
/-- After the host lines (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its output array at what the write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: the result array at what the write-backs leave. -/
def W4 (c : Dev nD) : Valuation τ sig (Elt F) :=
  Function.update (W2 m c) (Proc.devRef .tc main_v8) ((dat1 (V2 m) c).arrAt 5 cfg1.N)
abbrev V4 : (c : Dev nD) → (b : Ref sig .tc) → Buf (Elt F) ((c : Thread nD τ).loc b) := fun c b => W4 m c b
theorem W4_res (c : Dev nD) : W4 m c (Proc.devRef .tc main_v8) = (dat1 (V2 m) c).arrAt 5 cfg1.N := by
  unfold W4; exact Function.update_self ..
theorem W4_of_ne (c : Dev nD) (b : Ref sig .tc) (hb : b ≠ main_v8) : W4 m c (Proc.devRef .tc b) = W2 m c (Proc.devRef .tc b) := by
  unfold W4; exact Function.update_of_ne (StableHlo.devRef_ne_of_ne hb) ..

/-- No segment writes an argument: it ends as launched. -/
theorem W4_arg (c : Dev nD) (b : Ref sig .tc) (h8 : b ≠ main_v8) (h0 : ∀ w, Pipeline.arrRef spec0 w ≠ b) (hW : b ∉ hostOps0_W) :
    W4 m c (Proc.devRef .tc b) = m ((c : Thread nD τ).loc b) :=
  (W4_of_ne m c b h8).trans ((W2_of_ne m c b h0).trans (Gen.V1_of m c b hW))

/-! ## The segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
/-- The projection region over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's entry contents away from its arrays are its exit contents there. -/
theorem rest1_eq (c : Dev nD) :
    (Pipeline.unscopedRest (Ix := Unit) (Name := ℕ) (U := UR sig nD τ) (Lvl := ℕ) spec1 c (V2 m c) : sProp 𝕄)
      = Pipeline.unscopedRest spec1 c (V4 m c) := by
  unfold Pipeline.unscopedRest
  refine bigSep_congr fun b hb => ?_
  have hb8 : b ≠ main_v8 := fun e => (Finset.mem_sdiff.mp hb).2 (Finset.mem_image.mpr ⟨5, Finset.mem_univ _, e.symm ▸ rfl⟩)
  beta_reduce
  rw [show V4 m c b = V2 m c b from W4_of_ne m c b hb8]

set_option backward.isDefEq.respectTransparency.types false in
/-- The attention region over the thread state: one array's full share dealt among the three windows that read it
    at entry, collected at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (StableHlo.held (c : Thread nD τ) (Pipeline.ucRefs τ sig) (W2 m c) : sProp 𝕄)
        ⊢ iprop((pdats m 1 c).arrays ((pdats m 1 c).arrAt · 0) ∗ Pipeline.unscopedRest spec1 c (V2 m c)) := by
      rw [← Pipeline.unscopedBufs_held (Ix := Unit) (Name := ℕ) (U := UR sig nD τ) (Lvl := ℕ) c (W2 m c),
        Pipeline.unscopedBufs_split₀ (cfgs) 1 winFacts₀1.arr_unscoped c]
      exact sep_mono (deal1 (V2 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c); unfold Pipeline.ΦA
    iintro ⟨Hp, -, Hr⟩
    isplitl [Hr]; · iexact Hr
    iexact Hp
  hout c := by
    rw [Pipeline.ownSems0_none]
    refine BIBase.Entails.trans (hout1 (V2 m) c) ?_; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (StableHlo.held (c : Thread nD τ) (Pipeline.ucRefs τ sig) (W4 m c) : sProp 𝕄) := by
      rw [← Pipeline.unscopedBufs_held (Ix := Unit) (Name := ℕ) (U := UR sig nD τ) (Lvl := ℕ) c (W4 m c),
        Pipeline.unscopedBufs_split₀ (cfgs) 1 winFacts₀1.arr_unscoped c, rest1_eq m c]
      exact sep_mono (collect1 (V2 m) c (V4 m c) (W4_of_ne m c main_v7 (by decide)) (W4_of_ne m c main_v4 (by decide)) (W4_of_ne m c main_v6 (by decide)) (W4_res m c)) .rfl
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and ends with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_arg m c main_arg0 (by decide) (by decide) (by decide)),
     (h c _ (mem_uc main_arg1 (by decide))).trans (W4_arg m c main_arg1 (by decide) (by decide) (by decide)),
     (h c _ (mem_uc main_arg2 (by decide))).trans (W4_arg m c main_arg2 (by decide) (by decide) (by decide)),
     (h c _ (mem_uc main_arg3 (by decide))).trans (W4_arg m c main_arg3 (by decide) (by decide) (by decide)),
     (h c _ (mem_uc main_arg4 (by decide))).trans (W4_arg m c main_arg4 (by decide) (by decide) (by decide))⟩) (run_all m ρ)

/-- THE RUN with the result named: the result array ends at what the attention region's write-backs leave, and
    every argument array as launched. -/
theorem run_value : θ_run defs (onTc (τ := τ) (main (F := F))) ⟨m, fun _ => 0, ρ⟩ (fun r => ∀ c : Dev nD,
      r.2.mem ((c.tc : Thread nD τ).loc main_v8) = (dat1 (V2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v8 (by decide))).trans (W4_res m c),
     (h c _ (mem_uc main_arg0 (by decide))).trans (W4_arg m c main_arg0 (by decide) (by decide) (by decide)),
     (h c _ (mem_uc main_arg1 (by decide))).trans (W4_arg m c main_arg1 (by decide) (by decide) (by decide)),
     (h c _ (mem_uc main_arg2 (by decide))).trans (W4_arg m c main_arg2 (by decide) (by decide) (by decide)),
     (h c _ (mem_uc main_arg3 (by decide))).trans (W4_arg m c main_arg3 (by decide) (by decide) (by decide)),
     (h c _ (mem_uc main_arg4 (by decide))).trans (W4_arg m c main_arg4 (by decide) (by decide) (by decide))⟩) (run_all m ρ)

end Cert.Kernel.Hand

end
-- ==== Proof.FI.R0.lean ====
/-
  The first kernel region (the fused q/k/v projection), on its own: at any contents V of the core's buffers when the
  region is entered, what each window's block is at a grid point, what the body leaves in the output's staging
  buffer as a function of the three input blocks (the product of the row block with the whole weight, plus the bias
  row, narrowed), the body's triple, and the pipeline's proof data with its body obligation.  The body has one
  control case: it loads its three inputs whole and stores the output block whole.
-/
import proofs.«141532_j82454782148610_2_alg».proof.Proof.Gen.KernelIdeal.Launch
import proofs.«141532_j82454782148610_2_alg».proof.Proof.Gen.KernelIdeal.Skeleton
import proofs.«141532_j82454782148610_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's four whole-buffer rectangles. -/
abbrev r0_a : Rect S512x1024 := Rect.unit (s := S512x1024) ![0, 0] S512x1024.size inb_S512x1024_S512x1024_0_0
abbrev r0_b : Rect S1024x3072 := Rect.unit (s := S1024x3072) ![0, 0] S1024x3072.size inb_S1024x3072_S1024x3072_0_0
abbrev r0_c : Rect S1x3072 := Rect.unit (s := S1x3072) ![0, 0] S1x3072.size inb_S1x3072_S1x3072_0_0
abbrev r0_o : Rect S512x3072 := Rect.unit (s := S512x3072) ![0, 0] S512x3072.size inb_S512x3072_S512x3072_0_0

/-- What the body leaves in the output's staging buffer, from the three input blocks. -/
def out0_3 (x0 : Vec F S512x1024 .bf16) (x1 : Vec F S1024x3072 .bf16) (x2 : Vec F S1x3072 .f32) : Vec F S512x3072 .bf16 :=
  View.canon [⟨r0_o, k0_pay1 (View.ld x0 r0_a) (View.ld x1 r0_b) (View.ld x2 r0_c)⟩]

/-- The one store covers the buffer. -/
theorem cover0_3 (p0 : Vec F S512x3072 .bf16) (y : S512x3072.Idx) :
    ∃ pc ∈ ([⟨r0_o, p0⟩] : List (View.Piece (Elt F) S512x3072 .bf16)), y ∈ pc.1.set :=
  View.cover_of_tiledL [⟨r0_o, p0⟩] S512x3072.size (by sl_kernel_rfl) y

set_option maxHeartbeats 1000000 in
/-- The body on whole staging memrefs: the inputs at their contents and the output at anything run to the inputs as
    they were and the output at out0_3 of the inputs. -/
theorem sound_kernel0 (c : Dev nD) (E : Set ℕ) (i : grid0.Coords) (arg1 : Memref sig .tc .vmem S512x1024 .bf16) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .bf16) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FI.R1Base.lean ====
/-
  The second kernel region (attention over key/value blocks with the output projection), what its three control
  cases share: the windows' blocks at a point, the two conditions of the body in closed form over the grid (the
  key/value coordinate is 0; it is the last), where the output window is idle, the staging and scratch memrefs, and
  the region invariant with the three scratch buffers named.
-/
import proofs.«141532_j82454782148610_2_alg».proof.Proof.Gen.KernelIdeal.Launch
import proofs.«141532_j82454782148610_2_alg».proof.Proof.Gen.KernelIdeal.Skeleton
import proofs.«141532_j82454782148610_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The key/value coordinate is 0: the scratch is initialised. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The key/value coordinate is the last: the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- One staging buffer of the output window, through which its contents are stated. -/
abbrev VO1_5 : View sig .tc .vmem S256x1024 .f32 := (Memref.whole cc1_stg5_0 : Memref sig .tc .vmem S256x1024 .f32).view
abbrev ms1_0 (t : Fin cfg1.N) : Memref sig .tc .vmem S256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1024 .f32 := win1_5.stage (cfg1.slots t 5)
abbrev hs1_5 (t : Fin cfg1.N) : (ms1_5 t).IsWhole := hstage1_5 ((cfg1.slots t 5).cast nbuf1_5)
/-- The three scratch operands: the running row maxima, the running row sums, the running weighted sums. -/
abbrev scM1_0 : Memref sig .tc .vmem S16x256x1 .f32 := Memref.whole cc1_scratch0
abbrev scM1_1 : Memref sig .tc .vmem S16x256x1 .f32 := Memref.whole cc1_scratch1
abbrev scM1_2 : Memref sig .tc .vmem S16x256x64 .f32 := Memref.whole cc1_scratch2
abbrev VS1_0 : View sig .tc .vmem S16x256x1 .f32 := scM1_0.view
abbrev VS1_1 : View sig .tc .vmem S16x256x1 .f32 := scM1_1.view
abbrev VS1_2 : View sig .tc .vmem S16x256x64 .f32 := scM1_2.view

/-- The first region's staging buffers, which this region does not touch, each at some contents. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The scoped buffers this region does not stage: the first region's staging buffers and the three scratch buffers
    as memrefs owned at some contents. -/
theorem scopedRest1_owns (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM1_0 fullShare d) ∗ (∃ d, owns (c : Thread nD τ) scM1_1 fullShare d) ∗ (∃ d, owns (c : Thread nD τ) scM1_2 fullShare d)) := by
  rw [scopedRest1_eq]; simp only [scM1_0, scM1_1, scM1_2, owns_whole]; rfl

end Cert.KernelIdeal.Hand

end
-- ==== Proof.FI.R1RunA.lean ====
/-
  The attention body run whole at a point where the key/value coordinate is 0 and not the last: the three scratch
  buffers, found at anything, are initialised and then updated from the point's blocks; the output buffer is handed
  back untouched.  The pieces each scratch buffer ends with are what the run finds.
-/
import proofs.«141532_j82454782148610_2_alg».proof.Proof.FI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) :
    Σ' (LS0 : List (View.Piece (Elt F) S16x256x1 .f32)), Σ' (LS1 : List (View.Piece (Elt F) S16x256x1 .f32)), { LS2 : List (View.Piece (Elt F) S16x256x64 .f32) //
      ∀ (xi5 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_proj_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.FI.R1RunB.lean ====
/-
  The attention body run whole at a point where the key/value coordinate is neither 0 nor the last: the three
  scratch buffers, found at what the point before left, are updated from the point's blocks; the output buffer is
  handed back untouched.
-/
import proofs.«141532_j82454782148610_2_alg».proof.Proof.FI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) :
    Σ' (LS0 : List (View.Piece (Elt F) S16x256x1 .f32)), Σ' (LS1 : List (View.Piece (Elt F) S16x256x1 .f32)), { LS2 : List (View.Piece (Elt F) S16x256x64 .f32) //
      ∀ (xi5 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_proj_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.FI.R1RunC.lean ====
/-
  The attention body run whole at a point where the key/value coordinate is the last (and not 0): the three scratch
  buffers, found at what the point before left, are updated from the point's blocks, and the output block — the
  normalised weighted sums, merged over the heads, times the projection weight, plus its bias row — is stored whole.
-/
import proofs.«141532_j82454782148610_2_alg».proof.Proof.FI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) :
    Σ' (L5 : List (View.Piece (Elt F) S256x1024 .f32)), Σ' (LS0 : List (View.Piece (Elt F) S16x256x1 .f32)), Σ' (LS1 : List (View.Piece (Elt F) S16x256x1 .f32)), { LS2 : List (View.Piece (Elt F) S16x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_proj_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.FI.R1Out.lean ====
/-
  What each control case of the attention body leaves in the three scratch buffers (and, at the last key/value
  coordinate, in the output block): the pieces its run found, which cover each buffer, read back.
-/
import proofs.«141532_j82454782148610_2_alg».proof.Proof.FI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover1_A_0 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  (y : S16x256x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4 ).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 ).1 S16x256x1.size (by sl_kernel_rfl) y

def sout1_A_0 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  : Vec F S16x256x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4 ).1)

theorem scover1_A_1 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  (y : S16x256x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4 ).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 ).2.1 S16x256x1.size (by sl_kernel_rfl) y

def sout1_A_1 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  : Vec F S16x256x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4 ).2.1)

theorem scover1_A_2 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  (y : S16x256x64.Idx) :
    ∃ pc ∈ (kernelRun1_A c i arg2 harg2 arg3 harg3 arg4 harg4 arg5 harg5 arg6 harg6 arg7 harg7 arg8 harg8 arg9 harg9 arg10 harg10 hc0 hc1 x0 x1 x2 x3 x4 ).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 ).2.2.1 S16x256x64.size (by sl_kernel_rfl) y

def sout1_A_2 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  : Vec F S16x256x64 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3 x4 ).2.2.1)

theorem scover1_B_0 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S16x256x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).1 S16x256x1.size (by sl_kernel_rfl) y

def sout1_B_0 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S16x256x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1 xs2).1)

theorem scover1_B_1 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S16x256x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.1 S16x256x1.size (by sl_kernel_rfl) y

def sout1_B_1 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S16x256x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1 xs2).2.1)

theorem scover1_B_2 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S16x256x64.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.1 S16x256x64.size (by sl_kernel_rfl) y

def sout1_B_2 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S16x256x64 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1)

theorem cover1_C_5 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S256x1024.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).1 S256x1024.size (by sl_kernel_rfl) y

def out1_C_5 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S256x1024 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1 xs2).1)

theorem scover1_C_0 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S16x256x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.1 S16x256x1.size (by sl_kernel_rfl) y

def sout1_C_0 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S16x256x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1 xs2).2.1)

theorem scover1_C_1 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S16x256x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.2.1 S16x256x1.size (by sl_kernel_rfl) y

def sout1_C_1 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S16x256x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.1)

theorem scover1_C_2 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) (y : S16x256x64.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1 S16x256x64.size (by sl_kernel_rfl) y

def sout1_C_2 (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) : Vec F S16x256x64 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1)

end Cert.KernelIdeal.Hand

end
-- ==== Proof.FI.R1Dat.lean ====
/-
  The attention region point by point: what the output block and the three scratch buffers hold after the body at
  each grid point (the case the point's key/value coordinate selects, run on the point's blocks and on the scratch
  the point before left), the region invariant that carries the scratch from point to point, the pipeline's proof
  data, and its body obligation.
-/
import proofs.«141532_j82454782148610_2_alg».proof.Proof.FI.R1Out

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- After the body at position n: the output block's staging buffer (meaningful at a last key/value coordinate only),
    then the running row maxima, row sums and weighted sums. -/
def outsAt1 (c : Dev nD) : (n : ℕ) → n < cfg1.N → Vec F S256x1024 .f32 × Vec F S16x256x1 .f32 × Vec F S16x256x1 .f32 × Vec F S16x256x64 .f32
  | 0, hn => (VO1_5.read (Elt F) VO1_5.junk,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
      sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (VO1_5.read (Elt F) VO1_5.junk,
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2,
          sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2,
          sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)
      else
        (VO1_5.read (Elt F) VO1_5.junk,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2,
          sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2,
          sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)

/-- The scratch the point before t left. -/
abbrev prev1 (c : Dev nD) (t : Fin cfg1.N) := outsAt1 V c (t.val - 1) (Nat.lt_of_le_of_lt (Nat.sub_le _ _) t.isLt)

theorem outsAt1_A (c : Dev nD) (t : Fin cfg1.N) (h0 : t.val % 4 = 0) (h1 : ¬t.val % 4 = 3) :
    outsAt1 V c t.val t.isLt = (VO1_5.read (Elt F) VO1_5.junk,
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
      sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
      sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (VO1_5.read (Elt F) VO1_5.junk,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (prev1 V c t).2.1 (prev1 V c t).2.2.1 (prev1 V c t).2.2.2,
      sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (prev1 V c t).2.1 (prev1 V c t).2.2.1 (prev1 V c t).2.2.2,
      sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (prev1 V c t).2.1 (prev1 V c t).2.2.1 (prev1 V c t).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (prev1 V c t).2.1 (prev1 V c t).2.2.1 (prev1 V c t).2.2.2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (prev1 V c t).2.1 (prev1 V c t).2.2.1 (prev1 V c t).2.2.2,
      sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (prev1 V c t).2.1 (prev1 V c t).2.2.1 (prev1 V c t).2.2.2,
      sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (prev1 V c t).2.1 (prev1 V c t).2.2.1 (prev1 V c t).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point every scoped buffer the region does not stage at
    anything and the generator register at some state; afterwards the same with the three scratch buffers at what
    the point before left. -/
def PhiS1 (c : Dev nD) : (n : ℕ) → n ≤ cfg1.N → sProp 𝕄
  | 0, _ => Pipeline.ΦA spec1 c
  | n + 1, hn => iprop(otherStaging (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(otherStaging (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl
theorem PhiS1_pos (c : Dev nD) (n : ℕ) (h : n ≤ cfg1.N) (hz : n ≠ 0) :
    PhiS1 V c n h = iprop(otherStaging (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-- The class invariant taken apart: the other region's staging buffers, the three scratch buffers at anything, the
    generator register. -/
theorem PhiA1_split (c : Dev nD) :
    (Pipeline.ΦA spec1 c : sProp 𝕄) ⊢ iprop(otherStaging (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA otherStaging; rw [scopedRest1_owns]
  iintro ⟨⟨A1, A2, A3, A4, A5, A6, S0, S1, S2⟩, Hg⟩
  isplitl [A1 A2 A3 A4 A5 A6]
  · isplitl [A1]; · iexact A1
    isplitl [A2]; · iexact A2
    isplitl [A3]; · iexact A3
    isplitl [A4]; · iexact A4
    isplitl [A5]; · iexact A5
    iexact A6
  isplitl [S0]; · iexact S0
  isplitl [S1]; · iexact S1
  isplitl [S2]; · iexact S2
  iexact Hg
theorem PhiA1_join (c : Dev nD) :
    iprop(otherStaging (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  unfold Pipeline.ΦA otherStaging; rw [scopedRest1_owns]
  iintro ⟨⟨A1, A2, A3, A4, A5, A6⟩, S0, S1, S2, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [S0]; · iexact S0
    isplitl [S1]; · iexact S1
    iexact S2
  iexact Hg

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have h1 : ¬ t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A_0 sout1_A_1 sout1_A_2; (try dsimp only)
    have hΦ : (dat1 V c).Φ t.castSucc ⊢ iprop(otherStaging (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
      rw [PhiS1_castSucc V c t]
      by_cases hz : t.val = 0
      · rw [PhiS1_zero V c _ _ hz]; exact PhiA1_split c
      · rw [PhiS1_pos V c _ _ hz]
        iintro ⟨HR, S0, S1, S2, Hg⟩
        isplitl [HR]; · iexact HR
        isplitl [S0]; · iexists _; iexact S0
        isplitl [S1]; · iexists _; iexact S1
        isplitl [S2]; · iexists _; iexact S2
        iexact Hg
    iintro ⟨HΦ, Ho, ⟨%d0, H0⟩, ⟨%d1, H1⟩, ⟨%d2, H2⟩, ⟨%d3, H3⟩, ⟨%d4, H4⟩, ⟨%d5, H5⟩⟩
    ihave HΦ' := hΦ $$ HΦ
    icases HΦ' with ⟨HR, HS0, HS1, HS2, Hg⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HS0 HS1 HS2 Hg HR]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0 sout1_C_1 sout1_C_2; (try dsimp only)
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HS0 HS1 HS2 Hg HR]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0 sout1_B_1 sout1_B_2; (try dsimp only)
      rw [PhiS1_castSucc V c t, PhiS1_pos V c _ _ hz]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg HR]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: what the scratch buffers hold is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  refine BIBase.Entails.trans ?_ (PhiA1_join c)
  iintro ⟨HR, S0, S1, S2, Hg⟩
  isplitl [HR]; · iexact HR
  isplitl [S0]; · iexists _; iexact S0
  isplitl [S1]; · iexists _; iexact S1
  isplitl [S2]; · iexists _; iexact S2
  iexact Hg

end Cert.KernelIdeal.Hand

end
-- ==== Proof.FI.Run.lean ====
/-
  The whole program as three segments — the host lines that narrow and transpose the arguments, the projection
  region, the attention region — and its run from the launch to the return: the buffers' contents at each
  boundary (after the host lines; then the first region's output array at what its write-backs leave; then the
  second region's), each region entered from the thread state the segment before left.  The second region reads one
  array through three windows: its full share is dealt among them at entry and collected at exit.  The run ends
  with every unscoped buffer at the last boundary's contents.
-/
import proofs.«141532_j82454782148610_2_alg».proof.Proof.FI.R0
import proofs.«141532_j82454782148610_2_alg».proof.Proof.FI.R1Dat
import proofs.«141532_j82454782148610_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One array read through three windows -/

section Deal
variable (V : (c : Dev nD) → (b : Ref sig .tc) → Buf (Elt F) ((c : Thread nD τ).loc b))

/-- The distinct buffers behind the second region's arrays, one by one. -/
theorem arrBufs1_eq (c : Dev nD) (X : (b : Ref sig .tc) → Buf (Elt F) ((c : Thread nD τ).loc b)) :
    (Pipeline.arrBufs spec1 c X : sProp 𝕄)
      = iprop((((c : Thread nD τ).loc main_v7) ↦{fullShare} X main_v7) ∗ (((c : Thread nD τ).loc main_v4) ↦{fullShare} X main_v4) ∗ (((c : Thread nD τ).loc main_v6) ↦{fullShare} X main_v6) ∗ (((c : Thread nD τ).loc main_v8) ↦{fullShare} X main_v8)) := by
  unfold Pipeline.arrBufs
  rw [bigSep_eq_bigSepL_of_eq [main_v7, main_v4, main_v6, main_v8] (by decide) (by decide)]
  rfl

/-- The second region's arrays at contents G, window by window, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v7) ↦{fullShare.left} G 0) ∗ (((c : Thread nD τ).loc main_v7) ↦{fullShare.right.left} G 1) ∗ (((c : Thread nD τ).loc main_v7) ↦{fullShare.right.right} G 2)
          ∗ (((c : Thread nD τ).loc main_v4) ↦{fullShare} G 3) ∗ (((c : Thread nD τ).loc main_v6) ↦{fullShare} G 4) ∗ (((c : Thread nD τ).loc main_v8) ↦{fullShare} G 5)) := by
  unfold Dat.arrays
  rw [bigSep_W1]
  rw [(arr_whole1 0).set_eq_univ, (arr_whole1 3).set_eq_univ, (arr_whole1 4).set_eq_univ, (arr_whole1 5).set_eq_univ]
  rfl

/-- ENTRY: the full share of the array the three windows read is dealt among them. -/
theorem deal1 (c : Dev nD) :
    (Pipeline.arrBufs spec1 c (V c) : sProp 𝕄) ⊢ (dat1 V c).arrays ((dat1 V c).arrAt · 0) := by
  rw [arrBufs1_eq, arrays1_eq]
  iintro ⟨H7, H4, H6, H8⟩
  ihave H7' := (pointsTo_share (PosShare.mem_left_op_right fullShare)).1 $$ H7
  icases H7' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  isplitl [H4]; · iexact H4
  isplitl [H6]; · iexact H6
  iexact H8

/-- EXIT: the three shares are collected; the output array holds what the write-backs left. -/
theorem collect1 (c : Dev nD) (X : (b : Ref sig .tc) → Buf (Elt F) ((c : Thread nD τ).loc b))
    (h7 : X main_v7 = V c main_v7) (h4 : X main_v4 = V c main_v4) (h6 : X main_v6 = V c main_v6)
    (h8 : X main_v8 = (dat1 V c).arrAt 5 cfg1.N) :
    ((dat1 V c).arrays ((dat1 V c).arrAt · cfg1.N) : sProp 𝕄) ⊢ Pipeline.arrBufs spec1 c X := by
  rw [arrBufs1_eq, arrays1_eq, h7, h4, h6, h8]
  rw [show (dat1 V c).arrAt 0 cfg1.N = V c main_v7 from ((dat1 V c).arrAt_in 0 rfl _).trans (A_eq1 V c 0),
    show (dat1 V c).arrAt 1 cfg1.N = V c main_v7 from ((dat1 V c).arrAt_in 1 rfl _).trans (A_eq1 V c 1),
    show (dat1 V c).arrAt 2 cfg1.N = V c main_v7 from ((dat1 V c).arrAt_in 2 rfl _).trans (A_eq1 V c 2),
    show (dat1 V c).arrAt 3 cfg1.N = V c main_v4 from ((dat1 V c).arrAt_in 3 rfl _).trans (A_eq1 V c 3),
    show (dat1 V c).arrAt 4 cfg1.N = V c main_v6 from ((dat1 V c).arrAt_in 4 rfl _).trans (A_eq1 V c 4)]
  iintro ⟨Ha, Hb1, Hb2, H4, H6, H8⟩
  isplitl [Ha Hb1 Hb2]
  · iapply (pointsTo_share (PosShare.mem_left_op_right fullShare)).2
    isplitl [Ha]; · iexact Ha
    iapply (pointsTo_share (PosShare.mem_left_op_right fullShare.right)).2
    isplitl [Hb1]; · iexact Hb1
    iexact Hb2
  isplitl [H4]; · iexact H4
  isplitl [H6]; · iexact H6
  iexact H8

end Deal

/-! ## The buffers' contents at each boundary -/

variable (m : (ℓ : Loc nD τ sig) → Buf (Elt F) ℓ) (ρ : Dev nD → PrngReg)

/-- Core c's buffers at launch. -/
abbrev W0 : Dev nD → Valuation τ sig (Elt F) := fun c b => m ((c : Dev nD), b)
/-- After the host lines (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its output array at what the write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: the result array at what the write-backs leave. -/
def W4 (c : Dev nD) : Valuation τ sig (Elt F) :=
  Function.update (W2 m c) (Proc.devRef .tc main_v8) ((dat1 (V2 m) c).arrAt 5 cfg1.N)
abbrev V4 : (c : Dev nD) → (b : Ref sig .tc) → Buf (Elt F) ((c : Thread nD τ).loc b) := fun c b => W4 m c b
theorem W4_res (c : Dev nD) : W4 m c (Proc.devRef .tc main_v8) = (dat1 (V2 m) c).arrAt 5 cfg1.N := by
  unfold W4; exact Function.update_self ..
theorem W4_of_ne (c : Dev nD) (b : Ref sig .tc) (hb : b ≠ main_v8) : W4 m c (Proc.devRef .tc b) = W2 m c (Proc.devRef .tc b) := by
  unfold W4; exact Function.update_of_ne (StableHlo.devRef_ne_of_ne hb) ..

/-- No segment writes an argument: it ends as launched. -/
theorem W4_arg (c : Dev nD) (b : Ref sig .tc) (h8 : b ≠ main_v8) (h0 : ∀ w, Pipeline.arrRef spec0 w ≠ b) (hW : b ∉ hostOps0_W) :
    W4 m c (Proc.devRef .tc b) = m ((c : Thread nD τ).loc b) :=
  (W4_of_ne m c b h8).trans ((W2_of_ne m c b h0).trans (Gen.V1_of m c b hW))

/-! ## The segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
/-- The projection region over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's entry contents away from its arrays are its exit contents there. -/
theorem rest1_eq (c : Dev nD) :
    (Pipeline.unscopedRest (Ix := Unit) (Name := ℕ) (U := UR sig nD τ) (Lvl := ℕ) spec1 c (V2 m c) : sProp 𝕄)
      = Pipeline.unscopedRest spec1 c (V4 m c) := by
  unfold Pipeline.unscopedRest
  refine bigSep_congr fun b hb => ?_
  have hb8 : b ≠ main_v8 := fun e => (Finset.mem_sdiff.mp hb).2 (Finset.mem_image.mpr ⟨5, Finset.mem_univ _, e.symm ▸ rfl⟩)
  beta_reduce
  rw [show V4 m c b = V2 m c b from W4_of_ne m c b hb8]

set_option backward.isDefEq.respectTransparency.types false in
/-- The attention region over the thread state: one array's full share dealt among the three windows that read it
    at entry, collected at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (StableHlo.held (c : Thread nD τ) (Pipeline.ucRefs τ sig) (W2 m c) : sProp 𝕄)
        ⊢ iprop((pdats m 1 c).arrays ((pdats m 1 c).arrAt · 0) ∗ Pipeline.unscopedRest spec1 c (V2 m c)) := by
      rw [← Pipeline.unscopedBufs_held (Ix := Unit) (Name := ℕ) (U := UR sig nD τ) (Lvl := ℕ) c (W2 m c),
        Pipeline.unscopedBufs_split₀ (cfgs) 1 winFacts₀1.arr_unscoped c]
      exact sep_mono (deal1 (V2 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c); unfold Pipeline.ΦA
    iintro ⟨Hp, -, Hr⟩
    isplitl [Hr]; · iexact Hr
    iexact Hp
  hout c := by
    rw [Pipeline.ownSems0_none]
    refine BIBase.Entails.trans (hout1 (V2 m) c) ?_; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (StableHlo.held (c : Thread nD τ) (Pipeline.ucRefs τ sig) (W4 m c) : sProp 𝕄) := by
      rw [← Pipeline.unscopedBufs_held (Ix := Unit) (Name := ℕ) (U := UR sig nD τ) (Lvl := ℕ) c (W4 m c),
        Pipeline.unscopedBufs_split₀ (cfgs) 1 winFacts₀1.arr_unscoped c, rest1_eq m c]
      exact sep_mono (collect1 (V2 m) c (V4 m c) (W4_of_ne m c main_v7 (by decide)) (W4_of_ne m c main_v4 (by decide)) (W4_of_ne m c main_v6 (by decide)) (W4_res m c)) .rfl
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and ends with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_arg m c main_arg0 (by decide) (by decide) (by decide)),
     (h c _ (mem_uc main_arg1 (by decide))).trans (W4_arg m c main_arg1 (by decide) (by decide) (by decide)),
     (h c _ (mem_uc main_arg2 (by decide))).trans (W4_arg m c main_arg2 (by decide) (by decide) (by decide)),
     (h c _ (mem_uc main_arg3 (by decide))).trans (W4_arg m c main_arg3 (by decide) (by decide) (by decide)),
     (h c _ (mem_uc main_arg4 (by decide))).trans (W4_arg m c main_arg4 (by decide) (by decide) (by decide))⟩) (run_all m ρ)

/-- THE RUN with the result named: the result array ends at what the attention region's write-backs leave, and
    every argument array as launched. -/
theorem run_value : θ_run defs (onTc (τ := τ) (main (F := F))) ⟨m, fun _ => 0, ρ⟩ (fun r => ∀ c : Dev nD,
      r.2.mem ((c.tc : Thread nD τ).loc main_v8) = (dat1 (V2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v8 (by decide))).trans (W4_res m c),
     (h c _ (mem_uc main_arg0 (by decide))).trans (W4_arg m c main_arg0 (by decide) (by decide) (by decide)),
     (h c _ (mem_uc main_arg1 (by decide))).trans (W4_arg m c main_arg1 (by decide) (by decide) (by decide)),
     (h c _ (mem_uc main_arg2 (by decide))).trans (W4_arg m c main_arg2 (by decide) (by decide) (by decide)),
     (h c _ (mem_uc main_arg3 (by decide))).trans (W4_arg m c main_arg3 (by decide) (by decide) (by decide)),
     (h c _ (mem_uc main_arg4 (by decide))).trans (W4_arg m c main_arg4 (by decide) (by decide) (by decide))⟩) (run_all m ρ)

end Cert.KernelIdeal.Hand

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.VI.Pay1.lean ====
/-
  The kernel's four matrix products and its re-layings read at an entry, at the ideal values: each product into the
  zero accumulator is the sum over its one contracted coordinate; splitting a row of 1024 lanes into 16 heads of 64
  and moving the head axis to the front reads the matrix at lane h·64 + d; merging the heads back reads head k / 64 at
  lane k % 64; a unit trailing axis and a broadcast along it read the column; a reduction over the last axis ranges
  over that axis's coordinate.
-/
import proofs.«141532_j82454782148610_2_alg».proof.Proof.Gen.KernelIdeal.Skeleton
import proofs.«141532_j82454782148610_2_alg».proof.Proof.LibContract1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open Facts₀

/-- Lane d of head h among 1024 lanes. -/
def hd (h : Fin 16) (d : Fin 64) : Fin 1024 := ⟨h.val * 64 + d.val, by omega⟩

theorem dot_S512x1024_S1024x3072_S512x3072_1_0_0_1_n_n_l0 (i : _) (q : dot_S512x1024_S1024x3072_S512x3072_1_0_0_1_n_n.contr.Idx) : (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem dot_S512x1024_S1024x3072_S512x3072_1_0_0_1_n_n_l1 (i : _) (q : dot_S512x1024_S1024x3072_S512x3072_1_0_0_1_n_n.contr.Idx) : (dot_S512x1024_S1024x3072_S512x3072_1_0_0_1_n_n.lhsIdx i q 1).val = (q ⟨0, by decide⟩).val :=
  dot_S512x1024_S1024x3072_S512x3072_1_0_0_1_n_n.lhsIdx_val_of_single rfl i q
theorem dot_S512x1024_S1024x3072_S512x3072_1_0_0_1_n_n_r0 (i : _) (q : dot_S512x1024_S1024x3072_S512x3072_1_0_0_1_n_n.contr.Idx) : (dot_S512x1024_S1024x3072_S512x3072_1_0_0_1_n_n.rhsIdx i q 0).val = (q ⟨0, by decide⟩).val :=
  dot_S512x1024_S1024x3072_S512x3072_1_0_0_1_n_n.rhsIdx_val_of_single rfl i q
theorem dot_S512x1024_S1024x3072_S512x3072_1_0_0_1_n_n_r1 (i : _) (q : dot_S512x1024_S1024x3072_S512x3072_1_0_0_1_n_n.contr.Idx) : (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl
/-- The product read at an entry: the sum over the contracted coordinate. -/
theorem mm_proj {φ₁ φ₂ : FTy} (lhs : FVec Ideal S512x1024 φ₁) (rhs : FVec Ideal S1024x3072 φ₂) (p : Fin 512) (q : Fin 3072) :
    matmul dot_S512x1024_S1024x3072_S512x3072_1_0_0_1_n_n none lhs rhs (constant (F := Ideal) S512x3072 .f32 0x00000000#32) (ix2 p q)
      = ∑ k : Fin 1024, lhs (ix2 p k) * rhs (ix2 k q) := by
  refine Cert.LibContract1.matmul_zero_single dot_S512x1024_S1024x3072_S512x3072_1_0_0_1_n_n 1024 rfl rfl lhs rhs (ix2 p q) (fun k => ix2 p k) (fun k => ix2 k q) (fun k => ?_) (fun k => ?_)
  · have hk := ValueIdx.contrEquiv1_symm_val dot_S512x1024_S1024x3072_S512x3072_1_0_0_1_n_n 1024 rfl rfl k
    exact funext fun a => Fin.ext (by
      match a with
    | ⟨0, _⟩ => exact dot_S512x1024_S1024x3072_S512x3072_1_0_0_1_n_n_l0 _ _
    | ⟨1, _⟩ => exact (dot_S512x1024_S1024x3072_S512x3072_1_0_0_1_n_n_l1 _ _).trans hk)
  · have hk := ValueIdx.contrEquiv1_symm_val dot_S512x1024_S1024x3072_S512x3072_1_0_0_1_n_n 1024 rfl rfl k
    exact funext fun a => Fin.ext (by
      match a with
    | ⟨0, _⟩ => exact (dot_S512x1024_S1024x3072_S512x3072_1_0_0_1_n_n_r0 _ _).trans hk
    | ⟨1, _⟩ => exact dot_S512x1024_S1024x3072_S512x3072_1_0_0_1_n_n_r1 _ _)

theorem dot_S16x256x64_S16x512x64_S16x256x512_2_2_1_1_0_0_l0 (i : _) (q : dot_S16x256x64_S16x512x64_S16x256x512_2_2_1_1_0_0.contr.Idx) : (dot_S16x256x64_S16x512x64_S16x256x512_2_2_1_1_0_0.lhsIdx i q 0).val = (i 0).val := by
  unfold DotDims.lhsIdx
  rw [dif_pos (show (0 : Fin S16x256x64.rank) ∈ dot_S16x256x64_S16x512x64_S16x256x512_2_2_1_1_0_0.lhsBatch by decide)]
  rfl
theorem dot_S16x256x64_S16x512x64_S16x256x512_2_2_1_1_0_0_l1 (i : _) (q : dot_S16x256x64_S16x512x64_S16x256x512_2_2_1_1_0_0.contr.Idx) : (dot_S16x256x64_S16x512x64_S16x256x512_2_2_1_1_0_0.lhsIdx i q 1).val = (i 1).val := by
  unfold DotDims.lhsIdx
  rw [dif_neg (show ¬(1 : Fin S16x256x64.rank) ∈ dot_S16x256x64_S16x512x64_S16x256x512_2_2_1_1_0_0.lhsBatch by decide), dif_pos (show (1 : Fin S16x256x64.rank) ∈ dot_S16x256x64_S16x512x64_S16x256x512_2_2_1_1_0_0.lhsNonContracting by decide)]
  rfl
theorem dot_S16x256x64_S16x512x64_S16x256x512_2_2_1_1_0_0_l2 (i : _) (q : dot_S16x256x64_S16x512x64_S16x256x512_2_2_1_1_0_0.contr.Idx) : (dot_S16x256x64_S16x512x64_S16x256x512_2_2_1_1_0_0.lhsIdx i q 2).val = (q ⟨0, by decide⟩).val :=
  dot_S16x256x64_S16x512x64_S16x256x512_2_2_1_1_0_0.lhsIdx_val_of_single rfl i q
theorem dot_S16x256x64_S16x512x64_S16x256x512_2_2_1_1_0_0_r0 (i : _) (q : dot_S16x256x64_S16x512x64_S16x256x512_2_2_1_1_0_0.contr.Idx) : (dot_S16x256x64_S16x512x64_S16x256x512_2_2_1_1_0_0.rhsIdx i q 0).val = (i 0).val := by
  unfold DotDims.rhsIdx
  rw [dif_pos (show (0 : Fin S16x512x64.rank) ∈ dot_S16x256x64_S16x512x64_S16x256x512_2_2_1_1_0_0.rhsBatch by decide)]
  rfl
theorem dot_S16x256x64_S16x512x64_S16x256x512_2_2_1_1_0_0_r1 (i : _) (q : dot_S16x256x64_S16x512x64_S16x256x512_2_2_1_1_0_0.contr.Idx) : (dot_S16x256x64_S16x512x64_S16x256x512_2_2_1_1_0_0.rhsIdx i q 1).val = (i 2).val := by
  unfold DotDims.rhsIdx
  rw [dif_neg (show ¬(1 : Fin S16x512x64.rank) ∈ dot_S16x256x64_S16x512x64_S16x256x512_2_2_1_1_0_0.rhsBatch by decide), dif_pos (show (1 : Fin S16x512x64.rank) ∈ dot_S16x256x64_S16x512x64_S16x256x512_2_2_1_1_0_0.rhsNonContracting by decide)]
  rfl
theorem dot_S16x256x64_S16x512x64_S16x256x512_2_2_1_1_0_0_r2 (i : _) (q : dot_S16x256x64_S16x512x64_S16x256x512_2_2_1_1_0_0.contr.Idx) : (dot_S16x256x64_S16x512x64_S16x256x512_2_2_1_1_0_0.rhsIdx i q 2).val = (q ⟨0, by decide⟩).val :=
  dot_S16x256x64_S16x512x64_S16x256x512_2_2_1_1_0_0.rhsIdx_val_of_single rfl i q
/-- The product read at an entry: the sum over the contracted coordinate. -/
theorem mm_qk {φ₁ φ₂ : FTy} (lhs : FVec Ideal S16x256x64 φ₁) (rhs : FVec Ideal S16x512x64 φ₂) (h : Fin 16) (r : Fin 256) (j : Fin 512) :
    matmul dot_S16x256x64_S16x512x64_S16x256x512_2_2_1_1_0_0 none lhs rhs (constant (F := Ideal) S16x256x512 .f32 0x00000000#32) (ix3 h r j)
      = ∑ k : Fin 64, lhs (ix3 h r k) * rhs (ix3 h j k) := by
  refine Cert.LibContract1.matmul_zero_single dot_S16x256x64_S16x512x64_S16x256x512_2_2_1_1_0_0 64 rfl rfl lhs rhs (ix3 h r j) (fun k => ix3 h r k) (fun k => ix3 h j k) (fun k => ?_) (fun k => ?_)
  · have hk := ValueIdx.contrEquiv1_symm_val dot_S16x256x64_S16x512x64_S16x256x512_2_2_1_1_0_0 64 rfl rfl k
    exact funext fun a => Fin.ext (by
      match a with
    | ⟨0, _⟩ => exact dot_S16x256x64_S16x512x64_S16x256x512_2_2_1_1_0_0_l0 _ _
    | ⟨1, _⟩ => exact dot_S16x256x64_S16x512x64_S16x256x512_2_2_1_1_0_0_l1 _ _
    | ⟨2, _⟩ => exact (dot_S16x256x64_S16x512x64_S16x256x512_2_2_1_1_0_0_l2 _ _).trans hk)
  · have hk := ValueIdx.contrEquiv1_symm_val dot_S16x256x64_S16x512x64_S16x256x512_2_2_1_1_0_0 64 rfl rfl k
    exact funext fun a => Fin.ext (by
      match a with
    | ⟨0, _⟩ => exact dot_S16x256x64_S16x512x64_S16x256x512_2_2_1_1_0_0_r0 _ _
    | ⟨1, _⟩ => exact dot_S16x256x64_S16x512x64_S16x256x512_2_2_1_1_0_0_r1 _ _
    | ⟨2, _⟩ => exact (dot_S16x256x64_S16x512x64_S16x256x512_2_2_1_1_0_0_r2 _ _).trans hk)

theorem dot_S16x256x512_S16x512x64_S16x256x64_2_1_1_2_0_0_l0 (i : _) (q : dot_S16x256x512_S16x512x64_S16x256x64_2_1_1_2_0_0.contr.Idx) : (dot_S16x256x512_S16x512x64_S16x256x64_2_1_1_2_0_0.lhsIdx i q 0).val = (i 0).val := by
  unfold DotDims.lhsIdx
  rw [dif_pos (show (0 : Fin S16x256x512.rank) ∈ dot_S16x256x512_S16x512x64_S16x256x64_2_1_1_2_0_0.lhsBatch by decide)]
  rfl
theorem dot_S16x256x512_S16x512x64_S16x256x64_2_1_1_2_0_0_l1 (i : _) (q : dot_S16x256x512_S16x512x64_S16x256x64_2_1_1_2_0_0.contr.Idx) : (dot_S16x256x512_S16x512x64_S16x256x64_2_1_1_2_0_0.lhsIdx i q 1).val = (i 1).val := by
  unfold DotDims.lhsIdx
  rw [dif_neg (show ¬(1 : Fin S16x256x512.rank) ∈ dot_S16x256x512_S16x512x64_S16x256x64_2_1_1_2_0_0.lhsBatch by decide), dif_pos (show (1 : Fin S16x256x512.rank) ∈ dot_S16x256x512_S16x512x64_S16x256x64_2_1_1_2_0_0.lhsNonContracting by decide)]
  rfl
theorem dot_S16x256x512_S16x512x64_S16x256x64_2_1_1_2_0_0_l2 (i : _) (q : dot_S16x256x512_S16x512x64_S16x256x64_2_1_1_2_0_0.contr.Idx) : (dot_S16x256x512_S16x512x64_S16x256x64_2_1_1_2_0_0.lhsIdx i q 2).val = (q ⟨0, by decide⟩).val :=
  dot_S16x256x512_S16x512x64_S16x256x64_2_1_1_2_0_0.lhsIdx_val_of_single rfl i q
theorem dot_S16x256x512_S16x512x64_S16x256x64_2_1_1_2_0_0_r0 (i : _) (q : dot_S16x256x512_S16x512x64_S16x256x64_2_1_1_2_0_0.contr.Idx) : (dot_S16x256x512_S16x512x64_S16x256x64_2_1_1_2_0_0.rhsIdx i q 0).val = (i 0).val := by
  unfold DotDims.rhsIdx
  rw [dif_pos (show (0 : Fin S16x512x64.rank) ∈ dot_S16x256x512_S16x512x64_S16x256x64_2_1_1_2_0_0.rhsBatch by decide)]
  rfl
theorem dot_S16x256x512_S16x512x64_S16x256x64_2_1_1_2_0_0_r1 (i : _) (q : dot_S16x256x512_S16x512x64_S16x256x64_2_1_1_2_0_0.contr.Idx) : (dot_S16x256x512_S16x512x64_S16x256x64_2_1_1_2_0_0.rhsIdx i q 1).val = (q ⟨0, by decide⟩).val :=
  dot_S16x256x512_S16x512x64_S16x256x64_2_1_1_2_0_0.rhsIdx_val_of_single rfl i q
theorem dot_S16x256x512_S16x512x64_S16x256x64_2_1_1_2_0_0_r2 (i : _) (q : dot_S16x256x512_S16x512x64_S16x256x64_2_1_1_2_0_0.contr.Idx) : (dot_S16x256x512_S16x512x64_S16x256x64_2_1_1_2_0_0.rhsIdx i q 2).val = (i 2).val := by
  unfold DotDims.rhsIdx
  rw [dif_neg (show ¬(2 : Fin S16x512x64.rank) ∈ dot_S16x256x512_S16x512x64_S16x256x64_2_1_1_2_0_0.rhsBatch by decide), dif_pos (show (2 : Fin S16x512x64.rank) ∈ dot_S16x256x512_S16x512x64_S16x256x64_2_1_1_2_0_0.rhsNonContracting by decide)]
  rfl
/-- The product read at an entry: the sum over the contracted coordinate. -/
theorem mm_pv {φ₁ φ₂ : FTy} (lhs : FVec Ideal S16x256x512 φ₁) (rhs : FVec Ideal S16x512x64 φ₂) (h : Fin 16) (r : Fin 256) (d : Fin 64) :
    matmul dot_S16x256x512_S16x512x64_S16x256x64_2_1_1_2_0_0 none lhs rhs (constant (F := Ideal) S16x256x64 .f32 0x00000000#32) (ix3 h r d)
      = ∑ k : Fin 512, lhs (ix3 h r k) * rhs (ix3 h k d) := by
  refine Cert.LibContract1.matmul_zero_single dot_S16x256x512_S16x512x64_S16x256x64_2_1_1_2_0_0 512 rfl rfl lhs rhs (ix3 h r d) (fun k => ix3 h r k) (fun k => ix3 h k d) (fun k => ?_) (fun k => ?_)
  · have hk := ValueIdx.contrEquiv1_symm_val dot_S16x256x512_S16x512x64_S16x256x64_2_1_1_2_0_0 512 rfl rfl k
    exact funext fun a => Fin.ext (by
      match a with
    | ⟨0, _⟩ => exact dot_S16x256x512_S16x512x64_S16x256x64_2_1_1_2_0_0_l0 _ _
    | ⟨1, _⟩ => exact dot_S16x256x512_S16x512x64_S16x256x64_2_1_1_2_0_0_l1 _ _
    | ⟨2, _⟩ => exact (dot_S16x256x512_S16x512x64_S16x256x64_2_1_1_2_0_0_l2 _ _).trans hk)
  · have hk := ValueIdx.contrEquiv1_symm_val dot_S16x256x512_S16x512x64_S16x256x64_2_1_1_2_0_0 512 rfl rfl k
    exact funext fun a => Fin.ext (by
      match a with
    | ⟨0, _⟩ => exact dot_S16x256x512_S16x512x64_S16x256x64_2_1_1_2_0_0_r0 _ _
    | ⟨1, _⟩ => exact (dot_S16x256x512_S16x512x64_S16x256x64_2_1_1_2_0_0_r1 _ _).trans hk
    | ⟨2, _⟩ => exact dot_S16x256x512_S16x512x64_S16x256x64_2_1_1_2_0_0_r2 _ _)

theorem dot_S256x1024_S1024x1024_S256x1024_1_0_0_1_n_n_l0 (i : _) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem dot_S256x1024_S1024x1024_S256x1024_1_0_0_1_n_n_l1 (i : _) (q : dot_S256x1024_S1024x1024_S256x1024_1_0_0_1_n_n.contr.Idx) : (dot_S256x1024_S1024x1024_S256x1024_1_0_0_1_n_n.lhsIdx i q 1).val = (q ⟨0, by decide⟩).val :=
  dot_S256x1024_S1024x1024_S256x1024_1_0_0_1_n_n.lhsIdx_val_of_single rfl i q
theorem dot_S256x1024_S1024x1024_S256x1024_1_0_0_1_n_n_r0 (i : _) (q : dot_S256x1024_S1024x1024_S256x1024_1_0_0_1_n_n.contr.Idx) : (dot_S256x1024_S1024x1024_S256x1024_1_0_0_1_n_n.rhsIdx i q 0).val = (q ⟨0, by decide⟩).val :=
  dot_S256x1024_S1024x1024_S256x1024_1_0_0_1_n_n.rhsIdx_val_of_single rfl i q
theorem dot_S256x1024_S1024x1024_S256x1024_1_0_0_1_n_n_r1 (i : _) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
/-- The product read at an entry: the sum over the contracted coordinate. -/
theorem mm_out {φ₁ φ₂ : FTy} (lhs : FVec Ideal S256x1024 φ₁) (rhs : FVec Ideal S1024x1024 φ₂) (r : Fin 256) (c : Fin 1024) :
    matmul dot_S256x1024_S1024x1024_S256x1024_1_0_0_1_n_n none lhs rhs (constant (F := Ideal) S256x1024 .f32 0x00000000#32) (ix2 r c)
      = ∑ k : Fin 1024, lhs (ix2 r k) * rhs (ix2 k c) := by
  refine Cert.LibContract1.matmul_zero_single dot_S256x1024_S1024x1024_S256x1024_1_0_0_1_n_n 1024 rfl rfl lhs rhs (ix2 r c) (fun k => ix2 r k) (fun k => ix2 k c) (fun k => ?_) (fun k => ?_)
  · have hk := ValueIdx.contrEquiv1_symm_val dot_S256x1024_S1024x1024_S256x1024_1_0_0_1_n_n 1024 rfl rfl k
    exact funext fun a => Fin.ext (by
      match a with
    | ⟨0, _⟩ => exact dot_S256x1024_S1024x1024_S256x1024_1_0_0_1_n_n_l0 _ _
    | ⟨1, _⟩ => exact (dot_S256x1024_S1024x1024_S256x1024_1_0_0_1_n_n_l1 _ _).trans hk)
  · have hk := ValueIdx.contrEquiv1_symm_val dot_S256x1024_S1024x1024_S256x1024_1_0_0_1_n_n 1024 rfl rfl k
    exact funext fun a => Fin.ext (by
      match a with
    | ⟨0, _⟩ => exact (dot_S256x1024_S1024x1024_S256x1024_1_0_0_1_n_n_r0 _ _).trans hk
    | ⟨1, _⟩ => exact dot_S256x1024_S1024x1024_S256x1024_1_0_0_1_n_n_r1 _ _)

section Layout
variable {α : Type}

/-- A [256, 1024] matrix split into heads, head axis first, at (h, r, d): the matrix at (r, h·64 + d). -/
theorem heads256_apply (y : S256x1024.Idx → α) (hc : S256x1024.ShapeCasts S256x16x64) (ht : S256x16x64.Transposes [1, 0, 2] S16x256x64)
    (h : Fin 16) (r : Fin 256) (d : Fin 64) :
    transpose S16x256x64 [1, 0, 2] (shapeCast S256x16x64 y hc) ht (ix3 h r d) = y (ix2 r (hd h d)) := by
  rw [transpose_apply [1, 0, 2] _ ht (ix3 h r d) (ix3 r h d) (fun b => match b with
    | ⟨0, _⟩ => rfl
    | ⟨1, _⟩ => rfl
    | ⟨2, _⟩ => rfl)]
  exact shapeCast_apply y hc (ix3 r h d) (ix2 r (hd h d)) (by
    rw [Shape.rowMajor_val_two, Shape.rowMajor_val_three]; simp [hd]; ring)

/-- The same for a [512, 1024] matrix. -/
theorem heads512_apply (y : S512x1024.Idx → α) (hc : S512x1024.ShapeCasts S512x16x64) (ht : S512x16x64.Transposes [1, 0, 2] S16x512x64)
    (h : Fin 16) (r : Fin 512) (d : Fin 64) :
    transpose S16x512x64 [1, 0, 2] (shapeCast S512x16x64 y hc) ht (ix3 h r d) = y (ix2 r (hd h d)) := by
  rw [transpose_apply [1, 0, 2] _ ht (ix3 h r d) (ix3 r h d) (fun b => match b with
    | ⟨0, _⟩ => rfl
    | ⟨1, _⟩ => rfl
    | ⟨2, _⟩ => rfl)]
  exact shapeCast_apply y hc (ix3 r h d) (ix2 r (hd h d)) (by
    rw [Shape.rowMajor_val_two, Shape.rowMajor_val_three]; simp [hd]; ring)

/-- The heads merged back into rows of 1024 lanes, at (r, k): head k / 64 at lane k % 64. -/
theorem merge_apply (z : S16x256x64.Idx → α) (ht : S16x256x64.Transposes [1, 0, 2] S256x16x64) (hc : S256x16x64.ShapeCasts S256x1024)
    (r : Fin 256) (k : Fin 1024) :
    shapeCast S256x1024 (transpose S256x16x64 [1, 0, 2] z ht) hc (ix2 r k)
      = z (ix3 (⟨k.val / 64, by omega⟩ : Fin 16) r (⟨k.val % 64, by omega⟩ : Fin 64)) := by
  rw [shapeCast_apply _ hc (ix2 r k) (ix3 r (⟨k.val / 64, by omega⟩ : Fin 16) (⟨k.val % 64, by omega⟩ : Fin 64)) (by
    rw [Shape.rowMajor_val_two, Shape.rowMajor_val_three]
    show (r.val * 16 + k.val / 64) * 64 + k.val % 64 = r.val * 1024 + k.val
    omega)]
  exact transpose_apply [1, 0, 2] z ht _ _ (fun b => match b with
    | ⟨0, _⟩ => rfl
    | ⟨1, _⟩ => rfl
    | ⟨2, _⟩ => rfl)

/-- A [16, 256] array given a unit trailing axis, at (h, r, u): the array at (h, r). -/
theorem col_apply (v : S16x256.Idx → α) (hc : S16x256.ShapeCasts S16x256x1) (h : Fin 16) (r : Fin 256) (u : Fin 1) :
    shapeCast S16x256x1 v hc (ix3 h r u) = v (ix2 h r) :=
  shapeCast_apply v hc (ix3 h r u) (ix2 h r) (by
    rw [Shape.rowMajor_val_two, Shape.rowMajor_val_three]; have := u.isLt
    show h.val * 256 + r.val = (h.val * 256 + r.val) * 1 + u.val
    omega)

/-- A column [16, 256, 1] spread along 512 or 64 lanes reads the column. -/
theorem spread512_apply (v : S16x256x1.Idx → α) (hb : S16x256x1.Broadcasts S16x256x512) (h : Fin 16) (r : Fin 256) (j : Fin 512) :
    broadcastTo S16x256x512 v hb (ix3 h r j) = v (ix3 h r 0) :=
  broadcastTo_apply v hb (ix3 h r j) (ix3 h r 0) (fun a => match a with
    | ⟨0, _⟩ => rfl
    | ⟨1, _⟩ => rfl
    | ⟨2, _⟩ => rfl)
theorem spread64_apply (v : S16x256x1.Idx → α) (hb : S16x256x1.Broadcasts S16x256x64) (h : Fin 16) (r : Fin 256) (d : Fin 64) :
    broadcastTo S16x256x64 v hb (ix3 h r d) = v (ix3 h r 0) :=
  broadcastTo_apply v hb (ix3 h r d) (ix3 h r 0) (fun a => match a with
    | ⟨0, _⟩ => rfl
    | ⟨1, _⟩ => rfl
    | ⟨2, _⟩ => rfl)
/-- A row [1, n] spread over rows reads the row. -/
theorem rows1024_apply (v : S1x1024.Idx → α) (hb : S1x1024.Broadcasts S256x1024) (r : Fin 256) (c : Fin 1024) :
    broadcastTo S256x1024 v hb (ix2 r c) = v (ix2 0 c) :=
  broadcastTo_apply v hb (ix2 r c) (ix2 0 c) (fun a => match a with
    | ⟨0, _⟩ => rfl
    | ⟨1, _⟩ => rfl)
theorem rows3072_apply (v : S1x3072.Idx → α) (hb : S1x3072.Broadcasts S512x3072) (r : Fin 512) (c : Fin 3072) :
    broadcastTo S512x3072 v hb (ix2 r c) = v (ix2 0 c) :=
  broadcastTo_apply v hb (ix2 r c) (ix2 0 c) (fun a => match a with
    | ⟨0, _⟩ => rfl
    | ⟨1, _⟩ => rfl)
end Layout

/-- The coordinate a reduction over the last axis of [16, 256, 512] inserts. -/
theorem lift_last (hr : S16x256x512.Reduces [2] S16x256) (h : Fin 16) (r : Fin 256) (j : Fin 512) :
    hr.lift (ix2 h r) j = ix3 h r j :=
  funext fun a => Fin.ext (by
    match a with
    | ⟨0, _⟩ => rfl
    | ⟨1, _⟩ => rfl
    | ⟨2, _⟩ => rfl)

end Cert.KernelIdeal.Hand

end
-- ==== Proof.LibOnlineSoftmax.lean ====
/-
  The online-softmax law over an abstract finite key type, on the extended reals.

  A softmax-weighted sum over a set of keys can be folded one block of keys at a time. The state after a set A of
  keys is (m, l, a): m the largest score in A, l the sum over A of exp (score − m), a the sum over A of
  exp (score − m)·value. Folding a disjoint block B rescales l and a by exp (m − m'), where m' = max m (largest
  score in B), and adds B's own terms taken against m'. The theorems below say that the result is the state of
  A ∪ B. Scores are extended reals that are never +∞ (a masked key has score −∞, and exp (−∞) = 0); values are
  real. No score needs to be real: a set whose scores are all −∞ has m = −∞ and l = a = 0, and the empty start
  (m = −∞, l = 0, a = 0) is the case A = ∅.
-/
import Idealize.ShloMosaic.PureOps.Ideal

noncomputable section

namespace Cert.OnlineSoftmax

open Idealize.ShloMosaic

variable {ι : Type*}

/-- A finite sum of real numbers, read in the extended reals, is the sum of the readings. -/
theorem coe_sum (A : Finset ι) (f : ι → ℝ) :
    ((∑ j ∈ A, f j : ℝ) : EReal) = ∑ j ∈ A, (f j : EReal) := by
  classical
  refine Finset.induction_on A (by simp) ?_
  intro a t ha ih
  rw [Finset.sum_insert ha, Finset.sum_insert ha, EReal.coe_add, ih]

/-- The real number exp (x − m) for a score x < +∞ and a real m: exp (r − m) at a real score r, and 0 at −∞. -/
def ex (x : EReal) (m : ℝ) : ℝ := (Ideal.exp (x - (m : EReal))).toReal

/-- At the score −∞ the weight is 0. -/
theorem ex_bot (m : ℝ) : ex ⊥ m = 0 := by
  rw [ex, EReal.bot_sub, Ideal.exp_bot, EReal.toReal_zero]

/-- At a real score r the weight is exp (r − m). -/
theorem ex_coe (r m : ℝ) : ex (r : EReal) m = Real.exp (r - m) := by
  rw [ex, ← EReal.coe_sub, Ideal.exp_coe, EReal.toReal_coe]

/-- Every weight is nonnegative. -/
theorem ex_nonneg (x : EReal) (m : ℝ) : 0 ≤ ex x m := by
  induction x with
  | bot => rw [ex_bot]
  | coe r => rw [ex_coe]; exact (Real.exp_pos _).le
  | top => rw [ex, EReal.top_sub_coe, Ideal.exp_top, EReal.toReal_top]

/-- For a score x < +∞ and a real m, the extended-real exp (x − m) is the reading of the real weight. -/
theorem exp_sub_coe {x : EReal} (hx : x ≠ ⊤) (m : ℝ) :
    Ideal.exp (x - (m : EReal)) = ((ex x m : ℝ) : EReal) := by
  induction x with
  | bot => rw [ex_bot, EReal.bot_sub, Ideal.exp_bot, EReal.coe_zero]
  | coe r => rw [ex_coe, ← EReal.coe_sub, Ideal.exp_coe]
  | top => exact absurd rfl hx

/-- Changing the reference point from m to M multiplies every weight by exp (m − M). -/
theorem ex_rescale (x : EReal) (m M : ℝ) : Real.exp (m - M) * ex x m = ex x M := by
  induction x with
  | bot => rw [ex_bot, ex_bot, mul_zero]
  | coe r => rw [ex_coe, ex_coe, ← Real.exp_add]; congr 1; ring
  | top => simp [ex, EReal.top_sub_coe]

/-- A weighted sum over keys whose scores are all < +∞, taken against a real reference point, is the reading
    of a real sum. -/
theorem sum_exp_mul_coe (s : ι → EReal) (v : ι → ℝ) (A : Finset ι) (hs : ∀ j ∈ A, s j ≠ ⊤) (m : ℝ) :
    ∑ j ∈ A, Ideal.exp (s j - (m : EReal)) * (v j : EReal) = ((∑ j ∈ A, ex (s j) m * v j : ℝ) : EReal) := by
  rw [coe_sum]
  exact Finset.sum_congr rfl (fun j hj => by rw [exp_sub_coe (hs j hj), EReal.coe_mul])

/-- The largest score of a union is the larger of the two largest scores. -/
theorem sup_union_eq_max [DecidableEq ι] (s : ι → EReal) (A B : Finset ι) :
    (A ∪ B).sup s = max (A.sup s) (B.sup s) := Finset.sup_union

/-- **The online-softmax step, weighted sum.** For disjoint sets of keys A and B whose scores are all < +∞, with
    m = the largest score in A and m' = max m (the largest score in B): rescaling A's weighted sum (taken against m)
    by exp (m − m') and adding B's weighted sum taken against m' gives the weighted sum of A ∪ B taken against its
    own largest score. -/
theorem acc_step [DecidableEq ι] (s : ι → EReal) (v : ι → ℝ) (A B : Finset ι) (hAB : Disjoint A B)
    (hs : ∀ j ∈ A ∪ B, s j ≠ ⊤) :
    Ideal.exp (A.sup s - max (A.sup s) (B.sup s)) * (∑ j ∈ A, Ideal.exp (s j - A.sup s) * (v j : EReal))
        + ∑ j ∈ B, Ideal.exp (s j - max (A.sup s) (B.sup s)) * (v j : EReal)
      = ∑ j ∈ A ∪ B, Ideal.exp (s j - (A ∪ B).sup s) * (v j : EReal) := by
  have hsA : ∀ j ∈ A, s j ≠ ⊤ := fun j hj => hs j (Finset.mem_union_left _ hj)
  have hsB : ∀ j ∈ B, s j ≠ ⊤ := fun j hj => hs j (Finset.mem_union_right _ hj)
  have hAtop : A.sup s < ⊤ := (Finset.sup_lt_iff bot_lt_top).2 (fun j hj => lt_top_iff_ne_top.2 (hsA j hj))
  have hBtop : B.sup s < ⊤ := (Finset.sup_lt_iff bot_lt_top).2 (fun j hj => lt_top_iff_ne_top.2 (hsB j hj))
  rw [sup_union_eq_max, Finset.sum_union hAB]
  generalize hmA : A.sup s = mA at hAtop ⊢
  induction mA with
  | bot =>
    have hA : ∀ j ∈ A, s j = ⊥ := (Finset.sup_eq_bot_iff s A).1 hmA
    have h0 : ∑ j ∈ A, Ideal.exp (s j - B.sup s) * (v j : EReal) = 0 :=
      Finset.sum_eq_zero (fun j hj => by rw [hA j hj, EReal.bot_sub, Ideal.exp_bot, zero_mul])
    rw [EReal.bot_sub, Ideal.exp_bot, zero_mul, zero_add, max_eq_right bot_le, h0, zero_add]
  | coe mr =>
    have hMtop : max (mr : EReal) (B.sup s) ≠ ⊤ := (max_lt (EReal.coe_lt_top mr) hBtop).ne
    have hMbot : max (mr : EReal) (B.sup s) ≠ ⊥ :=
      (lt_of_lt_of_le (EReal.bot_lt_coe mr) (le_max_left _ _)).ne'
    obtain ⟨Mr, hMr⟩ : ∃ Mr : ℝ, max (mr : EReal) (B.sup s) = (Mr : EReal) :=
      ⟨_, (EReal.coe_toReal hMtop hMbot).symm⟩
    rw [hMr, sum_exp_mul_coe s v A hsA mr, sum_exp_mul_coe s v A hsA Mr, sum_exp_mul_coe s v B hsB Mr,
      ← EReal.coe_sub, Ideal.exp_coe, ← EReal.coe_mul, ← EReal.coe_add, ← EReal.coe_add, Finset.mul_sum]
    congr 2
    exact Finset.sum_congr rfl (fun j _ => by rw [← mul_assoc, ex_rescale])
  | top => exact absurd rfl hAtop.ne

/-- **The online-softmax step, total weight.** The same for the plain sum of the weights: rescaling A's total
    (taken against m) by exp (m − m') and adding B's total taken against m' gives the total of A ∪ B taken against
    its own largest score. -/
theorem total_step [DecidableEq ι] (s : ι → EReal) (A B : Finset ι) (hAB : Disjoint A B)
    (hs : ∀ j ∈ A ∪ B, s j ≠ ⊤) :
    Ideal.exp (A.sup s - max (A.sup s) (B.sup s)) * (∑ j ∈ A, Ideal.exp (s j - A.sup s))
        + ∑ j ∈ B, Ideal.exp (s j - max (A.sup s) (B.sup s))
      = ∑ j ∈ A ∪ B, Ideal.exp (s j - (A ∪ B).sup s) := by
  simpa only [EReal.coe_one, mul_one] using acc_step s (fun _ => (1 : ℝ)) A B hAB hs

/-- The weighted-sum step for values given as extended reals that are all real. -/
theorem acc_step_of_real [DecidableEq ι] (s : ι → EReal) (v : ι → EReal) (A B : Finset ι) (hAB : Disjoint A B)
    (hs : ∀ j ∈ A ∪ B, s j ≠ ⊤) (hv : ∀ j ∈ A ∪ B, ∃ x : ℝ, v j = (x : EReal)) :
    Ideal.exp (A.sup s - max (A.sup s) (B.sup s)) * (∑ j ∈ A, Ideal.exp (s j - A.sup s) * v j)
        + ∑ j ∈ B, Ideal.exp (s j - max (A.sup s) (B.sup s)) * v j
      = ∑ j ∈ A ∪ B, Ideal.exp (s j - (A ∪ B).sup s) * v j := by
  have hv' : ∀ j ∈ A ∪ B, v j = (((v j).toReal : ℝ) : EReal) := fun j hj => by
    obtain ⟨x, hx⟩ := hv j hj
    rw [hx, EReal.toReal_coe]
  have e : ∀ (C : Finset ι), C ⊆ A ∪ B → ∀ c : EReal,
      ∑ j ∈ C, Ideal.exp (s j - c) * v j = ∑ j ∈ C, Ideal.exp (s j - c) * (((v j).toReal : ℝ) : EReal) :=
    fun C hC c => Finset.sum_congr rfl (fun j hj => by rw [← hv' j (hC hj)])
  rw [e A Finset.subset_union_left, e B Finset.subset_union_right, e (A ∪ B) (Finset.Subset.refl _)]
  exact acc_step s (fun j => (v j).toReal) A B hAB hs

/-- **The online-softmax law, as a map of states.** If (m, l, a) is the state of A — m its largest score, l the sum
    of exp (score − m), a the sum of exp (score − m)·value — then with m' = max m (largest score of B) the triple
    (m', exp (m − m')·l + Σ_B exp (score − m'), exp (m − m')·a + Σ_B exp (score − m')·value) is the state of A ∪ B. -/
theorem step [DecidableEq ι] (s : ι → EReal) (v : ι → EReal) (A B : Finset ι) (hAB : Disjoint A B)
    (hs : ∀ j ∈ A ∪ B, s j ≠ ⊤) (hv : ∀ j ∈ A ∪ B, ∃ x : ℝ, v j = (x : EReal)) {m l a : EReal}
    (hm : m = A.sup s) (hl : l = ∑ j ∈ A, Ideal.exp (s j - m))
    (ha : a = ∑ j ∈ A, Ideal.exp (s j - m) * v j) :
    max m (B.sup s) = (A ∪ B).sup s
    ∧ Ideal.exp (m - max m (B.sup s)) * l + ∑ j ∈ B, Ideal.exp (s j - max m (B.sup s))
        = ∑ j ∈ A ∪ B, Ideal.exp (s j - max m (B.sup s))
    ∧ Ideal.exp (m - max m (B.sup s)) * a + ∑ j ∈ B, Ideal.exp (s j - max m (B.sup s)) * v j
        = ∑ j ∈ A ∪ B, Ideal.exp (s j - max m (B.sup s)) * v j := by
  subst hm hl ha
  refine ⟨(sup_union_eq_max s A B).symm, ?_, ?_⟩
  · rw [total_step s A B hAB hs, sup_union_eq_max]
  · rw [acc_step_of_real s v A B hAB hs hv, sup_union_eq_max]

/-- **The empty start.** From the state (−∞, 0, 0) of no keys, the same update gives the state of B: the rescaling
    factor is exp (−∞ − m') = 0, and max (−∞) m' = m'. No hypothesis on the scores or the values is needed. -/
theorem start (s : ι → EReal) (v : ι → EReal) (B : Finset ι) :
    max ⊥ (B.sup s) = B.sup s
    ∧ Ideal.exp (⊥ - max ⊥ (B.sup s)) * 0 + ∑ j ∈ B, Ideal.exp (s j - max ⊥ (B.sup s))
        = ∑ j ∈ B, Ideal.exp (s j - B.sup s)
    ∧ Ideal.exp (⊥ - max ⊥ (B.sup s)) * 0 + ∑ j ∈ B, Ideal.exp (s j - max ⊥ (B.sup s)) * v j
        = ∑ j ∈ B, Ideal.exp (s j - B.sup s) * v j := by
  refine ⟨max_eq_right bot_le, ?_, ?_⟩ <;>
    rw [max_eq_right bot_le, EReal.bot_sub, Ideal.exp_bot, zero_mul, zero_add]

/-- The rescaling factor out of the empty start is 0 whatever the new maximum is. -/
theorem exp_bot_sub (x : EReal) : Ideal.exp (⊥ - x) = 0 := by
  rw [EReal.bot_sub, Ideal.exp_bot]

/-! ### The same law for two score families over one finite key type

  Here the keys seen so far and the keys of the new block are told apart by where two score families are −∞: t carries
  the scores of the keys already folded and is −∞ elsewhere, s carries the new block's scores and is −∞ elsewhere,
  and no key has both. The folded state is then a sum over ALL keys (a key outside the family contributes
  exp (−∞ − m) = 0), and the state of the union is taken against the pointwise larger score max (t j) (s j). -/

section Families

variable {J : Type*} [Fintype J]

/-- **The online-softmax step for two score families, weighted sum.** With m the largest score of t, m' = max m (the
    largest score of s), no score +∞, no key scored by both families, and real values v: rescaling the weighted sum of
    t (taken against m) by exp (m − m') and adding the weighted sum of s taken against m' gives the weighted sum of
    the pointwise larger family taken against m'. The case m = −∞ (nothing folded yet) is included: the rescaling
    factor is then exp (−∞) = 0. The hypothesis that s has a score above −∞ is not needed and is not used. -/
theorem numer_step (t s : J → EReal) (ht : ∀ j, t j ≠ ⊤) (hs : ∀ j, s j ≠ ⊤) (hdisj : ∀ j, t j = ⊥ ∨ s j = ⊥)
    (hne : ∃ j, s j ≠ ⊥) (m m' : EReal) (hm : m = Finset.univ.sup t) (hm' : m' = max m (Finset.univ.sup s))
    (v : J → EReal) (hv : ∀ j, ∃ x : ℝ, v j = x) :
    Ideal.exp (m - m') * (∑ j, Ideal.exp (t j - m) * v j) + ∑ j, Ideal.exp (s j - m') * v j
      = ∑ j, Ideal.exp (max (t j) (s j) - m') * v j := by
  subst hm'
  have htop_t : Finset.univ.sup t < ⊤ :=
    (Finset.sup_lt_iff bot_lt_top).2 (fun j _ => lt_top_iff_ne_top.2 (ht j))
  have htop_s : Finset.univ.sup s < ⊤ :=
    (Finset.sup_lt_iff bot_lt_top).2 (fun j _ => lt_top_iff_ne_top.2 (hs j))
  choose vr hvr using hv
  simp only [hvr]
  induction m with
  | bot =>
    have hT : ∀ j, t j = ⊥ := fun j =>
      (Finset.sup_eq_bot_iff t Finset.univ).1 hm.symm j (Finset.mem_univ j)
    rw [EReal.bot_sub, Ideal.exp_bot, zero_mul, zero_add]
    exact Finset.sum_congr rfl (fun j _ => by rw [hT j, max_eq_right (bot_le : ⊥ ≤ s j)])
  | coe mr =>
    have hMtop : max (mr : EReal) (Finset.univ.sup s) ≠ ⊤ := (max_lt (EReal.coe_lt_top mr) htop_s).ne
    have hMbot : max (mr : EReal) (Finset.univ.sup s) ≠ ⊥ :=
      (lt_of_lt_of_le (EReal.bot_lt_coe mr) (le_max_left _ _)).ne'
    obtain ⟨Mr, hMr⟩ : ∃ Mr : ℝ, max (mr : EReal) (Finset.univ.sup s) = (Mr : EReal) :=
      ⟨_, (EReal.coe_toReal hMtop hMbot).symm⟩
    have hmax : ∀ j, max (t j) (s j) ≠ ⊤ := fun j =>
      (max_lt (lt_top_iff_ne_top.2 (ht j)) (lt_top_iff_ne_top.2 (hs j))).ne
    have e1 := sum_exp_mul_coe t vr Finset.univ (fun j _ => ht j) mr
    have e2 := sum_exp_mul_coe s vr Finset.univ (fun j _ => hs j) Mr
    have e3 := sum_exp_mul_coe (fun j => max (t j) (s j)) vr Finset.univ (fun j _ => hmax j) Mr
    rw [hMr, e1, e2, e3, ← EReal.coe_sub, Ideal.exp_coe, ← EReal.coe_mul, ← EReal.coe_add, Finset.mul_sum,
      ← Finset.sum_add_distrib]
    congr 1
    refine Finset.sum_congr rfl (fun j _ => ?_)
    rcases hdisj j with h | h
    · rw [h, ex_bot, max_eq_right bot_le, zero_mul, mul_zero, zero_add]
    · rw [h, ex_bot, max_eq_left bot_le, zero_mul, add_zero, ← mul_assoc, ex_rescale]
  | top => exact absurd hm.symm htop_t.ne

/-- **The online-softmax step for two score families, total weight.** The same for the plain sums of the weights. -/
theorem denom_step (t s : J → EReal) (ht : ∀ j, t j ≠ ⊤) (hs : ∀ j, s j ≠ ⊤) (hdisj : ∀ j, t j = ⊥ ∨ s j = ⊥)
    (hne : ∃ j, s j ≠ ⊥) (m m' : EReal) (hm : m = Finset.univ.sup t) (hm' : m' = max m (Finset.univ.sup s)) :
    Ideal.exp (m - m') * (∑ j, Ideal.exp (t j - m)) + ∑ j, Ideal.exp (s j - m')
      = ∑ j, Ideal.exp (max (t j) (s j) - m') := by
  have h := numer_step t s ht hs hdisj hne m m' hm hm' (fun _ => (1 : EReal))
    (fun _ => ⟨1, EReal.coe_one.symm⟩)
  simpa only [mul_one] using h

/-- The largest score of the pointwise larger family is the larger of the two largest scores: the new running
    maximum m' = max m (largest score of s) is the largest score of the union. -/
theorem sup_max (t s : J → EReal) :
    Finset.univ.sup (fun j => max (t j) (s j)) = max (Finset.univ.sup t) (Finset.univ.sup s) :=
  Finset.sup_sup

end Families

end Cert.OnlineSoftmax

end
-- ==== Proof.LibSoftmaxQuotient.lean ====
/-
  Softmax attention as one quotient, on the extended reals.

  For scores s_j that are never +∞ and not all −∞, let M be the largest score, p_j = exp (s_j − M) and
  L = Σ_j p_j. Then M is a real number, every p_j is a real number in [0, 1], and L is a real number that is at
  least 1 (the key that attains the maximum contributes exp 0 = 1). The softmax-weighted sum of real values v_j,

      Σ_j (p_j / L) · v_j,

  is therefore the single quotient (Σ_j p_j · v_j) / L: division by a nonzero real is multiplication by its
  reciprocal, which moves out of a finite sum of reals. The same fact gives the scaling of a score: a sum of
  products in which one factor carries the constant 1/32 is the plain sum of products divided by 32. The float
  words of 1/32 and of 1024, and √1024 = 32, are evaluated here too, and a finite sum of products of reals is a
  real.
-/
import Idealize.ShloMosaic.PureOps.Ideal
import proofs.«141532_j82454782148610_2_alg».proof.Proof.LibOnlineSoftmax

noncomputable section

namespace Cert.SoftmaxQuotient

open Idealize.ShloMosaic
open Cert.OnlineSoftmax (coe_sum ex ex_bot ex_coe ex_nonneg exp_sub_coe)

variable {J : Type*} [Fintype J] {E : Type*} [Fintype E]

/-! ### A quotient by a nonzero real moves out of a finite sum -/

/-- For real p_j, v_j and a nonzero real L: Σ_j (p_j / L) · v_j = (Σ_j p_j · v_j) / L. -/
theorem quotient_sum (p v : J → EReal) (hp : ∀ j, ∃ x : ℝ, p j = x) (hv : ∀ j, ∃ x : ℝ, v j = x)
    (L : EReal) (hL : ∃ x : ℝ, x ≠ 0 ∧ L = x) :
    ∑ j, Ideal.div (p j) L * v j = Ideal.div (∑ j, p j * v j) L := by
  obtain ⟨Lr, hL0, rfl⟩ := hL
  choose pr hpr using hp
  choose vr hvr using hv
  have e1 : ∀ j, Ideal.div (p j) (Lr : EReal) * v j = ((pr j * (1 / Lr) * vr j : ℝ) : EReal) := fun j => by
    rw [Ideal.div_coe hL0, hpr, hvr, ← EReal.coe_mul, ← EReal.coe_mul]
  have e2 : ∀ j, p j * v j = ((pr j * vr j : ℝ) : EReal) := fun j => by
    rw [hpr, hvr, ← EReal.coe_mul]
  rw [Ideal.div_coe hL0]
  simp only [e1, e2]
  rw [← coe_sum, ← coe_sum, ← EReal.coe_mul, Finset.sum_mul]
  congr 1
  exact Finset.sum_congr rfl (fun j _ => by ring)

/-- A finite sum of products of reals is a real. -/
theorem sum_mul_real (f g : E → EReal) (hf : ∀ e, ∃ x : ℝ, f e = x) (hg : ∀ e, ∃ x : ℝ, g e = x) :
    ∃ x : ℝ, ∑ e, f e * g e = x := by
  choose fr hfr using hf
  choose gr hgr using hg
  refine ⟨∑ e, fr e * gr e, ?_⟩
  rw [coe_sum]
  exact Finset.sum_congr rfl (fun e _ => by rw [hfr, hgr, ← EReal.coe_mul])

/-! ### The largest score, the weights and their total are real -/

/-- The largest of finitely many scores, none +∞ and not all −∞, is a real number. -/
theorem sup_real (s : J → EReal) (hs : ∀ j, s j ≠ ⊤) (hne : ∃ j, s j ≠ ⊥) :
    ∃ x : ℝ, Finset.univ.sup s = x := by
  have htop : Finset.univ.sup s ≠ ⊤ :=
    ((Finset.sup_lt_iff bot_lt_top).2 (fun j _ => lt_top_iff_ne_top.2 (hs j))).ne
  obtain ⟨j, hj⟩ := hne
  have hbot : Finset.univ.sup s ≠ ⊥ :=
    (lt_of_lt_of_le (bot_lt_iff_ne_bot.2 hj) (Finset.le_sup (Finset.mem_univ j))).ne'
  exact ⟨_, (EReal.coe_toReal htop hbot).symm⟩

/-- A weight taken against a real reference point that is at least the score lies in [0, 1]. -/
theorem ex_le_one {x : EReal} {m : ℝ} (h : x ≤ (m : EReal)) : ex x m ≤ 1 := by
  induction x with
  | bot => rw [ex_bot]; exact zero_le_one
  | coe r =>
    rw [ex_coe, Real.exp_le_one_iff]
    exact sub_nonpos.2 (EReal.coe_le_coe_iff.1 h)
  | top => exact absurd (top_le_iff.1 h) (EReal.coe_ne_top m)

/-- Every weight exp (s_j − M), M the largest score, is a real number in [0, 1]. -/
theorem exp_sub_sup_real (s : J → EReal) (hs : ∀ j, s j ≠ ⊤) (hne : ∃ j, s j ≠ ⊥) (j : J) :
    ∃ x : ℝ, 0 ≤ x ∧ x ≤ 1 ∧ Ideal.exp (s j - Finset.univ.sup s) = x := by
  obtain ⟨M, hM⟩ := sup_real s hs hne
  have hle : s j ≤ (M : EReal) := hM ▸ Finset.le_sup (Finset.mem_univ j)
  exact ⟨ex (s j) M, ex_nonneg _ _, ex_le_one hle, by rw [hM, exp_sub_coe (hs j)]⟩

/-- The total weight Σ_j exp (s_j − M) is a real number that is at least 1. -/
theorem total_real (s : J → EReal) (hs : ∀ j, s j ≠ ⊤) (hne : ∃ j, s j ≠ ⊥) :
    ∃ x : ℝ, 1 ≤ x ∧ ∑ j, Ideal.exp (s j - Finset.univ.sup s) = x := by
  obtain ⟨M, hM⟩ := sup_real s hs hne
  have huniv : (Finset.univ : Finset J).Nonempty := by
    obtain ⟨j, _⟩ := hne
    exact ⟨j, Finset.mem_univ j⟩
  obtain ⟨j0, _, hj0⟩ := Finset.exists_mem_eq_sup Finset.univ huniv s
  refine ⟨∑ j, ex (s j) M, ?_, ?_⟩
  · have h1 : ex (s j0) M = 1 := by
      rw [← hj0, hM, ex_coe, sub_self, Real.exp_zero]
    rw [← h1]
    exact Finset.single_le_sum (fun j _ => ex_nonneg (s j) M) (Finset.mem_univ j0)
  · rw [coe_sum, hM]
    exact Finset.sum_congr rfl (fun j _ => exp_sub_coe (hs j) M)

/-- The total weight is a nonzero real. -/
theorem total_real_ne_zero (s : J → EReal) (hs : ∀ j, s j ≠ ⊤) (hne : ∃ j, s j ≠ ⊥) :
    ∃ x : ℝ, x ≠ 0 ∧ ∑ j, Ideal.exp (s j - Finset.univ.sup s) = x := by
  obtain ⟨x, hx1, hx⟩ := total_real s hs hne
  exact ⟨x, (lt_of_lt_of_le zero_lt_one hx1).ne', hx⟩

/-! ### The softmax-weighted sum is one quotient -/

/-- With M the largest score, p_j = exp (s_j − M) and L = Σ_j p_j:  Σ_j (p_j / L) · v_j = (Σ_j p_j · v_j) / L. -/
theorem softmax_weighted (s v : J → EReal) (hs : ∀ j, s j ≠ ⊤) (hne : ∃ j, s j ≠ ⊥)
    (hv : ∀ j, ∃ x : ℝ, v j = x) :
    ∑ j, Ideal.div (Ideal.exp (s j - Finset.univ.sup s)) (∑ j', Ideal.exp (s j' - Finset.univ.sup s)) * v j
      = Ideal.div (∑ j, Ideal.exp (s j - Finset.univ.sup s) * v j)
          (∑ j', Ideal.exp (s j' - Finset.univ.sup s)) :=
  quotient_sum (fun j => Ideal.exp (s j - Finset.univ.sup s)) v
    (fun j => by
      obtain ⟨x, _, _, hx⟩ := exp_sub_sup_real s hs hne j
      exact ⟨x, hx⟩)
    hv _ (total_real_ne_zero s hs hne)

/-- A maximum that starts from −∞ is the maximum. -/
theorem max_bot_sup (s : J → EReal) : max ⊥ (Finset.univ.sup s) = Finset.univ.sup s :=
  max_eq_right bot_le

/-- A total that starts from 0 is the total. -/
theorem zero_add_sum (f : J → EReal) : 0 + ∑ j, f j = ∑ j, f j :=
  zero_add _

/-! ### The scale 1/32 = 1/√1024 -/

/-- For real q_e, k_e: Σ_e (q_e · (1/32)) · k_e = (Σ_e q_e · k_e) / 32. -/
theorem scale_sum (q k : E → EReal) (hq : ∀ e, ∃ x : ℝ, q e = x) (hk : ∀ e, ∃ x : ℝ, k e = x) :
    ∑ e, (q e * ((1 / 32 : ℝ) : EReal)) * k e = Ideal.div (∑ e, q e * k e) ((32 : ℝ) : EReal) := by
  choose qr hqr using hq
  choose kr hkr using hk
  have e1 : ∀ e, (q e * ((1 / 32 : ℝ) : EReal)) * k e = ((qr e * (1 / 32) * kr e : ℝ) : EReal) := fun e => by
    rw [hqr, hkr, ← EReal.coe_mul, ← EReal.coe_mul]
  have e2 : ∀ e, q e * k e = ((qr e * kr e : ℝ) : EReal) := fun e => by
    rw [hqr, hkr, ← EReal.coe_mul]
  rw [Ideal.div_coe (by norm_num : (32 : ℝ) ≠ 0)]
  simp only [e1, e2]
  rw [← coe_sum, ← coe_sum, ← EReal.coe_mul, Finset.sum_mul]
  congr 1
  exact Finset.sum_congr rfl (fun e _ => by ring)

/-- The f32 word 0x3D000000 denotes 1/32. -/
theorem ofBits_inv32 : Ideal.ofBits .f32 0x3D000000#32 = ((1 / 32 : ℝ) : EReal) := by
  simp [Ideal.ofBits, Ideal.ieee, -EReal.coe_mul]; norm_num

/-- The f32 word 0x44800000 denotes 1024. -/
theorem ofBits_1024 : Ideal.ofBits .f32 0x44800000#32 = ((1024 : ℝ) : EReal) := by
  simp [Ideal.ofBits, Ideal.ieee, -EReal.coe_mul]; norm_num

/-- √1024 = 32. -/
theorem sqrt_1024 : Ideal.sqrt ((1024 : ℝ) : EReal) = ((32 : ℝ) : EReal) := by
  have h : Real.sqrt 1024 = 32 := by
    rw [show (1024 : ℝ) = 32 ^ 2 by norm_num]
    exact Real.sqrt_sq (by norm_num)
  rw [Ideal.sqrt_coe, if_neg (by norm_num), h]

end Cert.SoftmaxQuotient

end
-- ==== Proof.Spec.lean ====
/-
  Attention with a fused query/key/value projection and an output projection, as functions of coordinates on the
  extended reals, and the law that lets it be computed one block of keys at a time.

  From x [2048, 1024], a weight wq [3072, 1024] with bias bq, the fused projection is
      Y n j = Σ_k x n k · wq j k + bq j.
  Head h (of 16, 64 lanes each) reads its queries from columns h·64 + d, its keys from 1024 + h·64 + d and its
  values from 2048 + h·64 + d.  The score of query row n against key row j is Σ_d (Y n (q h d) · 1/8) · Y j (k h d);
  the head's output is the softmax-weighted sum of the value rows; the heads' outputs laid side by side are
  projected by wp [1024, 1024] with bias bp.

  The reference normalises the weights before summing; the kernel sums first and divides once.  For real inputs the
  two agree: division by a nonzero real moves out of a finite sum.  The kernel moreover folds the keys in four
  blocks of 512, keeping a running maximum, a running total and a running weighted sum; the state after any number
  of blocks is the maximum, total and weighted sum over the keys seen so far.
-/
import Idealize.ShloMosaic.PureOps.Ideal
import proofs.«141532_j82454782148610_2_alg».proof.Proof.LibOnlineSoftmax
import proofs.«141532_j82454782148610_2_alg».proof.Proof.LibSoftmaxQuotient

noncomputable section

namespace Cert.Attn

open Idealize.ShloMosaic

/-- The columns of the fused projection that hold head h's queries, keys and values at lane d. -/
def qcol (h : Fin 16) (d : Fin 64) : Fin 3072 := ⟨h.val * 64 + d.val, by omega⟩
def kcol (h : Fin 16) (d : Fin 64) : Fin 3072 := ⟨1024 + (h.val * 64 + d.val), by omega⟩
def vcol (h : Fin 16) (d : Fin 64) : Fin 3072 := ⟨2048 + (h.val * 64 + d.val), by omega⟩

/-- An array of extended reals all of whose entries are real. -/
def IsRealArr {α : Type*} (f : α → EReal) : Prop := ∀ a, ∃ x : ℝ, f a = x

section Proj
variable (X : Fin 2048 → Fin 1024 → EReal) (Wq : Fin 3072 → Fin 1024 → EReal) (bq : Fin 3072 → EReal)

/-- The fused projection. -/
def qkv (n : Fin 2048) (j : Fin 3072) : EReal := (∑ k : Fin 1024, X n k * Wq j k) + bq j

theorem qkv_real (hX : ∀ n k, ∃ x : ℝ, X n k = x) (hW : ∀ j k, ∃ x : ℝ, Wq j k = x) (hb : ∀ j, ∃ x : ℝ, bq j = x)
    (n : Fin 2048) (j : Fin 3072) : ∃ x : ℝ, qkv X Wq bq n j = x := by
  obtain ⟨s, hs⟩ := Cert.SoftmaxQuotient.sum_mul_real (fun k => X n k) (fun k => Wq j k) (hX n) (hW j)
  obtain ⟨b, hb'⟩ := hb j
  exact ⟨s + b, by unfold qkv; rw [hs, hb', EReal.coe_add]⟩
end Proj

section Heads
variable (Y : Fin 2048 → Fin 3072 → EReal)

/-- The score of query row n against key row j in head h. -/
def score (h : Fin 16) (n j : Fin 2048) : EReal :=
  ∑ d : Fin 64, (Y n (qcol h d) * ((1 / 8 : ℝ) : EReal)) * Y j (kcol h d)
/-- Key row j's value at lane d of head h. -/
def value (h : Fin 16) (j : Fin 2048) (d : Fin 64) : EReal := Y j (vcol h d)

theorem score_real (hY : ∀ n j, ∃ x : ℝ, Y n j = x) (h : Fin 16) (n j : Fin 2048) : ∃ x : ℝ, score Y h n j = x := by
  unfold score
  refine Cert.SoftmaxQuotient.sum_mul_real (fun d => Y n (qcol h d) * ((1 / 8 : ℝ) : EReal)) (fun d => Y j (kcol h d)) (fun d => ?_) (fun d => hY _ _)
  obtain ⟨x, hx⟩ := hY n (qcol h d)
  exact ⟨x * (1 / 8), by rw [hx, ← EReal.coe_mul]⟩

theorem score_ne_top (hY : ∀ n j, ∃ x : ℝ, Y n j = x) (h : Fin 16) (n j : Fin 2048) : score Y h n j ≠ ⊤ := by
  obtain ⟨x, hx⟩ := score_real Y hY h n j; rw [hx]; exact EReal.coe_ne_top x
theorem score_ne_bot (hY : ∀ n j, ∃ x : ℝ, Y n j = x) (h : Fin 16) (n j : Fin 2048) : score Y h n j ≠ ⊥ := by
  obtain ⟨x, hx⟩ := score_real Y hY h n j; rw [hx]; exact EReal.coe_ne_bot x

/-- A head's output as the reference computes it: the weights normalised, then summed against the values. -/
def attnRef (h : Fin 16) (n : Fin 2048) (d : Fin 64) : EReal :=
  ∑ j, Ideal.div (Ideal.exp (score Y h n j - Finset.univ.sup (score Y h n)))
      (∑ j', Ideal.exp (score Y h n j' - Finset.univ.sup (score Y h n))) * value Y h j d
/-- The same as the kernel computes it: the weighted sum, divided once by the total weight. -/
def attnKer (h : Fin 16) (n : Fin 2048) (d : Fin 64) : EReal :=
  Ideal.div (∑ j, Ideal.exp (score Y h n j - Finset.univ.sup (score Y h n)) * value Y h j d)
    (∑ j', Ideal.exp (score Y h n j' - Finset.univ.sup (score Y h n)))

theorem attnRef_eq_attnKer (hY : ∀ n j, ∃ x : ℝ, Y n j = x) (h : Fin 16) (n : Fin 2048) (d : Fin 64) :
    attnRef Y h n d = attnKer Y h n d :=
  Cert.SoftmaxQuotient.softmax_weighted (score Y h n) (fun j => value Y h j d) (score_ne_top Y hY h n)
    ⟨n, score_ne_bot Y hY h n n⟩ (fun j => hY _ _)

/-! ### The keys in four blocks of 512 -/

/-- Key j' of block k. -/
def blk (k : Fin 4) (j' : Fin 512) : Fin 2048 := ⟨k.val * 512 + j'.val, by omega⟩
theorem blk_injective (k : Fin 4) : Function.Injective (blk k) := fun a b h => by
  have := congrArg Fin.val h; simp only [blk] at this; exact Fin.ext (by omega)
/-- The keys of block k. -/
def keysOf (k : Fin 4) : Finset (Fin 2048) := Finset.univ.map ⟨blk k, blk_injective k⟩
/-- The keys of the blocks before the k-th. -/
def keysBefore (k : ℕ) : Finset (Fin 2048) := Finset.univ.filter fun j => j.val < k * 512

theorem mem_keysOf (k : Fin 4) (j : Fin 2048) : j ∈ keysOf k ↔ k.val * 512 ≤ j.val ∧ j.val < (k.val + 1) * 512 := by
  unfold keysOf
  simp only [Finset.mem_map, Finset.mem_univ, true_and, Function.Embedding.coeFn_mk]
  constructor
  · rintro ⟨a, rfl⟩; simp only [blk]; omega
  · intro ⟨h1, h2⟩; exact ⟨⟨j.val - k.val * 512, by omega⟩, Fin.ext (by simp only [blk]; omega)⟩

theorem keysBefore_succ (k : Fin 4) : keysBefore (k.val + 1) = keysBefore k.val ∪ keysOf k := by
  ext j
  simp only [keysBefore, Finset.mem_union, Finset.mem_filter, Finset.mem_univ, true_and, mem_keysOf]
  constructor
  · intro h; by_cases h' : j.val < k.val * 512
    · exact Or.inl h'
    · exact Or.inr ⟨by omega, h⟩
  · rintro (h | ⟨_, h⟩)
    · have : k.val * 512 ≤ (k.val + 1) * 512 := by omega
      omega
    · exact h

theorem keys_disjoint (k : Fin 4) : Disjoint (keysBefore k.val) (keysOf k) := by
  rw [Finset.disjoint_left]
  intro j h1 h2
  simp only [keysBefore, Finset.mem_filter, Finset.mem_univ, true_and] at h1
  rw [mem_keysOf] at h2
  omega

theorem keysBefore_zero : keysBefore 0 = ∅ := by
  ext j; simp [keysBefore]
theorem keysBefore_four : keysBefore 4 = Finset.univ := by
  ext j; simp only [keysBefore, Finset.mem_filter, Finset.mem_univ, true_and, iff_true]; omega

theorem sum_keysOf (k : Fin 4) (f : Fin 2048 → EReal) : ∑ j ∈ keysOf k, f j = ∑ j' : Fin 512, f (blk k j') := by
  unfold keysOf; rw [Finset.sum_map]; rfl
theorem sup_keysOf (k : Fin 4) (f : Fin 2048 → EReal) : (keysOf k).sup f = Finset.univ.sup fun j' : Fin 512 => f (blk k j') := by
  unfold keysOf; rw [Finset.sup_map]; rfl

/-- The running state after the blocks before the k-th, for query row n of head h: the largest score, the total
    weight and, per lane, the weighted sum of the values, over the keys seen. -/
def runMax (h : Fin 16) (n : Fin 2048) (k : ℕ) : EReal := (keysBefore k).sup (score Y h n)
def runTot (h : Fin 16) (n : Fin 2048) (k : ℕ) : EReal := ∑ j ∈ keysBefore k, Ideal.exp (score Y h n j - runMax Y h n k)
def runAcc (h : Fin 16) (n : Fin 2048) (d : Fin 64) (k : ℕ) : EReal :=
  ∑ j ∈ keysBefore k, Ideal.exp (score Y h n j - runMax Y h n k) * value Y h j d

theorem runMax_zero (h : Fin 16) (n : Fin 2048) : runMax Y h n 0 = ⊥ := by unfold runMax; rw [keysBefore_zero]; rfl
theorem runTot_zero (h : Fin 16) (n : Fin 2048) : runTot Y h n 0 = 0 := by unfold runTot; rw [keysBefore_zero]; rfl
theorem runAcc_zero (h : Fin 16) (n : Fin 2048) (d : Fin 64) : runAcc Y h n d 0 = 0 := by unfold runAcc; rw [keysBefore_zero]; rfl

/-- **One block folded.**  From the state before block k, the kernel's update — the new maximum is the larger of the
    old one and the block's; the old total and weighted sum are rescaled by exp (old − new) and the block's terms,
    taken against the new maximum, are added — gives the state before block k + 1. -/
theorem run_step (hY : ∀ n j, ∃ x : ℝ, Y n j = x) (h : Fin 16) (n : Fin 2048) (k : Fin 4) :
    max (runMax Y h n k.val) (Finset.univ.sup fun j' : Fin 512 => score Y h n (blk k j')) = runMax Y h n (k.val + 1)
    ∧ Ideal.exp (runMax Y h n k.val - runMax Y h n (k.val + 1)) * runTot Y h n k.val
        + ∑ j' : Fin 512, Ideal.exp (score Y h n (blk k j') - runMax Y h n (k.val + 1)) = runTot Y h n (k.val + 1)
    ∧ ∀ d, Ideal.exp (runMax Y h n k.val - runMax Y h n (k.val + 1)) * runAcc Y h n d k.val
        + ∑ j' : Fin 512, Ideal.exp (score Y h n (blk k j') - runMax Y h n (k.val + 1)) * value Y h (blk k j') d = runAcc Y h n d (k.val + 1) := by
  have hs : ∀ j ∈ keysBefore k.val ∪ keysOf k, score Y h n j ≠ ⊤ := fun j _ => score_ne_top Y hY h n j
  have hM : max (runMax Y h n k.val) ((keysOf k).sup (score Y h n)) = runMax Y h n (k.val + 1) := by
    unfold runMax; rw [keysBefore_succ, Finset.sup_union]
  refine ⟨by rw [← sup_keysOf]; exact hM, ?_, fun d => ?_⟩
  · have h2 := (Cert.OnlineSoftmax.step (score Y h n) (fun j => value Y h j (0 : Fin 64)) (keysBefore k.val) (keysOf k) (keys_disjoint k) hs
      (fun j _ => hY _ _) (m := runMax Y h n k.val) (l := runTot Y h n k.val) (a := runAcc Y h n 0 k.val) rfl rfl rfl).2.1
    rw [hM, sum_keysOf] at h2
    rw [h2]; unfold runTot; rw [keysBefore_succ]
  · have h3 := (Cert.OnlineSoftmax.step (score Y h n) (fun j => value Y h j d) (keysBefore k.val) (keysOf k) (keys_disjoint k) hs
      (fun j _ => hY _ _) (m := runMax Y h n k.val) (l := runTot Y h n k.val) (a := runAcc Y h n d k.val) rfl rfl rfl).2.2
    rw [hM, sum_keysOf] at h3
    rw [h3]; unfold runAcc; rw [keysBefore_succ]

/-- After the four blocks the state is the whole row's: the kernel's quotient is the head's output. -/
theorem run_final (h : Fin 16) (n : Fin 2048) (d : Fin 64) :
    Ideal.div (runAcc Y h n d 4) (runTot Y h n 4) = attnKer Y h n d := by
  unfold runAcc runTot runMax attnKer; rw [keysBefore_four]

end Heads

section Out
variable (Wp : Fin 1024 → Fin 1024 → EReal) (bp : Fin 1024 → EReal)

/-- The heads' outputs side by side, projected. -/
def outOf (O : Fin 16 → Fin 2048 → Fin 64 → EReal) (n : Fin 2048) (c : Fin 1024) : EReal :=
  (∑ k : Fin 1024, O ⟨k.val / 64, by omega⟩ n ⟨k.val % 64, by omega⟩ * Wp c k) + bp c

theorem outOf_congr {O O' : Fin 16 → Fin 2048 → Fin 64 → EReal} (hO : ∀ h n d, O h n d = O' h n d) (n : Fin 2048) (c : Fin 1024) :
    outOf Wp bp O n c = outOf Wp bp O' n c := by
  unfold outOf; simp only [hO]
end Out

/-- The f32 word of 1/8 and the bf16 word of 1/8. -/
theorem ofBits_eighth_f32 : Ideal.ofBits .f32 0x3E000000#32 = ((1 / 8 : ℝ) : EReal) := by
  simp [Ideal.ofBits, Ideal.ieee, -EReal.coe_mul]; norm_num
theorem ofBits_eighth_bf16 : Ideal.ofBits .bf16 0x3E00#16 = ((1 / 8 : ℝ) : EReal) := by
  simp [Ideal.ofBits, Ideal.ieee, -EReal.coe_mul]; norm_num
/-- The f32 word of −∞. -/
theorem ofBits_neg_inf_f32 : Ideal.ofBits .f32 0xFF800000#32 = ⊥ := by
  simp [Ideal.ofBits, Ideal.ieee]

end Cert.Attn

end
-- ==== Proof.FI.R1Pieces.lean ====
/-
  What each control case of the attention body leaves, named: the new running maxima, totals and weighted sums as
  pure functions of the point's blocks and of the scratch it found (the initial values where the key/value
  coordinate is 0), and the output block as a function of the new totals and weighted sums.
-/
import proofs.«141532_j82454782148610_2_alg».proof.Proof.FI.R1Out
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → ℕ) = fun _ => 0 := by funext a; fin_cases a <;> rfl
theorem hz2 : (![0, 0] : Fin 2 → ℕ) = fun _ => 0 := by funext a; fin_cases a <;> rfl

/-- The new running maxima, from the query block, the key block and the old maxima. -/
def mNew (x0 : Vec F S256x1024 .bf16) (x1 : Vec F S512x1024 .bf16) (ms : Vec F S16x256x1 .f32) : Vec F S16x256x1 .f32 :=
  k1_pay3 (k1_pay10 x0 x1 ms)
/-- The new running totals. -/
def lNew (x0 : Vec F S256x1024 .bf16) (x1 : Vec F S512x1024 .bf16) (ms ls : Vec F S16x256x1 .f32) : Vec F S16x256x1 .f32 :=
  k1_pay1 (k1_pay13 x0 x1 ms ms ls)
/-- The new running weighted sums. -/
def aNew (x0 : Vec F S256x1024 .bf16) (x1 x2 : Vec F S512x1024 .bf16) (ms : Vec F S16x256x1 .f32) (acc : Vec F S16x256x64 .f32) : Vec F S16x256x64 .f32 :=
  k1_pay2 (k1_pay8 x2) (k1_pay11 x0 x1 ms ms) (k1_pay12 x0 x1 ms) acc
/-- The output block, from the new totals and weighted sums. -/
def oNew (x0 : Vec F S256x1024 .bf16) (x1 x2 : Vec F S512x1024 .bf16) (x3 : Vec F S1024x1024 .bf16) (x4 : Vec F S1x1024 .f32)
    (ms ls : Vec F S16x256x1 .f32) (acc : Vec F S16x256x64 .f32) : Vec F S256x1024 .f32 :=
  k1_pay4 (aNew x0 x1 x2 ms acc) (lNew x0 x1 ms ls) x3 x4

theorem sout1_A_0_eq (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  :
    sout1_A_0 c i arg2 harg2 arg3 harg3 arg4 harg4 arg5 harg5 arg6 harg6 arg7 harg7 arg8 harg8 arg9 harg9 arg10 harg10 hc0 hc1 x0 x1 x2 x3 x4  = mNew x0 x1 k1_pay5 := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1 x2 x3 x4 )]
  unfold kernelRun1_A
  dsimp only
  sl_unfold_run_names
  simp only [View.canon_cons_unit_zero (S := S16x256x1) hz3, View.canon_cons_unit_zero (S := S16x256x64) hz3, View.canon_cons_unit_zero (S := S256x1024) hz2, View.readCov_unit_zero (S := S16x256x1) _ hz3, View.readCov_unit_zero (S := S16x256x64) _ hz3, View.readAt_eq_ld, harg2.read_unread, harg3.read_unread, harg4.read_unread, harg5.read_unread, harg6.read_unread, harg8.read_unread, harg9.read_unread, harg10.read_unread, View.ld_unit_zero (S := S16x256x1) hz3, View.ld_unit_zero (S := S16x256x64) hz3, View.ld_unit_zero (S := S256x1024) hz2, View.ld_unit_zero (S := S512x1024) hz2, View.ld_unit_zero (S := S1024x1024) hz2, View.ld_unit_zero (S := S1x1024) hz2]
  try rfl

theorem sout1_A_1_eq (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  :
    sout1_A_1 c i arg2 harg2 arg3 harg3 arg4 harg4 arg5 harg5 arg6 harg6 arg7 harg7 arg8 harg8 arg9 harg9 arg10 harg10 hc0 hc1 x0 x1 x2 x3 x4  = lNew x0 x1 k1_pay5 k1_pay6 := by
  unfold sout1_A_1
  rw [View.read_writes_eq_canon _ _ _ (scover1_A_1 c i arg2 harg2 arg3 harg3 arg4 harg4 arg5 harg5 arg6 harg6 arg7 harg7 arg8 harg8 arg9 harg9 arg10 harg10 hc0 hc1 x0 x1 x2 x3 x4 )]
  unfold kernelRun1_A
  dsimp only
  sl_unfold_run_names
  simp only [View.canon_cons_unit_zero (S := S16x256x1) hz3, View.canon_cons_unit_zero (S := S16x256x64) hz3, View.canon_cons_unit_zero (S := S256x1024) hz2, View.readCov_unit_zero (S := S16x256x1) _ hz3, View.readCov_unit_zero (S := S16x256x64) _ hz3, View.readAt_eq_ld, harg2.read_unread, harg3.read_unread, harg4.read_unread, harg5.read_unread, harg6.read_unread, harg8.read_unread, harg9.read_unread, harg10.read_unread, View.ld_unit_zero (S := S16x256x1) hz3, View.ld_unit_zero (S := S16x256x64) hz3, View.ld_unit_zero (S := S256x1024) hz2, View.ld_unit_zero (S := S512x1024) hz2, View.ld_unit_zero (S := S1024x1024) hz2, View.ld_unit_zero (S := S1x1024) hz2]
  try rfl

theorem sout1_A_2_eq (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32)  :
    sout1_A_2 c i arg2 harg2 arg3 harg3 arg4 harg4 arg5 harg5 arg6 harg6 arg7 harg7 arg8 harg8 arg9 harg9 arg10 harg10 hc0 hc1 x0 x1 x2 x3 x4  = aNew x0 x1 x2 k1_pay5 k1_pay7 := by
  unfold sout1_A_2
  rw [View.read_writes_eq_canon _ _ _ (scover1_A_2 c i arg2 harg2 arg3 harg3 arg4 harg4 arg5 harg5 arg6 harg6 arg7 harg7 arg8 harg8 arg9 harg9 arg10 harg10 hc0 hc1 x0 x1 x2 x3 x4 )]
  unfold kernelRun1_A
  dsimp only
  sl_unfold_run_names
  simp only [View.canon_cons_unit_zero (S := S16x256x1) hz3, View.canon_cons_unit_zero (S := S16x256x64) hz3, View.canon_cons_unit_zero (S := S256x1024) hz2, View.readCov_unit_zero (S := S16x256x1) _ hz3, View.readCov_unit_zero (S := S16x256x64) _ hz3, View.readAt_eq_ld, harg2.read_unread, harg3.read_unread, harg4.read_unread, harg5.read_unread, harg6.read_unread, harg8.read_unread, harg9.read_unread, harg10.read_unread, View.ld_unit_zero (S := S16x256x1) hz3, View.ld_unit_zero (S := S16x256x64) hz3, View.ld_unit_zero (S := S256x1024) hz2, View.ld_unit_zero (S := S512x1024) hz2, View.ld_unit_zero (S := S1024x1024) hz2, View.ld_unit_zero (S := S1x1024) hz2]
  try rfl

theorem sout1_B_0_eq (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) :
    sout1_B_0 c i arg2 harg2 arg3 harg3 arg4 harg4 arg5 harg5 arg6 harg6 arg7 harg7 arg8 harg8 arg9 harg9 arg10 harg10 hc0 hc1 x0 x1 x2 x3 x4 xs0 xs1 xs2 = mNew x0 x1 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_run_names
  simp only [View.canon_cons_unit_zero (S := S16x256x1) hz3, View.canon_cons_unit_zero (S := S16x256x64) hz3, View.canon_cons_unit_zero (S := S256x1024) hz2, View.readCov_unit_zero (S := S16x256x1) _ hz3, View.readCov_unit_zero (S := S16x256x64) _ hz3, View.readAt_eq_ld, harg2.read_unread, harg3.read_unread, harg4.read_unread, harg5.read_unread, harg6.read_unread, harg8.read_unread, harg9.read_unread, harg10.read_unread, View.ld_unit_zero (S := S16x256x1) hz3, View.ld_unit_zero (S := S16x256x64) hz3, View.ld_unit_zero (S := S256x1024) hz2, View.ld_unit_zero (S := S512x1024) hz2, View.ld_unit_zero (S := S1024x1024) hz2, View.ld_unit_zero (S := S1x1024) hz2]
  try rfl

theorem sout1_B_1_eq (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) :
    sout1_B_1 c i arg2 harg2 arg3 harg3 arg4 harg4 arg5 harg5 arg6 harg6 arg7 harg7 arg8 harg8 arg9 harg9 arg10 harg10 hc0 hc1 x0 x1 x2 x3 x4 xs0 xs1 xs2 = lNew x0 x1 xs0 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_run_names
  simp only [View.canon_cons_unit_zero (S := S16x256x1) hz3, View.canon_cons_unit_zero (S := S16x256x64) hz3, View.canon_cons_unit_zero (S := S256x1024) hz2, View.readCov_unit_zero (S := S16x256x1) _ hz3, View.readCov_unit_zero (S := S16x256x64) _ hz3, View.readAt_eq_ld, harg2.read_unread, harg3.read_unread, harg4.read_unread, harg5.read_unread, harg6.read_unread, harg8.read_unread, harg9.read_unread, harg10.read_unread, View.ld_unit_zero (S := S16x256x1) hz3, View.ld_unit_zero (S := S16x256x64) hz3, View.ld_unit_zero (S := S256x1024) hz2, View.ld_unit_zero (S := S512x1024) hz2, View.ld_unit_zero (S := S1024x1024) hz2, View.ld_unit_zero (S := S1x1024) hz2]
  try rfl

theorem sout1_B_2_eq (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : ¬cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) :
    sout1_B_2 c i arg2 harg2 arg3 harg3 arg4 harg4 arg5 harg5 arg6 harg6 arg7 harg7 arg8 harg8 arg9 harg9 arg10 harg10 hc0 hc1 x0 x1 x2 x3 x4 xs0 xs1 xs2 = aNew x0 x1 x2 xs0 xs2 := by
  unfold sout1_B_2
  rw [View.read_writes_eq_canon _ _ _ (scover1_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_run_names
  simp only [View.canon_cons_unit_zero (S := S16x256x1) hz3, View.canon_cons_unit_zero (S := S16x256x64) hz3, View.canon_cons_unit_zero (S := S256x1024) hz2, View.readCov_unit_zero (S := S16x256x1) _ hz3, View.readCov_unit_zero (S := S16x256x64) _ hz3, View.readAt_eq_ld, harg2.read_unread, harg3.read_unread, harg4.read_unread, harg5.read_unread, harg6.read_unread, harg8.read_unread, harg9.read_unread, harg10.read_unread, View.ld_unit_zero (S := S16x256x1) hz3, View.ld_unit_zero (S := S16x256x64) hz3, View.ld_unit_zero (S := S256x1024) hz2, View.ld_unit_zero (S := S512x1024) hz2, View.ld_unit_zero (S := S1024x1024) hz2, View.ld_unit_zero (S := S1x1024) hz2]
  try rfl

theorem sout1_C_0_eq (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) :
    sout1_C_0 c i arg2 harg2 arg3 harg3 arg4 harg4 arg5 harg5 arg6 harg6 arg7 harg7 arg8 harg8 arg9 harg9 arg10 harg10 hc0 hc1 x0 x1 x2 x3 x4 xs0 xs1 xs2 = mNew x0 x1 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_run_names
  simp only [View.canon_cons_unit_zero (S := S16x256x1) hz3, View.canon_cons_unit_zero (S := S16x256x64) hz3, View.canon_cons_unit_zero (S := S256x1024) hz2, View.readCov_unit_zero (S := S16x256x1) _ hz3, View.readCov_unit_zero (S := S16x256x64) _ hz3, View.readAt_eq_ld, harg2.read_unread, harg3.read_unread, harg4.read_unread, harg5.read_unread, harg6.read_unread, harg8.read_unread, harg9.read_unread, harg10.read_unread, View.ld_unit_zero (S := S16x256x1) hz3, View.ld_unit_zero (S := S16x256x64) hz3, View.ld_unit_zero (S := S256x1024) hz2, View.ld_unit_zero (S := S512x1024) hz2, View.ld_unit_zero (S := S1024x1024) hz2, View.ld_unit_zero (S := S1x1024) hz2]
  try rfl

theorem sout1_C_1_eq (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) :
    sout1_C_1 c i arg2 harg2 arg3 harg3 arg4 harg4 arg5 harg5 arg6 harg6 arg7 harg7 arg8 harg8 arg9 harg9 arg10 harg10 hc0 hc1 x0 x1 x2 x3 x4 xs0 xs1 xs2 = lNew x0 x1 xs0 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_run_names
  simp only [View.canon_cons_unit_zero (S := S16x256x1) hz3, View.canon_cons_unit_zero (S := S16x256x64) hz3, View.canon_cons_unit_zero (S := S256x1024) hz2, View.readCov_unit_zero (S := S16x256x1) _ hz3, View.readCov_unit_zero (S := S16x256x64) _ hz3, View.readAt_eq_ld, harg2.read_unread, harg3.read_unread, harg4.read_unread, harg5.read_unread, harg6.read_unread, harg8.read_unread, harg9.read_unread, harg10.read_unread, View.ld_unit_zero (S := S16x256x1) hz3, View.ld_unit_zero (S := S16x256x64) hz3, View.ld_unit_zero (S := S256x1024) hz2, View.ld_unit_zero (S := S512x1024) hz2, View.ld_unit_zero (S := S1024x1024) hz2, View.ld_unit_zero (S := S1x1024) hz2]
  try rfl

theorem sout1_C_2_eq (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) :
    sout1_C_2 c i arg2 harg2 arg3 harg3 arg4 harg4 arg5 harg5 arg6 harg6 arg7 harg7 arg8 harg8 arg9 harg9 arg10 harg10 hc0 hc1 x0 x1 x2 x3 x4 xs0 xs1 xs2 = aNew x0 x1 x2 xs0 xs2 := by
  unfold sout1_C_2
  rw [View.read_writes_eq_canon _ _ _ (scover1_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_run_names
  simp only [View.canon_cons_unit_zero (S := S16x256x1) hz3, View.canon_cons_unit_zero (S := S16x256x64) hz3, View.canon_cons_unit_zero (S := S256x1024) hz2, View.readCov_unit_zero (S := S16x256x1) _ hz3, View.readCov_unit_zero (S := S16x256x64) _ hz3, View.readAt_eq_ld, harg2.read_unread, harg3.read_unread, harg4.read_unread, harg5.read_unread, harg6.read_unread, harg8.read_unread, harg9.read_unread, harg10.read_unread, View.ld_unit_zero (S := S16x256x1) hz3, View.ld_unit_zero (S := S16x256x64) hz3, View.ld_unit_zero (S := S256x1024) hz2, View.ld_unit_zero (S := S512x1024) hz2, View.ld_unit_zero (S := S1024x1024) hz2, View.ld_unit_zero (S := S1x1024) hz2]
  try rfl

theorem out1_C_5_eq (c : Dev nD) (i : grid1.Coords) (arg2 : Memref sig .tc .vmem S256x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x64 .f32) (harg10 : arg10.IsWhole) (hc0 : ¬cond1_0 i) (hc1 : cond1_1 i)
    (x0 : Vec F S256x1024 .bf16) (x1 : Vec F S512x1024 .bf16) (x2 : Vec F S512x1024 .bf16) (x3 : Vec F S1024x1024 .bf16) (x4 : Vec F S1x1024 .f32) (xs0 : Vec F S16x256x1 .f32) (xs1 : Vec F S16x256x1 .f32) (xs2 : Vec F S16x256x64 .f32) :
    out1_C_5 c i arg2 harg2 arg3 harg3 arg4 harg4 arg5 harg5 arg6 harg6 arg7 harg7 arg8 harg8 arg9 harg9 arg10 harg10 hc0 hc1 x0 x1 x2 x3 x4 xs0 xs1 xs2 = oNew x0 x1 x2 x3 x4 xs0 xs1 xs2 := by
  unfold out1_C_5
  rw [View.read_writes_eq_canon _ _ _ (cover1_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun1_C
  dsimp only
  sl_unfold_run_names
  simp only [View.canon_cons_unit_zero (S := S16x256x1) hz3, View.canon_cons_unit_zero (S := S16x256x64) hz3, View.canon_cons_unit_zero (S := S256x1024) hz2, View.readCov_unit_zero (S := S16x256x1) _ hz3, View.readCov_unit_zero (S := S16x256x64) _ hz3, View.readAt_eq_ld, harg2.read_unread, harg3.read_unread, harg4.read_unread, harg5.read_unread, harg6.read_unread, harg8.read_unread, harg9.read_unread, harg10.read_unread, View.ld_unit_zero (S := S16x256x1) hz3, View.ld_unit_zero (S := S16x256x64) hz3, View.ld_unit_zero (S := S256x1024) hz2, View.ld_unit_zero (S := S512x1024) hz2, View.ld_unit_zero (S := S1024x1024) hz2, View.ld_unit_zero (S := S1x1024) hz2]
  try rfl

end Cert.KernelIdeal.Hand

end
-- ==== Proof.VI.Pay2.lean ====
/-
  The kernel bodies' arithmetic read at an entry, at the ideal values: the projection's block entry is a row of x
  against a column of the weight plus the bias; the attention body's scores, new maxima, rescaling factors, weights,
  new totals, new weighted sums and output entries, each in terms of the point's blocks and the scratch found.
-/
import proofs.«141532_j82454782148610_2_alg».proof.Proof.VI.Pay1
import proofs.«141532_j82454782148610_2_alg».proof.Proof.Spec
import proofs.«141532_j82454782148610_2_alg».proof.Proof.FI.R1Pieces

set_option maxRecDepth 16384

noncomputable section

namespace Cert.KernelIdeal.Hand

open Cert.KernelIdeal Cert.KernelIdeal.Gen
open Idealize.ShloMosaic Idealize.ShloMosaic.ValueIdx
open Facts₀

/-- The projection body's block at (p, q). -/
theorem pay_proj_apply (x0 : Vec Ideal S512x1024 .bf16) (x1 : Vec Ideal S1024x3072 .bf16) (x2 : Vec Ideal S1x3072 .f32) (p : Fin 512) (q : Fin 3072) :
    k0_pay1 x0 x1 x2 (ix2 p q) = (∑ k : Fin 1024, x0 (ix2 p k) * x1 (ix2 k q)) + x2 (ix2 0 q) := by
  unfold k0_pay1
  rw [truncf_apply, addf_apply, mm_proj, rows3072_apply]
  simp only [shapeCast_self]

/-- The scores of the point's query rows against its key rows. -/
theorem pay9_apply (x0 : Vec Ideal S256x1024 .bf16) (x1 : Vec Ideal S512x1024 .bf16) (h : Fin 16) (r : Fin 256) (j : Fin 512) :
    k1_pay9 x0 x1 (ix3 h r j) = ∑ d : Fin 64, (x0 (ix2 r (hd h d)) * Ideal.ofBits .bf16 0x3E00#16) * x1 (ix2 j (hd h d)) := by
  unfold k1_pay9
  rw [mm_qk]
  refine Finset.sum_congr rfl fun d _ => ?_
  rw [heads256_apply, heads512_apply, mulf_apply]
  simp only [shapeCast_self]
  rfl

/-- A fold of max from −∞ is the supremum. -/
theorem fold_max_bot {ι : Type*} (s : Finset ι) (f : ι → EReal) : s.fold max ⊥ f = s.sup f := by
  classical
  induction s using Finset.induction_on with
  | empty => simp
  | insert a s ha ih => rw [Finset.fold_insert ha, Finset.sup_insert, ih]

/-- The largest entry along the last axis of a [16, 256, 512] array, from −∞. -/
theorem rowmax_apply (src : FVec Ideal S16x256x512 .f32) (hr : S16x256x512.Reduces [2] S16x256) (hφ : FKind.Formats .f32)
    (hacc : (0xFF800000#32 : BitVec 32) = 0xFF800000#32) (h : Fin 16) (r : Fin 256) :
    multiReduction .maximumf [2] S16x256 src 0xFF800000#32 hr hφ hacc (ix2 h r) = Finset.univ.sup fun j : Fin 512 => src (ix3 h r j) := by
  refine (Ideal.multiReduction_maximumf_single src 0xFF800000#32 hr hφ hacc (ix2 h r)).trans ?_
  rw [show (src ∘ hr.lift (ix2 h r)) = fun j : Fin 512 => src (ix3 h r j) from funext fun j => congrArg src (lift_last hr h r j)]
  rw [show FloatOps.ofBits (F := Ideal) .f32 0xFF800000#32 = (⊥ : EReal) from Cert.Attn.ofBits_neg_inf_f32]
  exact fold_max_bot _ _

/-- The sum along the last axis of a [16, 256, 512] array. -/
theorem rowsum_apply (src : FVec Ideal S16x256x512 .f32) (hr : S16x256x512.Reduces [2] S16x256) (hφ : FKind.Formats .f32)
    (hacc : (0x00000000#32 : BitVec 32) = 0x00000000#32) (h : Fin 16) (r : Fin 256) :
    multiReduction .add [2] S16x256 src 0x00000000#32 hr hφ hacc (ix2 h r) = ∑ j : Fin 512, src (ix3 h r j) := by
  refine (Ideal.multiReduction_add_single src 0x00000000#32 hr hφ hacc (ix2 h r)).trans ?_
  exact Finset.sum_congr rfl fun j _ => congrArg src (lift_last hr h r j)

/-- The new running maximum: the larger of the old one and the block's largest score. -/
theorem pay10_apply (x0 : Vec Ideal S256x1024 .bf16) (x1 : Vec Ideal S512x1024 .bf16) (ms : Vec Ideal S16x256x1 .f32) (h : Fin 16) (r : Fin 256) :
    k1_pay10 x0 x1 ms (ix3 h r 0) = max (ms (ix3 h r 0)) (Finset.univ.sup fun j : Fin 512 => k1_pay9 x0 x1 (ix3 h r j)) := by
  unfold k1_pay10
  rw [maximumf_apply, col_apply]
  exact congrArg (max (ms (ix3 h r 0))) (rowmax_apply _ _ _ _ h r)

/-- The rescaling factor exp (found maximum − new maximum). -/
theorem pay11_apply (x0 : Vec Ideal S256x1024 .bf16) (x1 : Vec Ideal S512x1024 .bf16) (ms ms' : Vec Ideal S16x256x1 .f32) (i : S16x256x1.Idx) :
    k1_pay11 x0 x1 ms ms' i = Ideal.exp (ms' i - k1_pay10 x0 x1 ms i) := rfl

/-- The weights exp (score − new maximum). -/
theorem pay12_apply (x0 : Vec Ideal S256x1024 .bf16) (x1 : Vec Ideal S512x1024 .bf16) (ms : Vec Ideal S16x256x1 .f32) (h : Fin 16) (r : Fin 256) (j : Fin 512) :
    k1_pay12 x0 x1 ms (ix3 h r j) = Ideal.exp (k1_pay9 x0 x1 (ix3 h r j) - k1_pay10 x0 x1 ms (ix3 h r 0)) := by
  unfold k1_pay12
  show Ideal.exp (_ - _) = _
  rw [spread512_apply]

/-- The new running total: the old one rescaled plus the block's weights. -/
theorem pay13_apply (x0 : Vec Ideal S256x1024 .bf16) (x1 : Vec Ideal S512x1024 .bf16) (ms ms' ls : Vec Ideal S16x256x1 .f32) (h : Fin 16) (r : Fin 256) :
    k1_pay13 x0 x1 ms ms' ls (ix3 h r 0)
      = k1_pay11 x0 x1 ms ms' (ix3 h r 0) * ls (ix3 h r 0) + ∑ j : Fin 512, k1_pay12 x0 x1 ms (ix3 h r j) := by
  unfold k1_pay13
  rw [addf_apply, mulf_apply, col_apply]
  exact congrArg (k1_pay11 x0 x1 ms ms' (ix3 h r 0) * ls (ix3 h r 0) + ·) (rowsum_apply _ _ _ _ h r)

/-- The value rows split into heads. -/
theorem pay8_apply (x2 : Vec Ideal S512x1024 .bf16) (h : Fin 16) (j : Fin 512) (d : Fin 64) :
    k1_pay8 x2 (ix3 h j d) = x2 (ix2 j (hd h d)) := by
  unfold k1_pay8
  rw [heads512_apply]
  simp only [shapeCast_self]

/-- The new running weighted sum: the old one rescaled plus the block's weights against its values. -/
theorem pay2_apply (v16 : FVec Ideal S16x512x64 .bf16) (a : FVec Ideal S16x256x1 .f32) (p : FVec Ideal S16x256x512 .f32) (acc : Vec Ideal S16x256x64 .f32)
    (h : Fin 16) (r : Fin 256) (d : Fin 64) :
    k1_pay2 v16 a p acc (ix3 h r d) = a (ix3 h r 0) * acc (ix3 h r d) + ∑ j : Fin 512, p (ix3 h r j) * v16 (ix3 h j d) := by
  unfold k1_pay2
  simp only [shapeCast_self]
  rw [addf_apply, mulf_apply, spread64_apply, mm_pv]
  rfl

/-- The output block: the normalised weighted sums, merged over the heads, against the projection weight, plus its bias row. -/
theorem pay4_apply (a : Vec Ideal S16x256x64 .f32) (l : Vec Ideal S16x256x1 .f32) (x3 : Vec Ideal S1024x1024 .bf16) (x4 : Vec Ideal S1x1024 .f32)
    (r : Fin 256) (c : Fin 1024) :
    k1_pay4 a l x3 x4 (ix2 r c)
      = (∑ k : Fin 1024, Ideal.div (a (ix3 (⟨k.val / 64, by omega⟩ : Fin 16) r (⟨k.val % 64, by omega⟩ : Fin 64))) (l (ix3 (⟨k.val / 64, by omega⟩ : Fin 16) r 0)) * x3 (ix2 k c))
        + x4 (ix2 0 c) := by
  unfold k1_pay4
  rw [addf_apply, mm_out, rows1024_apply]
  simp only [shapeCast_self]
  congr 1
  refine Finset.sum_congr rfl fun k _ => ?_
  rw [merge_apply, truncf_apply, divf_apply, spread64_apply]

theorem pay1_eq (v : FVec Ideal S16x256x1 .f32) : k1_pay1 v = v := shapeCast_self _ _
theorem pay3_eq (v : FVec Ideal S16x256x1 .f32) : k1_pay3 v = v := shapeCast_self _ _
theorem pay5_apply (i : S16x256x1.Idx) : k1_pay5 (F := Ideal) i = ⊥ := by
  unfold k1_pay5; simp only [shapeCast_self]; exact Cert.Attn.ofBits_neg_inf_f32
theorem pay6_apply (i : S16x256x1.Idx) : k1_pay6 (F := Ideal) i = 0 := by
  unfold k1_pay6; simp only [shapeCast_self]; exact Ideal.ofBits_zero_f32
theorem pay7_apply (i : S16x256x64.Idx) : k1_pay7 (F := Ideal) i = 0 := by
  unfold k1_pay7; simp only [shapeCast_self]; exact Ideal.ofBits_zero_f32

end Cert.KernelIdeal.Hand

end
-- ==== Proof.FI.R1State.lean ====
/-
  The attention region's scratch and output from point to point, in terms of the named updates: at a point whose
  key/value coordinate is 0 the updates start from the initial values; elsewhere from what the point before left;
  at a last coordinate the output block is the named function of the new totals and weighted sums.
-/
import proofs.«141532_j82454782148610_2_alg».proof.Proof.FI.R1Dat
import proofs.«141532_j82454782148610_2_alg».proof.Proof.FI.R1Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scratch_first (c : Dev nD) (t : Fin cfg1.N) (h0 : t.val % 4 = 0) :
    (outsAt1 V c t.val t.isLt).2 = (mNew (iblk1 V c 0 t) (iblk1 V c 1 t) k1_pay5,
      lNew (iblk1 V c 0 t) (iblk1 V c 1 t) k1_pay5 k1_pay6,
      aNew (iblk1 V c 0 t) (iblk1 V c 1 t) (iblk1 V c 2 t) k1_pay5 k1_pay7) := by
  have h1 : ¬ t.val % 4 = 3 := by omega
  rw [outsAt1_A V c t h0 h1]
  simp only [sout1_A_0_eq, sout1_A_1_eq, sout1_A_2_eq]

theorem scratch_next (c : Dev nD) (t : Fin cfg1.N) (h0 : ¬ t.val % 4 = 0) :
    (outsAt1 V c t.val t.isLt).2 = (mNew (iblk1 V c 0 t) (iblk1 V c 1 t) (prev1 V c t).2.1,
      lNew (iblk1 V c 0 t) (iblk1 V c 1 t) (prev1 V c t).2.1 (prev1 V c t).2.2.1,
      aNew (iblk1 V c 0 t) (iblk1 V c 1 t) (iblk1 V c 2 t) (prev1 V c t).2.1 (prev1 V c t).2.2.2) := by
  by_cases h1 : t.val % 4 = 3
  · rw [outsAt1_C V c t h0 h1]
    simp only [sout1_C_0_eq, sout1_C_1_eq, sout1_C_2_eq]
  · rw [outsAt1_B V c t h0 h1]
    simp only [sout1_B_0_eq, sout1_B_1_eq, sout1_B_2_eq]

theorem out_last (c : Dev nD) (t : Fin cfg1.N) (h1 : t.val % 4 = 3) :
    (outsAt1 V c t.val t.isLt).1 = oNew (iblk1 V c 0 t) (iblk1 V c 1 t) (iblk1 V c 2 t) (iblk1 V c 3 t) (iblk1 V c 4 t)
      (prev1 V c t).2.1 (prev1 V c t).2.2.1 (prev1 V c t).2.2.2 := by
  have h0 : ¬ t.val % 4 = 0 := by omega
  rw [outsAt1_C V c t h0 h1]
  simp only [out1_C_5_eq]

end Cert.KernelIdeal.Hand

end
-- ==== Proof.VI.Blocks.lean ====
/-
  The windows' blocks read at an entry: block (i, j) of an array cut into blocks of a rows by b columns holds, at
  (r, c), the array's entry (i·a + r, j·b + c).  For the attention region the query block is rows q·256 … of the
  first 1024 columns of the fused projection, the key and value blocks rows k·512 … of the second and third 1024
  columns; for the projection region the row block is rows i·512 … of x.
-/
import proofs.«141532_j82454782148610_2_alg».proof.Proof.FI.R1State
import proofs.«141532_j82454782148610_2_alg».proof.Proof.FI.R0
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem N1_eq : cfg1.N = 32 := N_1
theorem N0_eq : cfg0.N = 4 := N_0

/-- The attention region's block indices over its grid: the query coordinate is t / 4, the key/value coordinate t % 4. -/
theorem idx_facts1 : ∀ t : Fin cfg1.N, win1_0.index t (0 : Fin 2) = t.val / 4 ∧ win1_0.index t (1 : Fin 2) = 0
    ∧ win1_1.index t (0 : Fin 2) = t.val % 4 ∧ win1_1.index t (1 : Fin 2) = 1
    ∧ win1_2.index t (0 : Fin 2) = t.val % 4 ∧ win1_2.index t (1 : Fin 2) = 2
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0 :=
  (by decide +kernel : ∀ t : Fin grid1.N, _)

/-- The projection region's block indices over its grid. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ True ∧ True ∧ True ∧ True :=
  (by decide +kernel : ∀ t : Fin grid0.N, _)

/-- Query row r of the point's query block, and key row j of its key/value block, among the 2048 rows. -/
def qrow (t : Fin cfg1.N) (r : Fin 256) : Fin 2048 := ⟨t.val / 4 * 256 + r.val, by have := lt_of_lt_of_eq t.isLt N1_eq; omega⟩
def kblock (t : Fin cfg1.N) : Fin 4 := ⟨t.val % 4, by omega⟩
def krow (t : Fin cfg1.N) (j : Fin 512) : Fin 2048 := ⟨t.val % 4 * 512 + j.val, by omega⟩
/-- Row p of the projection region's block t. -/
def prow (t : Fin cfg0.N) (p : Fin 512) : Fin 2048 := ⟨t.val * 512 + p.val, by have := lt_of_lt_of_eq t.isLt N0_eq; omega⟩

theorem iblk1_0_apply (c : Dev nD) (t : Fin cfg1.N) (r : Fin 256) (cc : Fin 1024) :
    iblk1 V c 0 t (ix2 r cc) = V c main_v7 (ix2 (qrow t r) (⟨cc.val, by omega⟩ : Fin 3072)) := by
  have hN := t.isLt
  obtain ⟨e00, e01, e10, e11, e20, e21, e30, e31, e40, e41, e50, e51⟩ := idx_facts1 t
  show V c main_v7 (((cfg1.win 0).blk t).view.emb (ix2 r cc)) = _
  exact congrArg (V c main_v7) (funext fun a => Fin.ext (by
    match a with
      | ⟨0, _⟩ => show win1_0.index t (0 : Fin 2) * 256 + 1 * r.val = t.val / 4 * 256 + r.val; omega
      | ⟨1, _⟩ => show win1_0.index t (1 : Fin 2) * 1024 + 1 * cc.val = cc.val; omega))

theorem iblk1_1_apply (c : Dev nD) (t : Fin cfg1.N) (j : Fin 512) (cc : Fin 1024) :
    iblk1 V c 1 t (ix2 j cc) = V c main_v7 (ix2 (krow t j) (⟨1024 + cc.val, by omega⟩ : Fin 3072)) := by
  have hN := t.isLt
  obtain ⟨e00, e01, e10, e11, e20, e21, e30, e31, e40, e41, e50, e51⟩ := idx_facts1 t
  show V c main_v7 (((cfg1.win 1).blk t).view.emb (ix2 j cc)) = _
  exact congrArg (V c main_v7) (funext fun a => Fin.ext (by
    match a with
      | ⟨0, _⟩ => show win1_1.index t (0 : Fin 2) * 512 + 1 * j.val = t.val % 4 * 512 + j.val; omega
      | ⟨1, _⟩ => show win1_1.index t (1 : Fin 2) * 1024 + 1 * cc.val = 1024 + cc.val; omega))

theorem iblk1_2_apply (c : Dev nD) (t : Fin cfg1.N) (j : Fin 512) (cc : Fin 1024) :
    iblk1 V c 2 t (ix2 j cc) = V c main_v7 (ix2 (krow t j) (⟨2048 + cc.val, by omega⟩ : Fin 3072)) := by
  have hN := t.isLt
  obtain ⟨e00, e01, e10, e11, e20, e21, e30, e31, e40, e41, e50, e51⟩ := idx_facts1 t
  show V c main_v7 (((cfg1.win 2).blk t).view.emb (ix2 j cc)) = _
  exact congrArg (V c main_v7) (funext fun a => Fin.ext (by
    match a with
      | ⟨0, _⟩ => show win1_2.index t (0 : Fin 2) * 512 + 1 * j.val = t.val % 4 * 512 + j.val; omega
      | ⟨1, _⟩ => show win1_2.index t (1 : Fin 2) * 1024 + 1 * cc.val = 2048 + cc.val; omega))

theorem iblk1_3_apply (c : Dev nD) (t : Fin cfg1.N) (k : Fin 1024) (cc : Fin 1024) :
    iblk1 V c 3 t (ix2 k cc) = V c main_v4 (ix2 k cc) := by
  have hN := t.isLt
  obtain ⟨e00, e01, e10, e11, e20, e21, e30, e31, e40, e41, e50, e51⟩ := idx_facts1 t
  show V c main_v4 (((cfg1.win 3).blk t).view.emb (ix2 k cc)) = _
  exact congrArg (V c main_v4) (funext fun a => Fin.ext (by
    match a with
      | ⟨0, _⟩ => show win1_3.index t (0 : Fin 2) * 1024 + 1 * k.val = k.val; omega
      | ⟨1, _⟩ => show win1_3.index t (1 : Fin 2) * 1024 + 1 * cc.val = cc.val; omega))

theorem iblk1_4_apply (c : Dev nD) (t : Fin cfg1.N) (u : Fin 1) (cc : Fin 1024) :
    iblk1 V c 4 t (ix2 u cc) = V c main_v6 (ix2 u cc) := by
  have hN := t.isLt
  obtain ⟨e00, e01, e10, e11, e20, e21, e30, e31, e40, e41, e50, e51⟩ := idx_facts1 t
  show V c main_v6 (((cfg1.win 4).blk t).view.emb (ix2 u cc)) = _
  exact congrArg (V c main_v6) (funext fun a => Fin.ext (by
    match a with
      | ⟨0, _⟩ => show win1_4.index t (0 : Fin 2) * 1 + 1 * u.val = u.val; omega
      | ⟨1, _⟩ => show win1_4.index t (1 : Fin 2) * 1024 + 1 * cc.val = cc.val; omega))

theorem iblk0_0_apply (c : Dev nD) (t : Fin cfg0.N) (p : Fin 512) (k : Fin 1024) :
    iblk0 V c 0 t (ix2 p k) = V c main_v0 (ix2 (prow t p) k) := by
  have hN := t.isLt
  obtain ⟨e00, e01, e10, e11, e20, e21, e30, e31, e40, e41, e50, e51⟩ := idx_facts0 t
  show V c main_v0 (((cfg0.win 0).blk t).view.emb (ix2 p k)) = _
  exact congrArg (V c main_v0) (funext fun a => Fin.ext (by
    match a with
      | ⟨0, _⟩ => show win0_0.index t (0 : Fin 2) * 512 + 1 * p.val = t.val * 512 + p.val; omega
      | ⟨1, _⟩ => show win0_0.index t (1 : Fin 2) * 1024 + 1 * k.val = k.val; omega))

theorem iblk0_1_apply (c : Dev nD) (t : Fin cfg0.N) (k : Fin 1024) (q : Fin 3072) :
    iblk0 V c 1 t (ix2 k q) = V c main_v2 (ix2 k q) := by
  have hN := t.isLt
  obtain ⟨e00, e01, e10, e11, e20, e21, e30, e31, e40, e41, e50, e51⟩ := idx_facts0 t
  show V c main_v2 (((cfg0.win 1).blk t).view.emb (ix2 k q)) = _
  exact congrArg (V c main_v2) (funext fun a => Fin.ext (by
    match a with
      | ⟨0, _⟩ => show win0_1.index t (0 : Fin 2) * 1024 + 1 * k.val = k.val; omega
      | ⟨1, _⟩ => show win0_1.index t (1 : Fin 2) * 3072 + 1 * q.val = q.val; omega))

theorem iblk0_2_apply (c : Dev nD) (t : Fin cfg0.N) (u : Fin 1) (q : Fin 3072) :
    iblk0 V c 2 t (ix2 u q) = V c main_v5 (ix2 u q) := by
  have hN := t.isLt
  obtain ⟨e00, e01, e10, e11, e20, e21, e30, e31, e40, e41, e50, e51⟩ := idx_facts0 t
  show V c main_v5 (((cfg0.win 2).blk t).view.emb (ix2 u q)) = _
  exact congrArg (V c main_v5) (funext fun a => Fin.ext (by
    match a with
      | ⟨0, _⟩ => show win0_2.index t (0 : Fin 2) * 1 + 1 * u.val = u.val; omega
      | ⟨1, _⟩ => show win0_2.index t (1 : Fin 2) * 3072 + 1 * q.val = q.val; omega))

end Cert.KernelIdeal.Hand

end
-- ==== Proof.VI.Attn.lean ====
/-
  The attention region's value at the ideal values.  With Y the fused projection as the region finds it, the scratch
  after a grid point holds, for each head and query row of the point's query block, the largest score, the total
  weight and the weighted value sums over the keys of the blocks folded so far; at a last key/value coordinate the
  output block is the normalised sums, merged over the heads, projected.  So the result array ends, entry by entry,
  at the projected attention of Y.
-/
import proofs.«141532_j82454782148610_2_alg».proof.Proof.VI.Pay2
import proofs.«141532_j82454782148610_2_alg».proof.Proof.VI.Blocks
import proofs.«141532_j82454782148610_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.SL.Sem
open Idealize.ShloMosaic.Pipeline (Dat)
open Cert.Attn

variable (V : (c : Dev nD) → (b : Ref sig .tc) → Buf (Elt Ideal) ((c : Thread nD τ).loc b)) (c : Dev nD)

/-- The fused projection, the transposed projection weight and its bias row as the region finds them, by coordinates. -/
def Yof (n : Fin 2048) (j : Fin 3072) : EReal := V c main_v7 (ix2 n j)
def WpOf (cc : Fin 1024) (k : Fin 1024) : EReal := V c main_v4 (ix2 k cc)
def bpOf (cc : Fin 1024) : EReal := V c main_v6 (ix2 0 cc)

/-- The point's blocks at their literal types. -/
abbrev qB (t : Fin cfg1.N) : Vec Ideal S256x1024 .bf16 := iblk1 V c 0 t
abbrev kB (t : Fin cfg1.N) : Vec Ideal S512x1024 .bf16 := iblk1 V c 1 t
abbrev vB (t : Fin cfg1.N) : Vec Ideal S512x1024 .bf16 := iblk1 V c 2 t
abbrev wB (t : Fin cfg1.N) : Vec Ideal S1024x1024 .bf16 := iblk1 V c 3 t
abbrev bB (t : Fin cfg1.N) : Vec Ideal S1x1024 .f32 := iblk1 V c 4 t

theorem qB_apply (t : Fin cfg1.N) (r : Fin 256) (h : Fin 16) (d : Fin 64) : qB V c t (ix2 r (hd h d)) = Yof V c (qrow t r) (qcol h d) :=
  iblk1_0_apply V c t r (hd h d)
theorem kB_apply (t : Fin cfg1.N) (j : Fin 512) (h : Fin 16) (d : Fin 64) : kB V c t (ix2 j (hd h d)) = Yof V c (blk (kblock t) j) (kcol h d) :=
  iblk1_1_apply V c t j (hd h d)
theorem vB_apply (t : Fin cfg1.N) (j : Fin 512) (h : Fin 16) (d : Fin 64) : vB V c t (ix2 j (hd h d)) = value (Yof V c) h (blk (kblock t) j) d :=
  iblk1_2_apply V c t j (hd h d)

/-- The body's scores are the scores of the point's query rows against its block of keys. -/
theorem score_block (t : Fin cfg1.N) (h : Fin 16) (r : Fin 256) (j : Fin 512) :
    k1_pay9 (qB V c t) (kB V c t) (ix3 h r j) = score (Yof V c) h (qrow t r) (blk (kblock t) j) := by
  rw [pay9_apply (qB V c t) (kB V c t) h r j]
  unfold score
  refine Finset.sum_congr rfl fun d _ => ?_
  rw [qB_apply, kB_apply, ofBits_eighth_bf16]

/-- **One point's update.**  If the scratch found holds the state before the point's block of keys, the new scratch
    holds the state after it. -/
theorem step_state (hY : ∀ n j, ∃ x : ℝ, Yof V c n j = x) (t : Fin cfg1.N)
    (ms ls : Vec Ideal S16x256x1 .f32) (acc : Vec Ideal S16x256x64 .f32)
    (hm : ∀ h r, ms (ix3 h r 0) = runMax (Yof V c) h (qrow t r) (kblock t).val)
    (hl : ∀ h r, ls (ix3 h r 0) = runTot (Yof V c) h (qrow t r) (kblock t).val)
    (ha : ∀ h r d, acc (ix3 h r d) = runAcc (Yof V c) h (qrow t r) d (kblock t).val) :
    (∀ h r, mNew (qB V c t) (kB V c t) ms (ix3 h r 0) = runMax (Yof V c) h (qrow t r) ((kblock t).val + 1))
    ∧ (∀ h r, lNew (qB V c t) (kB V c t) ms ls (ix3 h r 0) = runTot (Yof V c) h (qrow t r) ((kblock t).val + 1))
    ∧ (∀ h r d, aNew (qB V c t) (kB V c t) (vB V c t) ms acc (ix3 h r d) = runAcc (Yof V c) h (qrow t r) d ((kblock t).val + 1)) := by
  have hM : ∀ h r, k1_pay10 (qB V c t) (kB V c t) ms (ix3 h r 0) = runMax (Yof V c) h (qrow t r) ((kblock t).val + 1) := fun h r => by
    rw [pay10_apply (qB V c t) (kB V c t) ms h r, hm h r]
    simp only [score_block]
    exact (run_step (Yof V c) hY h (qrow t r) (kblock t)).1
  have hP : ∀ h r j, k1_pay12 (qB V c t) (kB V c t) ms (ix3 h r j)
      = Ideal.exp (score (Yof V c) h (qrow t r) (blk (kblock t) j) - runMax (Yof V c) h (qrow t r) ((kblock t).val + 1)) := fun h r j => by
    rw [pay12_apply (qB V c t) (kB V c t) ms h r j, score_block, hM]
  have hA : ∀ h r, k1_pay11 (qB V c t) (kB V c t) ms ms (ix3 h r 0)
      = Ideal.exp (runMax (Yof V c) h (qrow t r) (kblock t).val - runMax (Yof V c) h (qrow t r) ((kblock t).val + 1)) := fun h r => by
    rw [pay11_apply, hM, hm]
  refine ⟨fun h r => ?_, fun h r => ?_, fun h r d => ?_⟩
  · unfold mNew; rw [pay3_eq]; exact hM h r
  · unfold lNew
    rw [pay1_eq, pay13_apply (qB V c t) (kB V c t) ms ms ls h r, hA, hl]
    simp only [hP]
    exact (run_step (Yof V c) hY h (qrow t r) (kblock t)).2.1
  · unfold aNew
    rw [pay2_apply _ _ _ acc h r d, hA, ha]
    simp only [hP, pay8_apply, vB_apply]
    exact (run_step (Yof V c) hY h (qrow t r) (kblock t)).2.2 d

/-- The state a scratch triple holds: before block k of the point's query rows. -/
def Holds (t : Fin cfg1.N) (k : ℕ) (s : Vec Ideal S16x256x1 .f32 × Vec Ideal S16x256x1 .f32 × Vec Ideal S16x256x64 .f32) : Prop :=
  (∀ h r, s.1 (ix3 h r 0) = runMax (Yof V c) h (qrow t r) k)
  ∧ (∀ h r, s.2.1 (ix3 h r 0) = runTot (Yof V c) h (qrow t r) k)
  ∧ (∀ h r d, s.2.2 (ix3 h r d) = runAcc (Yof V c) h (qrow t r) d k)

/-- The initial values hold the state before the first block. -/
theorem holds_init (t : Fin cfg1.N) : Holds V c t 0 (k1_pay5 (F := Ideal), k1_pay6 (F := Ideal), k1_pay7 (F := Ideal)) :=
  ⟨fun h r => (pay5_apply (ix3 h r 0)).trans (runMax_zero _ h _).symm, fun h r => (pay6_apply (ix3 h r 0)).trans (runTot_zero _ h _).symm, fun h r d => (pay7_apply (ix3 h r d)).trans (runAcc_zero _ h _ d).symm⟩

/-- **Point by point.**  After the body at point t the scratch holds the state after the point's block. -/
theorem holds_at (hY : ∀ n j, ∃ x : ℝ, Yof V c n j = x) : ∀ (n : ℕ) (hn : n < cfg1.N),
    Holds V c ⟨n, hn⟩ (n % 4 + 1) (outsAt1 V c n hn).2 := by
  intro n
  induction n with
  | zero =>
    intro hn
    have h0 : (⟨0, hn⟩ : Fin cfg1.N).val % 4 = 0 := rfl
    rw [scratch_first V c ⟨0, hn⟩ h0]
    exact step_state V c hY ⟨0, hn⟩ _ _ _ (holds_init V c ⟨0, hn⟩).1 (holds_init V c ⟨0, hn⟩).2.1 (holds_init V c ⟨0, hn⟩).2.2
  | succ n ih =>
    intro hn
    have hN : n + 1 < 32 := lt_of_lt_of_eq hn N1_eq
    by_cases h0 : (n + 1) % 4 = 0
    · rw [scratch_first V c ⟨n + 1, hn⟩ h0]
      have hk : (kblock ⟨n + 1, hn⟩).val = 0 := h0
      have hi := holds_init V c ⟨n + 1, hn⟩
      have hs := step_state V c hY ⟨n + 1, hn⟩ (k1_pay5 (F := Ideal)) (k1_pay6 (F := Ideal)) (k1_pay7 (F := Ideal)) (by rw [hk]; exact hi.1) (by rw [hk]; exact hi.2.1) (by rw [hk]; exact hi.2.2)
      rw [hk] at hs
      rw [h0]
      exact hs
    · rw [scratch_next V c ⟨n + 1, hn⟩ h0]
      have hp := ih (Nat.lt_of_succ_lt hn)
      have hk : (kblock ⟨n + 1, hn⟩).val = n % 4 + 1 := by show (n + 1) % 4 = n % 4 + 1; omega
      have hq : ∀ r, qrow ⟨n + 1, hn⟩ r = qrow ⟨n, Nat.lt_of_succ_lt hn⟩ r := fun r => Fin.ext (by show (n + 1) / 4 * 256 + r.val = n / 4 * 256 + r.val; omega)
      have hs := step_state V c hY ⟨n + 1, hn⟩ (prev1 V c ⟨n + 1, hn⟩).2.1 (prev1 V c ⟨n + 1, hn⟩).2.2.1 (prev1 V c ⟨n + 1, hn⟩).2.2.2
        (by intro h r; rw [hk, hq]; exact hp.1 h r) (by intro h r; rw [hk, hq]; exact hp.2.1 h r) (by intro h r d; rw [hk, hq]; exact hp.2.2 h r d)
      rw [hk] at hs
      rw [show (n + 1) % 4 + 1 = n % 4 + 1 + 1 by omega]
      exact hs

/-- The projected attention of Y. -/
def outG (i : S2048x1024.Idx) : EReal :=
  outOf (WpOf V c) (bpOf V c) (attnKer (Yof V c)) ⟨(i 0).val, (i 0).isLt⟩ ⟨(i 1).val, (i 1).isLt⟩

/-- **The output block.**  At a last key/value coordinate the block stored is the projected attention of the point's
    query rows. -/
theorem out_at (hY : ∀ n j, ∃ x : ℝ, Yof V c n j = x) (t : Fin cfg1.N) (h3 : t.val % 4 = 3) (r : Fin 256) (cc : Fin 1024) :
    (outsAt1 V c t.val t.isLt).1 (ix2 r cc) = outOf (WpOf V c) (bpOf V c) (attnKer (Yof V c)) (qrow t r) cc := by
  have hN : t.val < 32 := lt_of_lt_of_eq t.isLt N1_eq
  have hp := holds_at V c hY (t.val - 1) (Nat.lt_of_le_of_lt (Nat.sub_le _ _) t.isLt)
  have hk : (kblock t).val = (t.val - 1) % 4 + 1 := by show t.val % 4 = (t.val - 1) % 4 + 1; omega
  have hq : ∀ r, qrow t r = qrow ⟨t.val - 1, Nat.lt_of_le_of_lt (Nat.sub_le _ _) t.isLt⟩ r := fun r => Fin.ext (by show t.val / 4 * 256 + r.val = (t.val - 1) / 4 * 256 + r.val; omega)
  have hs := step_state V c hY t (prev1 V c t).2.1 (prev1 V c t).2.2.1 (prev1 V c t).2.2.2
    (by intro h r; rw [hk, hq]; exact hp.1 h r) (by intro h r; rw [hk, hq]; exact hp.2.1 h r) (by intro h r d; rw [hk, hq]; exact hp.2.2 h r d)
  have h4 : (kblock t).val + 1 = 4 := by show t.val % 4 + 1 = 4; omega
  rw [h4] at hs
  rw [out_last V c t h3]
  unfold oNew
  rw [pay4_apply _ _ (wB V c t) (bB V c t) r cc]
  unfold outOf
  congr 1
  · refine Finset.sum_congr rfl fun k _ => ?_
    rw [hs.2.2, hs.2.1, run_final]
    exact congrArg (attnKer (Yof V c) _ (qrow t r) _ * ·) (iblk1_3_apply V c t k cc)
  · exact iblk1_4_apply V c t 0 cc

/-! ## From the blocks to the array -/

theorem flushed5_eq (hY : ∀ n j, ∃ x : ℝ, Yof V c n j = x) (t : Fin cfg1.N) (hf : (cfg1.win 5).flush t = true) :
    (dat1 V c).flushed 5 t = ((cfg1.win 5).blk t).view.read (Elt Ideal) (outG V c) := by
  have h3 : t.val % 4 = 3 := (flush1_5 t).mp hf
  have hN : t.val < 32 := lt_of_lt_of_eq t.isLt N1_eq
  obtain ⟨e00, e01, e10, e11, e20, e21, e30, e31, e40, e41, e50, e51⟩ := idx_facts1 t
  show (cfg1.win 5).cut (grid1.coords t) ((dat1 V c).after 5 t) = _
  rw [after1_5]
  funext y
  obtain ⟨r, cc, rfl⟩ : ∃ (r : Fin 256) (cc : Fin 1024), y = ix2 r cc := ⟨y 0, y 1, eq_ix2 y⟩
  show (outsAt1 V c t.val t.isLt).1 (ix2 r cc) = outG V c (((cfg1.win 5).blk t).view.emb (ix2 r cc))
  refine (out_at V c hY t h3 r cc).trans ?_
  have a0 : t.val / 4 * 256 + r.val = win1_5.index t (0 : Fin 2) * 256 + 1 * r.val := by omega
  have a1 : cc.val = win1_5.index t (1 : Fin 2) * 1024 + 1 * cc.val := by omega
  exact congrArg₂ (outOf (WpOf V c) (bpOf V c) (attnKer (Yof V c))) (Fin.ext a0) (Fin.ext a1)

theorem mem_blk5 (t : Fin cfg1.N) (i : S2048x1024.Idx) :
    i ∈ ((cfg1.win 5).blk t).view.set ↔ ∀ a : Fin 2, win1_5.index t a * S256x1024.size a ≤ (i a).val ∧ (i a).val < win1_5.index t a * S256x1024.size a + S256x1024.size a := by
  show i ∈ ((View.whole main_v8).slice (win1_5.rect t)).set ↔ _
  rw [View.set_slice_whole, Rect.mem_set_unit]
  exact Iff.rfl

theorem cover5 (i : S2048x1024.Idx) : ∃ t : Fin cfg1.N, (cfg1.win 5).flush t = true ∧ i ∈ ((cfg1.win 5).blk t).view.set := by
  have hi0 : (i 0).val < 2048 := (i 0).isLt
  have hi1 : (i 1).val < 1024 := (i 1).isLt
  let t : Fin cfg1.N := ⟨(i 0).val / 256 * 4 + 3, by rw [N1_eq]; omega⟩
  have ht : t.val = (i 0).val / 256 * 4 + 3 := rfl
  obtain ⟨e00, e01, e10, e11, e20, e21, e30, e31, e40, e41, e50, e51⟩ := idx_facts1 t
  refine ⟨t, (flush1_5 t).mpr (by omega), ?_⟩
  rw [mem_blk5]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 1024 ≤ (i 1).val ∧ (i 1).val < win1_5.index t (1 : Fin 2) * 1024 + 1024; omega

/-- **The result array** after the region: the projected attention of Y, entry by entry. -/
theorem final5 (hY : ∀ n j, ∃ x : ℝ, Yof V c n j = x) : (dat1 V c).arrAt 5 cfg1.N = outG V c :=
  (dat1 V c).arrAt_eq_of_cover 5 (outG V c) (fun t hf => flushed5_eq V c hY t hf) (cover5)

end Cert.KernelIdeal.Hand

end
-- ==== Proof.VI.Proj.lean ====
/-
  The projection region's value at the ideal values, and the kernel's result as a function of the arguments.  The host
  lines leave x narrowed (unchanged at the ideal values), the two weights transposed, the two biases as rows; block t
  of the projection region's output is rows t·512 … of the fused projection Y of the arguments, so its array ends at
  Y; the attention region then leaves the projected attention of Y in the result array.
-/
import proofs.«141532_j82454782148610_2_alg».proof.Proof.FI.Run
import proofs.«141532_j82454782148610_2_alg».proof.Proof.VI.Attn
import Idealize.ShloMosaic.Lib.StableHlo.Run

set_option maxRecDepth 16384

noncomputable section

namespace Cert.KernelIdeal.Hand

open Cert.KernelIdeal Cert.KernelIdeal.Gen
open Idealize.ShloMosaic Idealize.ShloMosaic.ValueIdx Idealize.ShloMosaic.TcCoe
open Idealize.SL Idealize.SL.Sem Idealize.ShloMosaic.StableHlo
open Idealize.ShloMosaic.Pipeline (Dat)
open Cert.Attn

variable (m : (ℓ : Loc nD τ sig) → Buf (Elt Ideal) ℓ) (c : Dev nD)

/-- The arguments by coordinates. -/
def Xk (n : Fin 2048) (k : Fin 1024) : EReal := m ((c : Thread nD τ).loc main_arg0) (ix2 n k)
def Wqk (j : Fin 3072) (k : Fin 1024) : EReal := m ((c : Thread nD τ).loc main_arg1) (ix2 j k)
def bqk (j : Fin 3072) : EReal := m ((c : Thread nD τ).loc main_arg2) (ix1 j)
def Wpk (cc : Fin 1024) (k : Fin 1024) : EReal := m ((c : Thread nD τ).loc main_arg3) (ix2 cc k)
def bpk (cc : Fin 1024) : EReal := m ((c : Thread nD τ).loc main_arg4) (ix1 cc)

/-! ## What the host lines leave -/

theorem hv0 (n : Fin 2048) (k : Fin 1024) : V1 m c main_v0 (ix2 n k) = Xk m c n k := by
  dsimp only [V1, W1, W0, hostOps0]
  after_results
  rfl

theorem hv2 (k : Fin 1024) (q : Fin 3072) : V1 m c main_v2 (ix2 k q) = Wqk m c q k := by
  dsimp only [V1, W1, W0, hostOps0]
  after_results
  show transpose S1024x3072 [1, 0] (m ((c : Thread nD τ).loc main_arg1)) Facts₀.transposes_S3072x1024_S1024x3072_1_0 (ix2 k q) = _
  exact transpose_apply [1, 0] _ Facts₀.transposes_S3072x1024_S1024x3072_1_0 (ix2 k q) (ix2 q k) (fun b => match b with
    | ⟨0, _⟩ => rfl
    | ⟨1, _⟩ => rfl)

theorem hv4 (k : Fin 1024) (cc : Fin 1024) : V1 m c main_v4 (ix2 k cc) = Wpk m c cc k := by
  dsimp only [V1, W1, W0, hostOps0]
  after_results
  show transpose S1024x1024 [1, 0] (m ((c : Thread nD τ).loc main_arg3)) Facts₀.transposes_S1024x1024_S1024x1024_1_0 (ix2 k cc) = _
  exact transpose_apply [1, 0] _ Facts₀.transposes_S1024x1024_S1024x1024_1_0 (ix2 k cc) (ix2 cc k) (fun b => match b with
    | ⟨0, _⟩ => rfl
    | ⟨1, _⟩ => rfl)

theorem hv5 (q : Fin 3072) : V1 m c main_v5 (ix2 0 q) = bqk m c q := by
  dsimp only [V1, W1, W0, hostOps0]
  after_results
  show shapeCast S1x3072 (m ((c : Thread nD τ).loc main_arg2)) Facts₀.shapeCasts_S3072_S1x3072 (ix2 0 q) = _
  exact shapeCast_apply _ Facts₀.shapeCasts_S3072_S1x3072 (ix2 0 q) (ix1 q) (by
    rw [Shape.rowMajor_val_one, Shape.rowMajor_val_two]; show q.val = 0 * 3072 + q.val; omega)

theorem hv6 (cc : Fin 1024) : V1 m c main_v6 (ix2 0 cc) = bpk m c cc := by
  dsimp only [V1, W1, W0, hostOps0]
  after_results
  show shapeCast S1x1024 (m ((c : Thread nD τ).loc main_arg4)) Facts₀.shapeCasts_S1024_S1x1024 (ix2 0 cc) = _
  exact shapeCast_apply _ Facts₀.shapeCasts_S1024_S1x1024 (ix2 0 cc) (ix1 cc) (by
    rw [Shape.rowMajor_val_one, Shape.rowMajor_val_two]; show cc.val = 0 * 1024 + cc.val; omega)

/-! ## The projection region's array -/

/-- The fused projection of the arguments. -/
abbrev Yk : Fin 2048 → Fin 3072 → EReal := qkv (Xk m c) (Wqk m c) (bqk m c)

def projG (i : S2048x3072.Idx) : EReal := Yk m c ⟨(i 0).val, (i 0).isLt⟩ ⟨(i 1).val, (i 1).isLt⟩

/-- Block t's entry (p, q) is Y at row t·512 + p. -/
theorem out0_at (t : Fin cfg0.N) (p : Fin 512) (q : Fin 3072) :
    out0_3 (iblk0 (V1 m) c 0 t) (iblk0 (V1 m) c 1 t) (iblk0 (V1 m) c 2 t) (ix2 p q) = Yk m c (prow t p) q := by
  unfold out0_3
  rw [View.canon_unit_zero hz2]
  simp only [View.ld_unit_zero (S := S512x1024) hz2, View.ld_unit_zero (S := S1024x3072) hz2, View.ld_unit_zero (S := S1x3072) hz2]
  rw [pay_proj_apply (iblk0 (V1 m) c 0 t) (iblk0 (V1 m) c 1 t) (iblk0 (V1 m) c 2 t) p q]
  unfold Yk qkv
  congr 1
  · refine Finset.sum_congr rfl fun k _ => ?_
    rw [iblk0_0_apply (V1 m) c t p k, iblk0_1_apply (V1 m) c t k q, hv0, hv2]
  · rw [iblk0_2_apply (V1 m) c t 0 q, hv5]

theorem flushed3_eq (t : Fin cfg0.N) : (dat0 (V1 m) c).flushed 3 t = ((cfg0.win 3).blk t).view.read (Elt Ideal) (projG m c) := by
  have hN : t.val < 4 := lt_of_lt_of_eq t.isLt N0_eq
  obtain ⟨e00, e01, e10, e11, e20, e21, e30, e31, -, -, -, -⟩ := idx_facts0 t
  show (cfg0.win 3).cut (grid0.coords t) ((dat0 (V1 m) c).after 3 t) = _
  rw [after0_3]
  funext y
  obtain ⟨p, q, rfl⟩ : ∃ (p : Fin 512) (q : Fin 3072), y = ix2 p q := ⟨y 0, y 1, eq_ix2 y⟩
  show out0_3 (iblk0 (V1 m) c 0 t) (iblk0 (V1 m) c 1 t) (iblk0 (V1 m) c 2 t) (ix2 p q) = projG m c (((cfg0.win 3).blk t).view.emb (ix2 p q))
  refine (out0_at m c t p q).trans ?_
  have a0 : t.val * 512 + p.val = win0_3.index t (0 : Fin 2) * 512 + 1 * p.val := by omega
  have a1 : q.val = win0_3.index t (1 : Fin 2) * 3072 + 1 * q.val := by omega
  exact congrArg₂ (Yk m c) (Fin.ext a0) (Fin.ext a1)

theorem mem_blk3 (t : Fin cfg0.N) (i : S2048x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v7).slice (win0_3.rect t)).set ↔ _
  rw [View.set_slice_whole, Rect.mem_set_unit]
  exact Iff.rfl

theorem cover3 (i : S2048x3072.Idx) : ∃ t : Fin cfg0.N, (cfg0.win 3).flush t = true ∧ i ∈ ((cfg0.win 3).blk t).view.set := by
  have hi0 : (i 0).val < 2048 := (i 0).isLt
  have hi1 : (i 1).val < 3072 := (i 1).isLt
  let t : Fin cfg0.N := ⟨(i 0).val / 512, by rw [N0_eq]; omega⟩
  have ht : t.val = (i 0).val / 512 := rfl
  obtain ⟨e00, e01, e10, e11, e20, e21, e30, e31, -, -, -, -⟩ := idx_facts0 t
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- The projection region's output array ends at Y. -/
theorem final3 : (dat0 (V1 m) c).arrAt 3 cfg0.N = projG m c :=
  (dat0 (V1 m) c).arrAt_eq_of_cover 3 (projG m c) (fun t _ => flushed3_eq m c t) (cover3)

/-! ## What the attention region finds -/

theorem Yof_eq : Yof (V2 m) c = Yk m c := by
  funext n j
  unfold Yof
  show W2 m c (Proc.devRef .tc (Pipeline.arrRef spec0 3)) (ix2 n j) = _
  rw [W2_arr m c 3, final3]
  rfl
theorem WpOf_eq : WpOf (V2 m) c = Wpk m c := by
  funext cc k
  unfold WpOf
  show W2 m c (Proc.devRef .tc main_v4) (ix2 k cc) = _
  rw [W2_of_ne m c main_v4 (by decide)]
  exact hv4 m c k cc
theorem bpOf_eq : bpOf (V2 m) c = bpk m c := by
  funext cc
  unfold bpOf
  show W2 m c (Proc.devRef .tc main_v6) (ix2 0 cc) = _
  rw [W2_of_ne m c main_v6 (by decide)]
  exact hv6 m c cc

/-- **The kernel's result**: the projected attention of the fused projection of the arguments, entry by entry. -/
theorem kernel_value (hX : ∀ n k, ∃ x : ℝ, Xk m c n k = x) (hW : ∀ j k, ∃ x : ℝ, Wqk m c j k = x) (hb : ∀ j, ∃ x : ℝ, bqk m c j = x) :
    (dat1 (V2 m) c).arrAt 5 cfg1.N
      = fun i => outOf (Wpk m c) (bpk m c) (attnKer (Yk m c)) ⟨(i 0).val, (i 0).isLt⟩ ⟨(i 1).val, (i 1).isLt⟩ := by
  have hY : ∀ n j, ∃ x : ℝ, Yof (V2 m) c n j = x := by
    rw [Yof_eq]; exact qkv_real _ _ _ hX hW hb
  rw [final5 (V2 m) c hY]
  funext i
  unfold outG
  rw [Yof_eq, WpOf_eq, bpOf_eq]

end Cert.KernelIdeal.Hand

end
-- ==== Proof.RefV.lean ====
/-
  The reference read against the coordinate functions: its fused projection is Y; its per-head queries (scaled by
  1/8), keys and values are Y's columns h·64 + d of the three sections; its scores, their row maxima (from −∞), the
  weights, their totals (from 0), the normalised weights and the weighted value sums are the head outputs with the
  weights normalised first; merged and projected they are the reference's result.
-/
import proofs.«141532_j82454782148610_2_alg».proof.Proof.Gen.ReferenceIdeal.Read
import proofs.«141532_j82454782148610_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefV

open Cert.ReferenceIdeal Cert.ReferenceIdeal.Gen Cert.ReferenceIdeal.Read
open Idealize.ShloMosaic Idealize.ShloMosaic.ValueIdx
open Cert.Attn
open Facts₀

variable (x0 : (⟨S2048x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-- The arguments by coordinates. -/
def Xc (n : Fin 2048) (k : Fin 1024) : EReal := x0 (ix2 n k)
def Wqc (j : Fin 3072) (k : Fin 1024) : EReal := x1 (ix2 j k)
def bqc (j : Fin 3072) : EReal := x2 (ix1 j)
def Wpc (cc : Fin 1024) (k : Fin 1024) : EReal := x3 (ix2 cc k)
def bpc (cc : Fin 1024) : EReal := x4 (ix1 cc)

/-- The fused projection. -/
abbrev Yc : Fin 2048 → Fin 3072 → EReal := qkv (Xc x0) (Wqc x1) (bqc x2)

theorem v4_at (n : Fin 2048) (j : Fin 3072) : val_main_v4 (F := Ideal) x0 x1 x2 (ix2 n j) = Yc x0 x1 x2 n j := by
  rw [val_main_v4_apply, val_main_v1_apply, val_main_v3_apply, val_main_v2_apply]
  show (∑ k : Fin 1024, x0 (lidx_main_v1 (ix2 n j) k) * val_main_v0 (F := Ideal) x1 (ridx_main_v1 (ix2 n j) k)) + x2 (idx_main_v2 (idx_main_v3 (ix2 n j))) = _
  unfold Yc qkv
  congr 1
  · refine Finset.sum_congr rfl fun k _ => ?_
    rw [val_main_v0_apply]
    have e1 : lidx_main_v1 (ix2 n j) k = ix2 n k := funext fun a => Fin.ext (by match a with | ⟨0, _⟩ => rfl | ⟨1, _⟩ => rfl)
    have e2 : idx_main_v0 (ridx_main_v1 (ix2 n j) k) = ix2 j k := funext fun a => Fin.ext (by match a with | ⟨0, _⟩ => rfl | ⟨1, _⟩ => rfl)
    rw [e1, e2]; rfl
  · have e3 : idx_main_v2 (idx_main_v3 (ix2 n j)) = ix1 j := funext fun a => Fin.ext (by match a with | ⟨0, _⟩ => rfl)
    rw [e3]; rfl

/-- A section's columns split into heads, head axis first. -/
theorem idx8_at (n : Fin 2048) (h : Fin 16) (d : Fin 64) :
    idx_main_v8 (ix3 n h d) = ix2 n (⟨h.val * 64 + d.val, by omega⟩ : Fin 1024) := funext fun a => Fin.ext (by
  match a with
  | ⟨0, _⟩ => show ((n.val * 16 + h.val) * 64 + d.val) / 1024 = n.val; omega
  | ⟨1, _⟩ => show ((n.val * 16 + h.val) * 64 + d.val) % 1024 = h.val * 64 + d.val; omega)

theorem v9_at (h : Fin 16) (n : Fin 2048) (d : Fin 64) : val_main_v9 (F := Ideal) x0 x1 x2 (ix3 h n d) = Yc x0 x1 x2 n (qcol h d) := by
  rw [val_main_v9_apply, show idx_main_v9 (ix3 h n d) = ix3 n h d from funext fun a => Fin.ext (by match a with | ⟨0, _⟩ => rfl | ⟨1, _⟩ => rfl | ⟨2, _⟩ => rfl),
    val_main_v8_apply, show idx_main_v8 (ix3 n h d) = idx_main_v8 (ix3 n h d) from rfl, idx8_at, val_main_v5_apply,
    show idx_main_v5 (ix2 n (⟨h.val * 64 + d.val, by omega⟩ : Fin 1024)) = ix2 n (qcol h d) from funext fun a => Fin.ext (by match a with | ⟨0, _⟩ => rfl | ⟨1, _⟩ => rfl)]
  exact v4_at x0 x1 x2 n (qcol h d)
theorem v11_at (h : Fin 16) (n : Fin 2048) (d : Fin 64) : val_main_v11 (F := Ideal) x0 x1 x2 (ix3 h n d) = Yc x0 x1 x2 n (kcol h d) := by
  rw [val_main_v11_apply, show idx_main_v11 (ix3 h n d) = ix3 n h d from funext fun a => Fin.ext (by match a with | ⟨0, _⟩ => rfl | ⟨1, _⟩ => rfl | ⟨2, _⟩ => rfl),
    val_main_v10_apply, show idx_main_v10 (ix3 n h d) = idx_main_v8 (ix3 n h d) from rfl, idx8_at, val_main_v6_apply,
    show idx_main_v6 (ix2 n (⟨h.val * 64 + d.val, by omega⟩ : Fin 1024)) = ix2 n (kcol h d) from funext fun a => Fin.ext (by match a with | ⟨0, _⟩ => rfl | ⟨1, _⟩ => rfl)]
  exact v4_at x0 x1 x2 n (kcol h d)
theorem v13_at (h : Fin 16) (n : Fin 2048) (d : Fin 64) : val_main_v13 (F := Ideal) x0 x1 x2 (ix3 h n d) = Yc x0 x1 x2 n (vcol h d) := by
  rw [val_main_v13_apply, show idx_main_v13 (ix3 h n d) = ix3 n h d from funext fun a => Fin.ext (by match a with | ⟨0, _⟩ => rfl | ⟨1, _⟩ => rfl | ⟨2, _⟩ => rfl),
    val_main_v12_apply, show idx_main_v12 (ix3 n h d) = idx_main_v8 (ix3 n h d) from rfl, idx8_at, val_main_v7_apply,
    show idx_main_v7 (ix2 n (⟨h.val * 64 + d.val, by omega⟩ : Fin 1024)) = ix2 n (vcol h d) from funext fun a => Fin.ext (by match a with | ⟨0, _⟩ => rfl | ⟨1, _⟩ => rfl)]
  exact v4_at x0 x1 x2 n (vcol h d)

theorem v15_at (h : Fin 16) (n : Fin 2048) (d : Fin 64) :
    val_main_v15 (F := Ideal) x0 x1 x2 (ix3 h n d) = Yc x0 x1 x2 n (qcol h d) * ((1 / 8 : ℝ) : EReal) := by
  rw [val_main_v15_apply, v9_at, val_main_v14_apply, val_main_cst_apply]
  show _ * Ideal.ofBits .f32 0x3E000000#32 = _
  rw [ofBits_eighth_f32]

/-- The scores. -/
theorem v16_at (h : Fin 16) (n j : Fin 2048) : val_main_v16 (F := Ideal) x0 x1 x2 (ix3 h n j) = score (Yc x0 x1 x2) h n j := by
  rw [val_main_v16_apply]
  unfold score
  refine Finset.sum_congr rfl fun d _ => ?_
  rw [show lidx_main_v16 (ix3 h n j) d = ix3 h n d from funext fun a => Fin.ext (by match a with | ⟨0, _⟩ => rfl | ⟨1, _⟩ => rfl | ⟨2, _⟩ => rfl),
    show ridx_main_v16 (ix3 h n j) d = ix3 h j d from funext fun a => Fin.ext (by match a with | ⟨0, _⟩ => rfl | ⟨1, _⟩ => rfl | ⟨2, _⟩ => rfl),
    v15_at, v11_at]

theorem fold_max_bot {ι : Type*} (s : Finset ι) (f : ι → EReal) : s.fold max ⊥ f = s.sup f := by
  classical
  induction s using Finset.induction_on with
  | empty => simp
  | insert a s ha ih => rw [Finset.fold_insert ha, Finset.sup_insert, ih]

/-- The row maxima, from −∞. -/
theorem v19_at (h : Fin 16) (n : Fin 2048) : val_main_v19 (F := Ideal) x0 x1 x2 (ix2 h n) = Finset.univ.sup (score (Yc x0 x1 x2) h n) := by
  rw [val_main_v19_apply, val_main_v18_apply, val_main_cst_1_apply]
  unfold val_main_v17
  rw [Host.reduce_eq_fold_single (a := 2) FloatOps.maximumf _ _ Facts₀.reducesTo_S16x2048x2048_S16x2048_d2 (by decide) Facts₀.h_S_ (ix2 h n)]
  rw [val_main_cst_0_apply]
  show max (Ideal.ofBits .f32 0xFF800000#32) (Finset.univ.fold max (Ideal.ofBits .f32 0xFF800000#32) _) = _
  rw [ofBits_neg_inf_f32, fold_max_bot, max_eq_right bot_le]
  refine Finset.sup_congr rfl fun j _ => ?_
  show val_main_v16 (F := Ideal) x0 x1 x2 _ = _
  rw [show (Shape.Reduces.lift (by decide : S16x2048x2048.Reduces [2] S16x2048) (ix2 h n) j) = ix3 h n j from
    funext fun a => Fin.ext (by match a with | ⟨0, _⟩ => rfl | ⟨1, _⟩ => rfl | ⟨2, _⟩ => rfl)]
  exact v16_at x0 x1 x2 h n j

/-- The weights. -/
theorem v23_at (h : Fin 16) (n j : Fin 2048) :
    val_main_v23 (F := Ideal) x0 x1 x2 (ix3 h n j) = Ideal.exp (score (Yc x0 x1 x2) h n j - Finset.univ.sup (score (Yc x0 x1 x2) h n)) := by
  rw [val_main_v23_apply, val_main_v22_apply, v16_at, val_main_v21_apply, val_main_v20_apply,
    show idx_main_v20 (idx_main_v21 (ix3 h n j)) = ix2 h n from funext fun a => Fin.ext (by match a with | ⟨0, _⟩ => rfl | ⟨1, _⟩ => rfl), v19_at]
  rfl

/-- The total weights, from 0. -/
theorem v24_at (h : Fin 16) (n : Fin 2048) :
    val_main_v24 (F := Ideal) x0 x1 x2 (ix2 h n) = ∑ j, Ideal.exp (score (Yc x0 x1 x2) h n j - Finset.univ.sup (score (Yc x0 x1 x2) h n)) := by
  rw [val_main_v24_apply, val_main_cst_2_apply]
  show Ideal.ofBits .f32 0x00000000#32 + _ = _
  rw [Ideal.ofBits_zero_f32, zero_add]
  refine Finset.sum_congr rfl fun j _ => ?_
  rw [show idx_main_v24 (ix2 h n) j = ix3 h n j from funext fun a => Fin.ext (by match a with | ⟨0, _⟩ => rfl | ⟨1, _⟩ => rfl | ⟨2, _⟩ => rfl)]
  exact v23_at x0 x1 x2 h n j

/-- The head outputs: the normalised weights against the values. -/
theorem v28_at (h : Fin 16) (n : Fin 2048) (d : Fin 64) : val_main_v28 (F := Ideal) x0 x1 x2 (ix3 h n d) = attnRef (Yc x0 x1 x2) h n d := by
  rw [val_main_v28_apply]
  unfold attnRef
  refine Finset.sum_congr rfl fun j _ => ?_
  rw [show lidx_main_v28 (ix3 h n d) j = ix3 h n j from funext fun a => Fin.ext (by match a with | ⟨0, _⟩ => rfl | ⟨1, _⟩ => rfl | ⟨2, _⟩ => rfl),
    show ridx_main_v28 (ix3 h n d) j = ix3 h j d from funext fun a => Fin.ext (by match a with | ⟨0, _⟩ => rfl | ⟨1, _⟩ => rfl | ⟨2, _⟩ => rfl),
    val_main_v27_apply, v23_at, val_main_v26_apply, val_main_v25_apply,
    show idx_main_v25 (idx_main_v26 (ix3 h n j)) = ix2 h n from funext fun a => Fin.ext (by match a with | ⟨0, _⟩ => rfl | ⟨1, _⟩ => rfl), v24_at, v13_at]
  rfl

/-- The heads merged. -/
theorem v30_at (n : Fin 2048) (k : Fin 1024) :
    val_main_v30 (F := Ideal) x0 x1 x2 (ix2 n k) = attnRef (Yc x0 x1 x2) (⟨k.val / 64, by omega⟩ : Fin 16) n (⟨k.val % 64, by omega⟩ : Fin 64) := by
  rw [val_main_v30_apply, val_main_v29_apply,
    show idx_main_v29 (idx_main_v30 (ix2 n k)) = ix3 (⟨k.val / 64, by omega⟩ : Fin 16) n (⟨k.val % 64, by omega⟩ : Fin 64) from funext fun a => Fin.ext (by
      match a with
      | ⟨0, _⟩ => show (n.val * 1024 + k.val) / 64 % 16 = k.val / 64; omega
      | ⟨1, _⟩ => show (n.val * 1024 + k.val) / 1024 = n.val; omega
      | ⟨2, _⟩ => show (n.val * 1024 + k.val) % 64 = k.val % 64; omega)]
  exact v28_at x0 x1 x2 _ n _

/-- **The reference's result**, entry by entry. -/
theorem v35_at (n : Fin 2048) (cc : Fin 1024) :
    val_main_v35 (F := Ideal) x0 x1 x2 x3 x4 (ix2 n cc) = outOf (Wpc x3) (bpc x4) (attnRef (Yc x0 x1 x2)) n cc := by
  rw [val_main_v35_apply, val_main_v32_apply, val_main_v34_apply, val_main_v33_apply]
  unfold outOf
  show (∑ k : Fin 1024, val_main_v30 (F := Ideal) x0 x1 x2 (lidx_main_v32 (ix2 n cc) k) * val_main_v31 (F := Ideal) x3 (ridx_main_v32 (ix2 n cc) k)) + x4 (idx_main_v33 (idx_main_v34 (ix2 n cc))) = _
  congr 1
  · refine Finset.sum_congr rfl fun k _ => ?_
    rw [show lidx_main_v32 (ix2 n cc) k = ix2 n k from funext fun a => Fin.ext (by match a with | ⟨0, _⟩ => rfl | ⟨1, _⟩ => rfl),
      v30_at, val_main_v31_apply,
      show idx_main_v31 (ridx_main_v32 (ix2 n cc) k) = ix2 cc k from funext fun a => Fin.ext (by match a with | ⟨0, _⟩ => rfl | ⟨1, _⟩ => rfl)]
    rfl
  · rw [show idx_main_v33 (idx_main_v34 (ix2 n cc)) = ix1 cc from funext fun a => Fin.ext (by match a with | ⟨0, _⟩ => rfl)]
    rfl

end Cert.ReferenceIdeal.RefV

end
-- ==== Proof.FiniteIn.lean ====
/-
  From the precondition to real entries: the precondition is the conjunction, over the five arguments, of "every
  entry's absolute value is below +∞"; an extended real whose absolute value is below +∞ is a real number.
-/
import proofs.«141532_j82454782148610_2_alg».proof.Pre_finite_inputs
import proofs.«141532_j82454782148610_2_alg».proof.Proof.Gen.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

set_option maxRecDepth 16384

noncomputable section

namespace Cert.FiniteIn

open Cert.Pre_finite_inputs Idealize.ShloMosaic

instance : Subsingleton S_.Idx := ⟨fun a b => funext fun d => d.elim0⟩

/-- An extended real whose absolute value compares below the f32 word of +∞ is a real number. -/
theorem real_of_abs_lt (x : EReal)
    (h : FloatOps.cmpf (F := Ideal) (φ := .f32) .olt (FloatOps.absf (F := Ideal) (φ := .f32) x) (FloatOps.ofBits (F := Ideal) .f32 0x7F800000#32) = 1#1) :
    ∃ r : ℝ, x = r := by
  induction x with
  | bot => exfalso; revert h; simp [Ideal.cmpf_def, Ideal.absf_def, Ideal.cmp, Ideal.ofBits, Ideal.ieee]
  | coe r => exact ⟨r, rfl⟩
  | top => exfalso; revert h; simp [Ideal.cmpf_def, Ideal.absf_def, Ideal.cmp, Ideal.ofBits, Ideal.ieee]

variable [Facts]

/-- Under the precondition every entry of every argument is real. -/
theorem real_of_pre (a0 : FVec Ideal S2048x1024 .f32) (a1 : FVec Ideal S3072x1024 .f32) (a2 : FVec Ideal S3072 .f32)
    (a3 : FVec Ideal S1024x1024 .f32) (a4 : FVec Ideal S1024 .f32)
    (h : fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a3 i = r) ∧ (∀ i, ∃ r : ℝ, a4 i = r) := by
  have h0 := congrFun h ValueIdx.ix0
  dsimp only [fn, fn_part1] at h0
  change IntOp.andi (IntOp.andi (IntOp.andi (IntOp.andi _ _) _) _) _ = 1#1 at h0
  rw [IntOp.andi_eq_one, IntOp.andi_eq_one, IntOp.andi_eq_one, IntOp.andi_eq_one] at h0
  obtain ⟨⟨⟨⟨h3, h7⟩, h12⟩, h17⟩, h22⟩ := h0
  refine ⟨fun i => ?_, fun i => ?_, fun i => ?_, fun i => ?_, fun i => ?_⟩
  · exact real_of_abs_lt (a0 i) (Host.reduce_andi_all _ _ _ _ _ h3 i)
  · exact real_of_abs_lt (a1 i) (Host.reduce_andi_all _ _ _ _ _ h7 i)
  · exact real_of_abs_lt (a2 i) (Host.reduce_andi_all _ _ _ _ _ h12 i)
  · exact real_of_abs_lt (a3 i) (Host.reduce_andi_all _ _ _ _ _ h17 i)
  · exact real_of_abs_lt (a4 i) (Host.reduce_andi_all _ _ _ _ _ h22 i)

end Cert.FiniteIn

end
-- ==== Proof.lean ====
/-
  The certificate's claims assembled.  The kernel runs a fused projection (queries, keys and values in one product)
  and then attention over key/value blocks with the output projection folded in; the reference computes the same
  with whole matrices and a softmax.  The two kernel programs' frames come from the run of their three segments; the
  reference's from its run.  No operation was rewritten for the idealized kernel, so nothing is owed for it.  At the
  ideal values both programs end at the projected attention of the fused projection of the arguments: the kernel
  with each head's weighted value sum divided once by the total weight, the reference with the weights normalised
  first; for real arguments (the precondition) the two agree.
-/
import proofs.«141532_j82454782148610_2_alg».proof.Defs
import proofs.«141532_j82454782148610_2_alg».proof.Proof.Gen.Kernel
import proofs.«141532_j82454782148610_2_alg».proof.Proof.Gen.KernelIdeal
import proofs.«141532_j82454782148610_2_alg».proof.Proof.Gen.ReferenceIdeal
import proofs.«141532_j82454782148610_2_alg».proof.Proof.Gen.ReferenceIdeal.Run
import proofs.«141532_j82454782148610_2_alg».proof.Proof.Gen.ReferenceIdeal.Read
import proofs.«141532_j82454782148610_2_alg».proof.Proof.Gen.Pre_finite_inputs
import proofs.«141532_j82454782148610_2_alg».proof.Proof.FK.Run
import proofs.«141532_j82454782148610_2_alg».proof.Proof.FI.Run
import proofs.«141532_j82454782148610_2_alg».proof.Proof.VI.Proj
import proofs.«141532_j82454782148610_2_alg».proof.Proof.RefV
import proofs.«141532_j82454782148610_2_alg».proof.Proof.FiniteIn
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ
theorem frame_ki : Cert.frame_KernelIdeal (hKernelIdeal := Cert.KernelIdeal.Gen.facts) (hPre_finite_inputs := Cert.Pre_finite_inputs.Gen.facts) :=
  fun m ρ _ => Cert.KernelIdeal.Hand.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two idealized programs end with equal results: both the projected attention of the fused projection of the
    arguments, the kernel's heads divided once, the reference's weights normalised first. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  haveI := Cert.Pre_finite_inputs.Gen.facts
  refine ⟨fun c => (Cert.KernelIdeal.Hand.dat1 (Cert.KernelIdeal.Hand.V2 m) c).arrAt 5 Cert.KernelIdeal.cfg1.N, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4⟩ := Cert.FiniteIn.real_of_pre _ _ _ _ _ (hpre c)
  have hX : ∀ n k, ∃ x : ℝ, Cert.KernelIdeal.Hand.Xk m c n k = x := fun n k => r0 _
  have hW : ∀ j k, ∃ x : ℝ, Cert.KernelIdeal.Hand.Wqk m c j k = x := fun j k => r1 _
  have hb : ∀ j, ∃ x : ℝ, Cert.KernelIdeal.Hand.bqk m c j = x := fun j => r2 _
  rw [Cert.ReferenceIdeal.Read.val_main_v35_eq, (hagree c).1, (hagree c).2.1, (hagree c).2.2.1, (hagree c).2.2.2.1, (hagree c).2.2.2.2]
  beta_reduce
  rw [Cert.KernelIdeal.Hand.kernel_value m c hX hW hb]
  funext i
  obtain ⟨n, cc, rfl⟩ : ∃ (n : Fin 2048) (cc : Fin 1024), i = ValueIdx.ix2 n cc := ⟨i 0, i 1, ValueIdx.eq_ix2 i⟩
  rw [Cert.ReferenceIdeal.RefV.v35_at]
  exact Cert.Attn.outOf_congr _ _ (fun h n d => Cert.Attn.attnRef_eq_attnKer _ (Cert.Attn.qkv_real _ _ _ hX hW hb) h n d) n cc

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
